-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x8x8 : Shape := ⟨4, ![2048, 256, 8, 8]⟩
abbrev S1x64x256 : Shape := ⟨3, ![1, 64, 256]⟩
abbrev S256 : Shape := ⟨1, ![256]⟩
abbrev S768x256 : Shape := ⟨2, ![768, 256]⟩
abbrev S3 : Shape := ⟨1, ![3]⟩
abbrev S_ : Shape := ⟨0, ![]⟩

class Facts : Prop where
  bcast_S_S2048x256x8x8 : S_.BroadcastsInDim S2048x256x8x8 (![] : Fin 0 → Fin S2048x256x8x8.rank)
  reducesTo_S2048x256x8x8_S_d0_1_2_3 : S2048x256x8x8.ReducesTo [0, 1, 2, 3] S_
  h_S_ : 0 < S_.numel
  bcast_S_S1x64x256 : S_.BroadcastsInDim S1x64x256 (![] : Fin 0 → Fin S1x64x256.rank)
  reducesTo_S1x64x256_S_d0_1_2 : S1x64x256.ReducesTo [0, 1, 2] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S256 .f32) (main_arg8 : FVec F S256 .f32) (main_arg9 : FVec F S768x256 .f32) (main_arg10 : FVec F S768x256 .f32) (main_arg11 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S768x256 .f32 := Host.absf main_arg9
  let main_cst_16 : FVec F S_ .f32 := constant S_ .f32 0x7F800000#32
  let main_v45 : FVec F S768x256 .f32 := broadcastInDim S768x256 ![] bcast_S_S768x256 main_cst_16
  let main_v46 : IVec S768x256 1 := cmpf .olt main_v44 main_v45
  let main_c_17 : IVec S_ 1 := constantI S_ 1 1#1
  let main_v47 : IVec S_ 1 := (fun x v => Host.reduce IntOp.andi x v reducesTo_S768x256_S_d0_1 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_v48 main_v49 main_v50

def fn_part1 {F : FTy → Type} [FloatOps F] (main_arg4 : FVec F S1x64x256 .f32) (main_arg5 : FVec F S256 .f32) (main_arg6 : FVec F S256 .f32) (main_arg7 : FVec F S256 .f32) (main_arg8 : FVec F S256 .f32) (main_arg9 : FVec F S768x256 .f32) (main_arg10 : FVec F S768x256 .f32) (main_arg11 : FVec F S3 .f32) (main_v13 : IVec S_ 1) (main_v16 : IVec S1x64x256 1) : IVec S_ 1 :=
  let main_c_5 : IVec S_ 1 := constantI S_ 1 1#1
  let main_v17 : IVec S_ 1 := (fun x v => Host.reduce IntOp.andi x v reducesTo_S1x64x256_S_d0_1_2 h_S_) main_v16 main_c_5
  let main_v18 : IVec S_ 1 := andi main_v13 main_v17
  let main_v19 : FVec F S1x64x256 .f32 := Host.absf main_arg4
  let main_cst_6 : FVec F S_ .f32 := constant S_ .f32 0x7F800000#32
  let main_v20 : FVec F S1x64x256 .f32 := broadcastInDim S1x64x256 ![] bcast_S_S1x64x256 main_cst_6
  let main_v21 : IVec S1x64x256 1 := cmpf .olt main_v19 main_v20
  let main_c_7 : IVec S_ 1 := constantI S_ 1 1#1
  let main_v22 : IVec S_ 1 := (fun x v => Host.reduce IntOp.andi x v reducesTo_S1x64x256_S_d0_1_2 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x256x8x8 .f32) (main_arg1 : FVec F S2048x256x8x8 .f32) (main_arg2 : FVec F S2048x256x8x8 .f32) (main_arg3 : FVec F S1x64x256 .f32) (main_arg4 : FVec F S1x64x256 .f32) (main_arg5 : FVec F S256 .f32) (main_arg6 : FVec F S256 .f32) (main_arg7 : FVec F S256 .f32) (main_arg8 : FVec F S256 .f32) (main_arg9 : FVec F S768x256 .f32) (main_arg10 : FVec F S768x256 .f32) (main_arg11 : FVec F S3 .f32) : IVec S_ 1 :=
  let main_v0 : FVec F S2048x256x8x8 .f32 := Host.absf main_arg0
  let main_cst : FVec F S_ .f32 := constant S_ .f32 0x7F800000#32
  let main_v1 : FVec F S2048x256x8x8 .f32 := broadcastInDim S2048x256x8x8 ![] bcast_S_S2048x256x8x8 main_cst
  let main_v2 : IVec S2048x256x8x8 1 := cmpf .olt main_v0 main_v1
  let main_c : IVec S_ 1 := constantI S_ 1 1#1
  let main_v3 : IVec S_ 1 := (fun x v => Host.reduce IntOp.andi x v reducesTo_S2048x256x8x8_S_d0_1_2_3 h_S_) main_v2 main_c
  let main_v4 : FVec F S2048x256x8x8 .f32 := Host.absf main_arg1
  let main_cst_0 : FVec F S_ .f32 := constant S_ .f32 0x7F800000#32
  let main_v5 : FVec F S2048x256x8x8 .f32 := broadcastInDim S2048x256x8x8 ![] bcast_S_S2048x256x8x8 main_cst_0
  let main_v6 : IVec S2048x256x8x8 1 := cmpf .olt main_v4 main_v5
  let main_c_1 : IVec S_ 1 := constantI S_ 1 1#1
  let main_v7 : IVec S_ 1 := (fun x v => Host.reduce IntOp.andi x v reducesTo_S2048x256x8x8_S_d0_1_2_3 h_S_) main_v6 main_c_1
  let main_v8 : IVec S_ 1 := andi main_v3 main_v7
  let main_v9 : FVec F S2048x256x8x8 .f32 := Host.absf main_arg2
  let main_cst_2 : FVec F S_ .f32 := constant S_ .f32 0x7F800000#32
  let main_v10 : FVec F S2048x256x8x8 .f32 := broadcastInDim S2048x256x8x8 ![] bcast_S_S2048x256x8x8 main_cst_2
  let main_v11 : IVec S2048x256x8x8 1 := cmpf .olt main_v9 main_v10
  let main_c_3 : IVec S_ 1 := constantI S_ 1 1#1
  let main_v12 : IVec S_ 1 := (fun x v => Host.reduce IntOp.andi x v reducesTo_S2048x256x8x8_S_d0_1_2_3 h_S_) main_v11 main_c_3
  let main_v13 : IVec S_ 1 := andi main_v8 main_v12
  let main_v14 : FVec F S1x64x256 .f32 := Host.absf main_arg3
  let main_cst_4 : FVec F S_ .f32 := constant S_ .f32 0x7F800000#32
  let main_v15 : FVec F S1x64x256 .f32 := broadcastInDim S1x64x256 ![] bcast_S_S1x64x256 main_cst_4
  let main_v16 : IVec S1x64x256 1 := cmpf .olt main_v14 main_v15
  fn_part1 (F := F) main_arg4 main_arg5 main_arg6 main_arg7 main_arg8 main_arg9 main_arg10 main_arg11 main_v13 main_v16
-- ==== Kernel.lean ====
abbrev S2048x256x8x8 : Shape := ⟨4, ![2048, 256, 8, 8]⟩
abbrev S1x64x256 : Shape := ⟨3, ![1, 64, 256]⟩
abbrev S256 : Shape := ⟨1, ![256]⟩
abbrev S768x256 : Shape := ⟨2, ![768, 256]⟩
abbrev S3 : Shape := ⟨1, ![3]⟩
abbrev S2048x256x64 : Shape := ⟨3, ![2048, 256, 64]⟩
abbrev S256x768 : Shape := ⟨2, ![256, 768]⟩
abbrev S16x256x64 : Shape := ⟨3, ![16, 256, 64]⟩
abbrev S16x64x256 : Shape := ⟨3, ![16, 64, 256]⟩
abbrev S16x64 : Shape := ⟨2, ![16, 64]⟩
abbrev S16x64x1 : Shape := ⟨3, ![16, 64, 1]⟩
abbrev S1x1x256 : Shape := ⟨3, ![1, 1, 256]⟩
abbrev S1024x256 : Shape := ⟨2, ![1024, 256]⟩
abbrev S1024x768 : Shape := ⟨2, ![1024, 768]⟩
abbrev S16x64x768 : Shape := ⟨3, ![16, 64, 768]⟩
abbrev S16x64x32 : Shape := ⟨3, ![16, 64, 32]⟩
abbrev S128x64x32 : Shape := ⟨3, ![128, 64, 32]⟩
abbrev S128x64x64 : Shape := ⟨3, ![128, 64, 64]⟩
abbrev S128x64 : Shape := ⟨2, ![128, 64]⟩
abbrev S128x64x1 : Shape := ⟨3, ![128, 64, 1]⟩
abbrev S1 : Shape := ⟨1, ![1]⟩

abbrev nBuf : Space → Nat
  | .hbm => 21
  | .vmem => 17
  | .smem => 0
  | _ => 0

abbrev bufTy : (tb : Table) → Fin (tcTables nBuf tb) → BufTy
  | .hbm, ⟨0, _⟩ => ⟨S2048x256x8x8, .f32⟩
  | .hbm, ⟨1, _⟩ => ⟨S2048x256x8x8, .f32⟩
  | .hbm, ⟨2, _⟩ => ⟨S2048x256x8x8, .f32⟩
  | .hbm, ⟨3, _⟩ => ⟨S1x64x256, .f32⟩
  | .hbm, ⟨4, _⟩ => ⟨S1x64x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S768x256, .f32⟩
  | .hbm, ⟨10, _⟩ => ⟨S768x256, .f32⟩
  | .hbm, ⟨11, _⟩ => ⟨S3, .f32⟩
  | .hbm, ⟨12, _⟩ => ⟨S2048x256x64, .f32⟩
  | .hbm, ⟨13, _⟩ => ⟨S2048x256x64, .f32⟩
  | .hbm, ⟨14, _⟩ => ⟨S2048x256x64, .f32⟩
  | .hbm, ⟨15, _⟩ => ⟨S256x768, .f32⟩
  | .hbm, ⟨16, _⟩ => ⟨S256x768, .bf16⟩
  | .hbm, ⟨17, _⟩ => ⟨S256x768, .f32⟩
  | .hbm, ⟨18, _⟩ => ⟨S256x768, .bf16⟩
  | .hbm, ⟨19, _⟩ => ⟨S2048x256x64, .f32⟩
  | .hbm, ⟨20, _⟩ => ⟨S2048x256x8x8, .f32⟩
  | .local _ .vmem, ⟨0, _⟩ => ⟨S16x256x64, .f32⟩
  | .local _ .vmem, ⟨1, _⟩ => ⟨S16x256x64, .f32⟩
  | .local _ .vmem, ⟨2, _⟩ => ⟨S16x256x64, .f32⟩
  | .local _ .vmem, ⟨3, _⟩ => ⟨S16x256x64, .f32⟩
  | .local _ .vmem, ⟨4, _⟩ => ⟨S16x256x64, .f32⟩
  | .local _ .vmem, ⟨5, _⟩ => ⟨S16x256x64, .f32⟩
  | .local _ .vmem, ⟨6, _⟩ => ⟨S1x64x256, .f32⟩
  | .local _ .vmem, ⟨7, _⟩ => ⟨S1x64x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x768, .bf16⟩
  | .local _ .vmem, ⟨13, _⟩ => ⟨S256x768, .bf16⟩
  | .local _ .vmem, ⟨14, _⟩ => ⟨S3, .f32⟩
  | .local _ .vmem, ⟨15, _⟩ => ⟨S16x256x64, .f32⟩
  | .local _ .vmem, ⟨16, _⟩ => ⟨S16x256x64, .f32⟩
  | _, _ => ⟨S2048x256x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S2048x256x8x8_S2048x256x64 : S2048x256x8x8.ShapeCasts S2048x256x64
  transposes_S768x256_S256x768_1_0 : S768x256.Transposes [1, 0] S256x768
  bitsLt_bf16_f32 : FTy.bits .bf16 < FTy.bits .f32
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  transposes_S16x256x64_p0_2_1_S16x64x256 : S16x256x64.Transposes [0, 2, 1] S16x64x256
  inb_S1x64x256_S1x64x256_0_0_0 : ∀ a, (![0, 0, 0] : Fin 3 → Nat) a + S1x64x256.size a ≤ S1x64x256.size a
  h_S1x64x256 : 0 < S1x64x256.numel
  broadcasts_S1x64x256_S16x64x256 : S1x64x256.Broadcasts S16x64x256
  inb_S256_S256_0 : ∀ a, (![0] : Fin 1 → Nat) a + S256.size a ≤ S256.size a
  h_S256 : 0 < S256.numel
  reduces_S16x64x256_S16x64 : S16x64x256.Reduces [2] S16x64
  shapeCasts_S16x64_S16x64x1 : S16x64.ShapeCasts S16x64x1
  broadcasts_S16x64x1_S16x64x256 : S16x64x1.Broadcasts S16x64x256
  shapeCasts_S256_S1x1x256 : S256.ShapeCasts S1x1x256
  broadcasts_S1x1x256_S16x64x256 : S1x1x256.Broadcasts S16x64x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S16x64x256_S1024x256 : S16x64x256.ShapeCasts S1024x256
  shapeCasts_S1024x768_S16x64x768 : S1024x768.ShapeCasts S16x64x768
  slices_S16x64x768_o0_0_0_S16x64x256 : S16x64x768.Slices ![0, 0, 0] S16x64x256
  slices_S16x64x768_o0_0_256_S16x64x256 : S16x64x768.Slices ![0, 0, 256] S16x64x256
  slices_S16x64x768_o0_0_512_S16x64x256 : S16x64x768.Slices ![0, 0, 512] S16x64x256
  slices_S16x64x256_o0_0_0_S16x64x32 : S16x64x256.Slices ![0, 0, 0] S16x64x32
  slices_S16x64x256_o0_0_32_S16x64x32 : S16x64x256.Slices ![0, 0, 32] S16x64x32
  slices_S16x64x256_o0_0_64_S16x64x32 : S16x64x256.Slices ![0, 0, 64] S16x64x32
  slices_S16x64x256_o0_0_96_S16x64x32 : S16x64x256.Slices ![0, 0, 96] S16x64x32
  slices_S16x64x256_o0_0_128_S16x64x32 : S16x64x256.Slices ![0, 0, 128] S16x64x32
  slices_S16x64x256_o0_0_160_S16x64x32 : S16x64x256.Slices ![0, 0, 160] S16x64x32
  slices_S16x64x256_o0_0_192_S16x64x32 : S16x64x256.Slices ![0, 0, 192] S16x64x32
  slices_S16x64x256_o0_0_224_S16x64x32 : S16x64x256.Slices ![0, 0, 224] S16x64x32
  concatenates_S16x64x32_S16x64x32_S16x64x32_S16x64x32_S16x64x32_S16x64x32_S16x64x32_S16x64x32_S128x64x32_d0 : Shape.Concatenates [S16x64x32, S16x64x32, S16x64x32, S16x64x32, S16x64x32, S16x64x32, S16x64x32, S16x64x32] S128x64x32 0
  reduces_S128x64x64_S128x64 : S128x64x64.Reduces [2] S128x64
  shapeCasts_S128x64_S128x64x1 : S128x64.ShapeCasts S128x64x1
  broadcasts_S128x64x1_S128x64x64 : S128x64x1.Broadcasts S128x64x64
  slices_S128x64x32_o0_0_0_S16x64x32 : S128x64x32.Slices ![0, 0, 0] S16x64x32
  slices_S128x64x32_o16_0_0_S16x64x32 : S128x64x32.Slices ![16, 0, 0] S16x64x32
  slices_S128x64x32_o32_0_0_S16x64x32 : S128x64x32.Slices ![32, 0, 0] S16x64x32
  slices_S128x64x32_o48_0_0_S16x64x32 : S128x64x32.Slices ![48, 0, 0] S16x64x32
  slices_S128x64x32_o64_0_0_S16x64x32 : S128x64x32.Slices ![64, 0, 0] S16x64x32
  slices_S128x64x32_o80_0_0_S16x64x32 : S128x64x32.Slices ![80, 0, 0] S16x64x32
  slices_S128x64x32_o96_0_0_S16x64x32 : S128x64x32.Slices ![96, 0, 0] S16x64x32
  slices_S128x64x32_o112_0_0_S16x64x32 : S128x64x32.Slices ![112, 0, 0] S16x64x32
  concatenates_S16x64x32_S16x64x32_S16x64x32_S16x64x32_S16x64x32_S16x64x32_S16x64x32_S16x64x32_S16x64x256_d2 : Shape.Concatenates [S16x64x32, S16x64x32, S16x64x32, S16x64x32, S16x64x32, S16x64x32, S16x64x32, S16x64x32] S16x64x256 2
  inb_S3_S3_0 : ∀ a, (![0] : Fin 1 → Nat) a + S3.size a ≤ S3.size a
  h_S3 : 0 < S3.numel
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  transposes_S16x64x256_p0_2_1_S16x256x64 : S16x64x256.Transposes [0, 2, 1] S16x256x64
  shapeCasts_S2048x256x64_S2048x256x8x8 : S2048x256x64.ShapeCasts S2048x256x8x8
  dot_S1024x256_S256x768_S1024x768_1_0_0_1_n_n_wf : DotDims.WF S1024x256 S256x768 S1024x768 [1] [0] [0] [1] [] []
  dot_S128x64x32_S128x64x32_S128x64x64_2_2_1_1_0_0_wf : DotDims.WF S128x64x32 S128x64x32 S128x64x64 [2] [2] [1] [1] [0] [0]
  dot_S128x64x64_S128x64x32_S128x64x32_2_1_1_2_0_0_wf : DotDims.WF S128x64x64 S128x64x32 S128x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S2048x256x64.size a
  hwx0_0 : ∀ i : grid0.Coords, EltTy.bits .f32 = 32 ∨ (Rect.block (s := S2048x256x64) S16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x64.size a ≤ S2048x256x64.size a
  hwx0_1 : ∀ i : grid0.Coords, EltTy.bits .f32 = 32 ∨ (Rect.block (s := S2048x256x64) S16x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x64.size a ≤ S2048x256x64.size a
  hwx0_2 : ∀ i : grid0.Coords, EltTy.bits .f32 = 32 ∨ (Rect.block (s := S2048x256x64) S16x256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S1x64x256.size a
  hwx0_3 : ∀ i : grid0.Coords, EltTy.bits .f32 = 32 ∨ (Rect.block (s := S1x64x256) S1x64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S1x64x256.size a
  hwx0_4 : ∀ i : grid0.Coords, EltTy.bits .f32 = 32 ∨ (Rect.block (s := S1x64x256) S1x64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .bf16 = 32 ∨ (Rect.block (s := S256x768) S256x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x768.size a ≤ S256x768.size a
  hwx0_10 : ∀ i : grid0.Coords, EltTy.bits .bf16 = 32 ∨ (Rect.block (s := S256x768) S256x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3.size a ≤ S3.size a
  hwx0_11 : ∀ i : grid0.Coords, EltTy.bits .f32 = 32 ∨ (Rect.block (s := S3) S3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x256x64.size a ≤ S2048x256x64.size a
  hwx0_12 : ∀ i : grid0.Coords, EltTy.bits .f32 = 32 ∨ (Rect.block (s := S2048x256x64) S16x256x64.size (cc0_transform_12 i) (hinb0_12 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S128x64x32_S128x64x32_S128x64x64_2_2_1_1_0_0 : DotDims S128x64x32 S128x64x32 S128x64x64 where
  lhsContracting := [2]
  rhsContracting := [2]
  lhsNonContracting := [1]
  rhsNonContracting := [1]
  lhsBatch := [0]
  rhsBatch := [0]
  wf := dot_S128x64x32_S128x64x32_S128x64x64_2_2_1_1_0_0_wf
def dot_S128x64x64_S128x64x32_S128x64x32_2_1_1_2_0_0 : DotDims S128x64x64 S128x64x32 S128x64x32 where
  lhsContracting := [2]
  rhsContracting := [1]
  lhsNonContracting := [1]
  rhsNonContracting := [2]
  lhsBatch := [0]
  rhsBatch := [0]
  wf := dot_S128x64x64_S128x64x32_S128x64x32_2_1_1_2_0_0_wf

abbrev win0_0 : Pipeline.Window sig grid0 :=
  Pipeline.Window.ofSpec (Memref.whole main_v0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S16x256x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2048x256x8x8 : Shape := ⟨4, ![2048, 256, 8, 8]⟩
abbrev S1x64x256 : Shape := ⟨3, ![1, 64, 256]⟩
abbrev S256 : Shape := ⟨1, ![256]⟩
abbrev S768x256 : Shape := ⟨2, ![768, 256]⟩
abbrev S3 : Shape := ⟨1, ![3]⟩
abbrev S2048x8x8x256 : Shape := ⟨4, ![2048, 8, 8, 256]⟩
abbrev S2048x64x256 : Shape := ⟨3, ![2048, 64, 256]⟩
abbrev S_ : Shape := ⟨0, ![]⟩
abbrev S2048x64 : Shape := ⟨2, ![2048, 64]⟩
abbrev S2048x64x1 : Shape := ⟨3, ![2048, 64, 1]⟩
abbrev S1x1x256 : Shape := ⟨3, ![1, 1, 256]⟩
abbrev S2048x64x768 : Shape := ⟨3, ![2048, 64, 768]⟩
abbrev S2048x64x3x8x32 : Shape := ⟨5, ![2048, 64, 3, 8, 32]⟩
abbrev S3x2048x8x64x32 : Shape := ⟨5, ![3, 2048, 8, 64, 32]⟩
abbrev S1x2048x8x64x32 : Shape := ⟨5, ![1, 2048, 8, 64, 32]⟩
abbrev S2048x8x64x32 : Shape := ⟨4, ![2048, 8, 64, 32]⟩
abbrev S2048x8x64x64 : Shape := ⟨4, ![2048, 8, 64, 64]⟩
abbrev S2048x8x64 : Shape := ⟨3, ![2048, 8, 64]⟩
abbrev S2048x8x64x1 : Shape := ⟨4, ![2048, 8, 64, 1]⟩
abbrev S2048x64x8x32 : Shape := ⟨4, ![2048, 64, 8, 32]⟩
abbrev S1 : Shape := ⟨1, ![1]⟩
abbrev S2048x256x64 : Shape := ⟨3, ![2048, 256, 64]⟩

abbrev nBuf : Space → Nat
  | .hbm => 156
  | .vmem => 0
  | .smem => 0
  | _ => 0

abbrev hbmTy0_0 (i : Nat) : BufTy := match i % 128 with
  | 0 => ⟨S2048x256x8x8, .f32⟩
  | 1 => ⟨S2048x256x8x8, .f32⟩
  | 2 => ⟨S2048x256x8x8, .f32⟩
  | 3 => ⟨S1x64x256, .f32⟩
  | 4 => ⟨S1x64x256, .f32⟩
  | 5 => ⟨S256, .f32⟩
  | 6 => ⟨S256, .f32⟩
  | 7 => ⟨S256, .f32⟩
  | 8 => ⟨S256, .f32⟩
  | 9 => ⟨S768x256, .f32⟩
  | 10 => ⟨S768x256, .f32⟩
  | 11 => ⟨S3, .f32⟩
  | 12 => ⟨S2048x8x8x256, .f32⟩
  | 13 => ⟨S2048x64x256, .f32⟩
  | 14 => ⟨S2048x8x8x256, .f32⟩
  | 15 => ⟨S2048x64x256, .f32⟩
  | 16 => ⟨S2048x64x256, .f32⟩
  | 17 => ⟨S2048x64x256, .f32⟩
  | 18 => ⟨S_, .f32⟩
  | 19 => ⟨S2048x64, .f32⟩
  | 20 => ⟨S2048x64x1, .f32⟩
  | 21 => ⟨S_, .f32⟩
  | 22 => ⟨S2048x64x1, .f32⟩
  | 23 => ⟨S2048x64x1, .f32⟩
  | 24 => ⟨S2048x64x256, .f32⟩
  | 25 => ⟨S2048x64x256, .f32⟩
  | 26 => ⟨S2048x64x256, .f32⟩
  | 27 => ⟨S_, .f32⟩
  | 28 => ⟨S2048x64, .f32⟩
  | 29 => ⟨S2048x64x1, .f32⟩
  | 30 => ⟨S_, .f32⟩
  | 31 => ⟨S2048x64x1, .f32⟩
  | 32 => ⟨S2048x64x1, .f32⟩
  | 33 => ⟨S2048x64x256, .f32⟩
  | 34 => ⟨S2048x64x256, .f32⟩
  | 35 => ⟨S_, .f32⟩
  | 36 => ⟨S2048x64x1, .f32⟩
  | 37 => ⟨S2048x64x1, .f32⟩
  | 38 => ⟨S2048x64x1, .f32⟩
  | 39 => ⟨S2048x64x256, .f32⟩
  | 40 => ⟨S2048x64x256, .f32⟩
  | 41 => ⟨S1x1x256, .f32⟩
  | 42 => ⟨S2048x64x256, .f32⟩
  | 43 => ⟨S2048x64x256, .f32⟩
  | 44 => ⟨S1x1x256, .f32⟩
  | 45 => ⟨S2048x64x256, .f32⟩
  | 46 => ⟨S2048x64x256, .f32⟩
  | 47 => ⟨S2048x8x8x256, .f32⟩
  | 48 => ⟨S2048x64x256, .f32⟩
  | 49 => ⟨S2048x64x256, .f32⟩
  | 50 => ⟨S2048x64x256, .f32⟩
  | 51 => ⟨S_, .f32⟩
  | 52 => ⟨S2048x64, .f32⟩
  | 53 => ⟨S2048x64x1, .f32⟩
  | 54 => ⟨S_, .f32⟩
  | 55 => ⟨S2048x64x1, .f32⟩
  | 56 => ⟨S2048x64x1, .f32⟩
  | 57 => ⟨S2048x64x256, .f32⟩
  | 58 => ⟨S2048x64x256, .f32⟩
  | 59 => ⟨S2048x64x256, .f32⟩
  | 60 => ⟨S_, .f32⟩
  | 61 => ⟨S2048x64, .f32⟩
  | 62 => ⟨S2048x64x1, .f32⟩
  | 63 => ⟨S_, .f32⟩
  | 64 => ⟨S2048x64x1, .f32⟩
  | 65 => ⟨S2048x64x1, .f32⟩
  | 66 => ⟨S2048x64x256, .f32⟩
  | 67 => ⟨S2048x64x256, .f32⟩
  | 68 => ⟨S_, .f32⟩
  | 69 => ⟨S2048x64x1, .f32⟩
  | 70 => ⟨S2048x64x1, .f32⟩
  | 71 => ⟨S2048x64x1, .f32⟩
  | 72 => ⟨S2048x64x256, .f32⟩
  | 73 => ⟨S2048x64x256, .f32⟩
  | 74 => ⟨S1x1x256, .f32⟩
  | 75 => ⟨S2048x64x256, .f32⟩
  | 76 => ⟨S2048x64x256, .f32⟩
  | 77 => ⟨S1x1x256, .f32⟩
  | 78 => ⟨S2048x64x256, .f32⟩
  | 79 => ⟨S2048x64x256, .f32⟩
  | 80 => ⟨S2048x64x768, .f32⟩
  | 81 => ⟨S2048x64x3x8x32, .f32⟩
  | 82 => ⟨S3x2048x8x64x32, .f32⟩
  | 83 => ⟨S1x2048x8x64x32, .f32⟩
  | 84 => ⟨S2048x8x64x32, .f32⟩
  | 85 => ⟨S1x2048x8x64x32, .f32⟩
  | 86 => ⟨S2048x8x64x32, .f32⟩
  | 87 => ⟨S1x2048x8x64x32, .f32⟩
  | 88 => ⟨S2048x8x64x32, .f32⟩
  | 89 => ⟨S2048x64x768, .f32⟩
  | 90 => ⟨S2048x64x3x8x32, .f32⟩
  | 91 => ⟨S3x2048x8x64x32, .f32⟩
  | 92 => ⟨S1x2048x8x64x32, .f32⟩
  | 93 => ⟨S2048x8x64x32, .f32⟩
  | 94 => ⟨S1x2048x8x64x32, .f32⟩
  | 95 => ⟨S2048x8x64x32, .f32⟩
  | 96 => ⟨S1x2048x8x64x32, .f32⟩
  | 97 => ⟨S2048x8x64x32, .f32⟩
  | 98 => ⟨S2048x8x64x64, .f32⟩
  | 99 => ⟨S_, .f32⟩
  | 100 => ⟨S2048x8x64x64, .f32⟩
  | 101 => ⟨S2048x8x64x64, .f32⟩
  | 102 => ⟨S_, .f32⟩
  | 103 => ⟨S2048x8x64, .f32⟩
  | 104 => ⟨S_, .f32⟩
  | 105 => ⟨S2048x8x64, .f32⟩
  | 106 => ⟨S2048x8x64, .f32⟩
  | 107 => ⟨S2048x8x64x1, .f32⟩
  | 108 => ⟨S2048x8x64x64, .f32⟩
  | 109 => ⟨S2048x8x64x64, .f32⟩
  | 110 => ⟨S2048x8x64x64, .f32⟩
  | 111 => ⟨S_, .f32⟩
  | 112 => ⟨S2048x8x64, .f32⟩
  | 113 => ⟨S2048x8x64x1, .f32⟩
  | 114 => ⟨S2048x8x64x64, .f32⟩
  | 115 => ⟨S2048x8x64x64, .f32⟩
  | 116 => ⟨S2048x8x64x64, .f32⟩
  | 117 => ⟨S_, .f32⟩
  | 118 => ⟨S2048x8x64x64, .f32⟩
  | 119 => ⟨S2048x8x64x64, .f32⟩
  | 120 => ⟨S_, .f32⟩
  | 121 => ⟨S2048x8x64, .f32⟩
  | 122 => ⟨S_, .f32⟩
  | 123 => ⟨S2048x8x64, .f32⟩
  | 124 => ⟨S2048x8x64, .f32⟩
  | 125 => ⟨S2048x8x64x1, .f32⟩
  | 126 => ⟨S2048x8x64x64, .f32⟩
  | 127 => ⟨S2048x8x64x64, .f32⟩
  | _ => ⟨S2048x256x8x8, .f32⟩

abbrev hbmTy0_1 (i : Nat) : BufTy := match i % 128 with
  | 0 => ⟨S2048x8x64x64, .f32⟩
  | 1 => ⟨S_, .f32⟩
  | 2 => ⟨S2048x8x64, .f32⟩
  | 3 => ⟨S2048x8x64x1, .f32⟩
  | 4 => ⟨S2048x8x64x64, .f32⟩
  | 5 => ⟨S2048x8x64x64, .f32⟩
  | 6 => ⟨S2048x8x64x32, .f32⟩
  | 7 => ⟨S2048x64x8x32, .f32⟩
  | 8 => ⟨S2048x64x256, .f32⟩
  | 9 => ⟨S2048x8x64x32, .f32⟩
  | 10 => ⟨S2048x64x8x32, .f32⟩
  | 11 => ⟨S2048x64x256, .f32⟩
  | 12 => ⟨S1, .f32⟩
  | 13 => ⟨S_, .f32⟩
  | 14 => ⟨S2048x64x256, .f32⟩
  | 15 => ⟨S2048x64x256, .f32⟩
  | 16 => ⟨S1, .f32⟩
  | 17 => ⟨S_, .f32⟩
  | 18 => ⟨S2048x64x256, .f32⟩
  | 19 => ⟨S2048x64x256, .f32⟩
  | 20 => ⟨S2048x64x256, .f32⟩
  | 21 => ⟨S1, .f32⟩
  | 22 => ⟨S_, .f32⟩
  | 23 => ⟨S2048x64x256, .f32⟩
  | 24 => ⟨S2048x64x256, .f32⟩
  | 25 => ⟨S2048x64x256, .f32⟩
  | 26 => ⟨S2048x256x64, .f32⟩
  | 27 => ⟨S2048x256x8x8, .f32⟩
  | _ => ⟨S2048x256x8x8, .f32⟩

abbrev hbmTy (i : Nat) : BufTy := match i / 128 with
  | 0 => hbmTy0_0 i
  | 1 => hbmTy0_1 i
  | _ => ⟨S2048x256x8x8, .f32⟩

abbrev bufTy : (tb : Table) → Fin (tcTables nBuf tb) → BufTy
  | .hbm, ⟨i, _⟩ => hbmTy i
  | _, _ => ⟨S2048x256x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_cst_10 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_16 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩

abbrev nD : Nat := 1
abbrev τ : Topo := Topo.v7x

variable {F : FTy → Type} [FloatOps F]

class Facts₀ : Prop where
  transposes_S2048x256x8x8_S2048x8x8x256_0_2_3_1 : S2048x256x8x8.Transposes [0, 2, 3, 1] S2048x8x8x256
  shapeCasts_S2048x8x8x256_S2048x64x256 : S2048x8x8x256.ShapeCasts S2048x64x256
  bcast_S1x64x256_S2048x64x256_0_1_2 : S1x64x256.BroadcastsInDim S2048x64x256 (![0, 1, 2] : Fin 3 → Fin S2048x64x256.rank)
  reducesTo_S2048x64x256_S2048x64_d2 : S2048x64x256.ReducesTo [2] S2048x64
  h_S_ : 0 < S_.numel
  bcast_S2048x64_S2048x64x1_0_1 : S2048x64.BroadcastsInDim S2048x64x1 (![0, 1] : Fin 2 → Fin S2048x64x1.rank)
  bcast_S_S2048x64x1 : S_.BroadcastsInDim S2048x64x1 (![] : Fin 0 → Fin S2048x64x1.rank)
  bcast_S2048x64x1_S2048x64x256_0_1_2 : S2048x64x1.BroadcastsInDim S2048x64x256 (![0, 1, 2] : Fin 3 → Fin S2048x64x256.rank)
  bcast_S256_S1x1x256_2 : S256.BroadcastsInDim S1x1x256 (![2] : Fin 1 → Fin S1x1x256.rank)
  bcast_S1x1x256_S2048x64x256_0_1_2 : S1x1x256.BroadcastsInDim S2048x64x256 (![0, 1, 2] : Fin 3 → Fin S2048x64x256.rank)
  shapeCasts_S2048x64x768_S2048x64x3x8x32 : S2048x64x768.ShapeCasts S2048x64x3x8x32
  transposes_S2048x64x3x8x32_S3x2048x8x64x32_2_0_3_1_4 : S2048x64x3x8x32.Transposes [2, 0, 3, 1, 4] S3x2048x8x64x32
  slices_S3x2048x8x64x32_S1x2048x8x64x32_0_0_0_0_0 : S3x2048x8x64x32.Slices ![0, 0, 0, 0, 0] S1x2048x8x64x32
  shapeCasts_S1x2048x8x64x32_S2048x8x64x32 : S1x2048x8x64x32.ShapeCasts S2048x8x64x32
  slices_S3x2048x8x64x32_S1x2048x8x64x32_1_0_0_0_0 : S3x2048x8x64x32.Slices ![1, 0, 0, 0, 0] S1x2048x8x64x32
  slices_S3x2048x8x64x32_S1x2048x8x64x32_2_0_0_0_0 : S3x2048x8x64x32.Slices ![2, 0, 0, 0, 0] S1x2048x8x64x32
  bcast_S_S2048x8x64x64 : S_.BroadcastsInDim S2048x8x64x64 (![] : Fin 0 → Fin S2048x8x64x64.rank)
  reducesTo_S2048x8x64x64_S2048x8x64_d3 : S2048x8x64x64.ReducesTo [3] S2048x8x64
  bcast_S_S2048x8x64 : S_.BroadcastsInDim S2048x8x64 (![] : Fin 0 → Fin S2048x8x64.rank)
  bcast_S2048x8x64_S2048x8x64x1_0_1_2 : S2048x8x64.BroadcastsInDim S2048x8x64x1 (![0, 1, 2] : Fin 3 → Fin S2048x8x64x1.rank)
  bcast_S2048x8x64x1_S2048x8x64x64_0_1_2_3 : S2048x8x64x1.BroadcastsInDim S2048x8x64x64 (![0, 1, 2, 3] : Fin 4 → Fin S2048x8x64x64.rank)
  transposes_S2048x8x64x32_S2048x64x8x32_0_2_1_3 : S2048x8x64x32.Transposes [0, 2, 1, 3] S2048x64x8x32
  shapeCasts_S2048x64x8x32_S2048x64x256 : S2048x64x8x32.ShapeCasts S2048x64x256
  slices_S3_S1_0 : S3.Slices ![0] S1
  shapeCasts_S1_S_ : S1.ShapeCasts S_
  bcast_S_S2048x64x256 : S_.BroadcastsInDim S2048x64x256 (![] : Fin 0 → Fin S2048x64x256.rank)
  slices_S3_S1_1 : S3.Slices ![1] S1
  slices_S3_S1_2 : S3.Slices ![2] S1
  transposes_S2048x64x256_S2048x256x64_0_2_1 : S2048x64x256.Transposes [0, 2, 1] S2048x256x64
  shapeCasts_S2048x256x64_S2048x256x8x8 : S2048x256x64.ShapeCasts S2048x256x8x8
  dot_S2048x64x256_S768x256_S2048x64x768_2_1_01_0_n_n_wf : DotDims.WF S2048x64x256 S768x256 S2048x64x768 [2] [1] [0, 1] [0] [] []
  dot_S2048x8x64x32_S2048x8x64x32_S2048x8x64x64_3_3_2_2_01_01_wf : DotDims.WF S2048x8x64x32 S2048x8x64x32 S2048x8x64x64 [3] [3] [2] [2] [0, 1] [0, 1]
  dot_S2048x8x64x64_S2048x8x64x32_S2048x8x64x32_3_2_2_3_01_01_wf : DotDims.WF S2048x8x64x64 S2048x8x64x32 S2048x8x64x32 [3] [2] [2] [3] [0, 1] [0, 1]

variable [Facts₀]

def dot_S2048x64x256_S768x256_S2048x64x768_2_1_01_0_n_n : DotDims S2048x64x256 S768x256 S2048x64x768 where
  lhsContracting := [2]
  rhsContracting := [1]
  lhsNonContracting := [0, 1]
  rhsNonContracting := [0]
  lhsBatch := []
  rhsBatch := []
  wf := dot_S2048x64x256_S768x256_S2048x64x768_2_1_01_0_n_n_wf
def dot_S2048x8x64x32_S2048x8x64x32_S2048x8x64x64_3_3_2_2_01_01 : DotDims S2048x8x64x32 S2048x8x64x32 S2048x8x64x64 where
  lhsContracting := [3]
  rhsContracting := [3]
  lhsNonContracting := [2]
  rhsNonContracting := [2]
  lhsBatch := [0, 1]
  rhsBatch := [0, 1]
  wf := dot_S2048x8x64x32_S2048x8x64x32_S2048x8x64x64_3_3_2_2_01_01_wf
def dot_S2048x8x64x64_S2048x8x64x32_S2048x8x64x32_3_2_2_3_01_01 : DotDims S2048x8x64x64 S2048x8x64x32 S2048x8x64x32 where
  lhsContracting := [3]
  rhsContracting := [2]
  lhsNonContracting := [2]
  rhsNonContracting := [3]
  lhsBatch := [0, 1]
  rhsBatch := [0, 1]
  wf := dot_S2048x8x64x64_S2048x8x64x32_S2048x8x64x32_3_2_2_3_01_01_wf

class Facts : Prop extends Facts₀ where

variable [Facts]
-- ==== Proof.Spec.lean ====
/-
  The mathematics of one batch element of the cross-attention block, over the extended reals.

  For one batch element the inputs are three channel-major maps `x c n` (256 channels, 64 tokens), two positional
  tables `pos n c`, two pairs of norm weights, two projection matrices `W p c` (768 × 256) and three mixing weights.
  * tokens:        `tok x pos n c = x c n + pos n c`;
  * the row norm:  with `mean f = (∑ c, f c) / 256`, `dev f c = f c - mean f`, `var f = mean (dev f)²`,
                   the kernel's form is `w c · (dev f c · rsqrt (var f + ε)) + b c` (`normK`) and the reference's is
                   `w c · (dev f c / sqrt (var f + ε)) + b c` (`normR`); they agree when `var f + ε` is a positive real;
  * projection:    `proj W xn n p = ∑ c, xn n c · W p c`; columns 0–255 are the queries, 256–511 the keys,
                   512–767 the values, each split in 8 heads of 32 (`qi`, `ki`, `vi`);
  * scores:        `score yq yk h n m = (∑ d, yq n (qi h d) · yk m (ki h d)) · scale`;
  * softmax:       `smax s m = exp (s m - rowmax s) / ∑ m', exp (s m' - rowmax s)`, `rowmax` the maximum over the row;
  * context:       `ctx yq yk yv n c = ∑ m, smax (score yq yk (c / 32) n) m · yv m (vi (c / 32) (c % 32))`;
  * the mix:       `mix mw yo yd pr c n = mw 0 · ctx yd yo yo n c + mw 1 · ctx yo yd yd n c + mw 2 · pr c n`.
  The float constants stay as their words: the same word is read on both sides and is never evaluated.
-/
import Idealize.ShloMosaic.PureOps.Ideal

noncomputable section

namespace Cert.CrossAttn

open Idealize.ShloMosaic

/-- The word of 256.0. -/
abbrev c256 : EReal := Ideal.ofBits .f32 0x43800000#32
/-- The word of the norm's ε. -/
abbrev eps : EReal := Ideal.ofBits .f32 0x3727C5AC#32
/-- The word of the attention scale. -/
abbrev scl : EReal := Ideal.ofBits .f32 0x3E3504F3#32
/-- The word of -∞, the initial value of the row maximum. -/
abbrev ninf : EReal := Ideal.ofBits .f32 0xFF800000#32

/-- Tokens: the channel-major map transposed, plus the positional table. -/
def tok (x : Fin 256 → Fin 64 → EReal) (pos : Fin 64 → Fin 256 → EReal) (n : Fin 64) (c : Fin 256) : EReal :=
  x c n + pos n c

/-- The mean of a row of 256 entries. -/
def mean (f : Fin 256 → EReal) : EReal := Ideal.div (∑ c : Fin 256, f c) c256

/-- The deviation from the row's mean. -/
def dev (f : Fin 256 → EReal) (c : Fin 256) : EReal := f c - mean f

/-- The row's variance. -/
def var (f : Fin 256 → EReal) : EReal := mean (fun c => dev f c * dev f c)

/-- The row norm as the kernel computes it: the deviation times the reciprocal square root. -/
def normK (w b f : Fin 256 → EReal) (c : Fin 256) : EReal :=
  w c * (dev f c * Ideal.rsqrt (var f + eps)) + b c

/-- The row norm as the reference computes it: the deviation divided by the square root. -/
def normR (w b f : Fin 256 → EReal) (c : Fin 256) : EReal :=
  w c * Ideal.div (dev f c) (Ideal.sqrt (var f + eps)) + b c

/-- The projection of the normed tokens by the 768 × 256 matrix. -/
def proj (W : Fin 768 → Fin 256 → EReal) (xn : Fin 64 → Fin 256 → EReal) (n : Fin 64) (p : Fin 768) : EReal :=
  ∑ c : Fin 256, xn n c * W p c

/-- Column of head `h`, lane `d` among the queries. -/
def qi (h : Fin 8) (d : Fin 32) : Fin 768 := ⟨h.val * 32 + d.val, by omega⟩
/-- Column of head `h`, lane `d` among the keys. -/
def ki (h : Fin 8) (d : Fin 32) : Fin 768 := ⟨256 + (h.val * 32 + d.val), by omega⟩
/-- Column of head `h`, lane `d` among the values. -/
def vi (h : Fin 8) (d : Fin 32) : Fin 768 := ⟨512 + (h.val * 32 + d.val), by omega⟩

/-- The head of channel `c`. -/
def hd (c : Fin 256) : Fin 8 := ⟨c.val / 32, by omega⟩
/-- The lane of channel `c` inside its head. -/
def ln (c : Fin 256) : Fin 32 := ⟨c.val % 32, by omega⟩

/-- The scaled score of query token `n` against key token `m` in head `h`. -/
def score (yq yk : Fin 64 → Fin 768 → EReal) (h : Fin 8) (n m : Fin 64) : EReal :=
  (∑ d : Fin 32, yq n (qi h d) * yk m (ki h d)) * scl

/-- The maximum of a row of 64 scores, from -∞. -/
def rowmax (s : Fin 64 → EReal) : EReal := (Finset.univ : Finset (Fin 64)).fold max ninf s

/-- The softmax of a row of 64 scores. -/
def smax (s : Fin 64 → EReal) (m : Fin 64) : EReal :=
  Ideal.div (Ideal.exp (s m - rowmax s)) (∑ m' : Fin 64, Ideal.exp (s m' - rowmax s))

/-- The attention context at token `n`, channel `c`: queries from `yq`, keys from `yk`, values from `yv`. -/
def ctx (yq yk yv : Fin 64 → Fin 768 → EReal) (n : Fin 64) (c : Fin 256) : EReal :=
  ∑ m : Fin 64, smax (score yq yk (hd c) n) m * yv m (vi (hd c) (ln c))

/-- The three-way mix, channel-major: `yo` and `yd` are the two branches' projections, `pr` the prototypes. -/
def mix (mw : Fin 3 → EReal) (yo yd : Fin 64 → Fin 768 → EReal) (pr : Fin 256 → Fin 64 → EReal)
    (c : Fin 256) (n : Fin 64) : EReal :=
  mw 0 * ctx yd yo yo n c + mw 1 * ctx yo yd yd n c + mw 2 * pr c n

/-- One batch element, the norm in the kernel's form. -/
def outK (xo xd pr : Fin 256 → Fin 64 → EReal) (po pd : Fin 64 → Fin 256 → EReal) (wo bo wd bd : Fin 256 → EReal)
    (Wo Wd : Fin 768 → Fin 256 → EReal) (mw : Fin 3 → EReal) (c : Fin 256) (n : Fin 64) : EReal :=
  mix mw (proj Wo fun n => normK wo bo (tok xo po n)) (proj Wd fun n => normK wd bd (tok xd pd n)) pr c n

/-- One batch element, the norm in the reference's form. -/
def outR (xo xd pr : Fin 256 → Fin 64 → EReal) (po pd : Fin 64 → Fin 256 → EReal) (wo bo wd bd : Fin 256 → EReal)
    (Wo Wd : Fin 768 → Fin 256 → EReal) (mw : Fin 3 → EReal) (c : Fin 256) (n : Fin 64) : EReal :=
  mix mw (proj Wo fun n => normR wo bo (tok xo po n)) (proj Wd fun n => normR wd bd (tok xd pd n)) pr c n

end Cert.CrossAttn

end
-- ==== Proof.LibLeadingAxes.lean ====
/-
  Layout operations between `[a, b, c]` and `[a·b, c]`, and the two one-axis broadcasts into `[a, b, c]`, read at an index
  written by coordinates, for any extents and any element type.

  * `[a, b, c] → [n, c]` with `n = a·b` (the two leading axes merged): row `p·b + q` of the result is row `(p, q)` of the operand.
  * `[n, c] → [a, b, c]` (the leading axis split): the converse reading.
  * `[a, b] → [a, 1, b]` (a unit axis put in the middle).
  * `[a, 1, c] → [a, b, c]` by a vector broadcast: every middle position reads the operand's one.
  * `[1, b, c] → [a, b, c]` by a vector broadcast: every leading position reads the operand's one.

  A shape cast keeps the row-major position, and the row-major position of `(p, q, r)` in `[a, b, c]` is
  `(p·b + q)·c + r`, that of `(s, r)` in `[n, c]` is `s·c + r`; the merged row is named by the caller (`s` with `s = p·b + q`),
  so the lemmas apply at literal extents where `a·b` is printed as one number.
-/
import Idealize.ShloMosaic.Lib.ValueIdx
import Idealize.ShloMosaic.Lib.ValueLayout
import Idealize.ShloMosaic.Lib.Pipeline.Value

noncomputable section

namespace Idealize.ShloMosaic.LeadingAxes

open Idealize.ShloMosaic Idealize.ShloMosaic.ValueIdx

variable {α : Type}

/-- The two leading axes merged: row `s = p·b + q` of the `[n, c]` result is row `(p, q)` of the `[a, b, c]` operand. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (s : Fin n)
    (hs : s.val = p.val * b + q.val) :
    shapeCast ⟨2, ![n, c]⟩ x h (ix2 s r) = x (ix3 p q r) :=
  shapeCast_apply x h _ _ (by
    rw [Shape.rowMajor_val_three, Shape.rowMajor_val_two]
    show (p.val * b + q.val) * c + r.val = s.val * c + r.val
    rw [hs])

/-- The leading axis split: entry `(p, q, r)` of the `[a, b, c]` result is entry `(p·b + q, r)` of the `[n, c]` operand. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (s : Fin n)
    (hs : s.val = p.val * b + q.val) :
    shapeCast ⟨3, ![a, b, c]⟩ x h (ix3 p q r) = x (ix2 s r) :=
  shapeCast_apply x h _ _ (by
    rw [Shape.rowMajor_val_three, Shape.rowMajor_val_two]
    show s.val * c + r.val = (p.val * b + q.val) * c + r.val
    rw [hs])

/-- A unit axis put in the middle: entry `(i, 0, j)` of the `[a, 1, b]` result is entry `(i, j)` of the operand. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One middle position spread over `b`: entry `(p, q, r)` of the result is entry `(p, 0, r)` of the operand. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- One leading position spread over `a`: entry `(p, q, r)` of the result is entry `(0, q, r)` of the operand. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Idealize.ShloMosaic.LeadingAxes

end
-- ==== Proof.LibLastAxisGroups.lean ====
/-
  An array whose last axis has extent `b * c` is the same data as a rank-3 array of `b` groups of `c` entries: the
  element at column `q * c + j` of the flat form is entry `j` of group `q`. This file reads, at an index given by
  coordinates, the layout operations that pass between the two forms and that pick or join the entries of a group:

  • the shape casts `[a, b, c] ↔ [a, b·c]` and `[b, c] → [b·c]` (row-major order is kept, so only the column index
    is regrouped);
  • a unit last axis added or dropped, `[a, b] ↔ [a, b, 1]`;
  • the slice that keeps ONE entry of every group, `[a, b, n] → [a, b, 1]` at offset `o` on the last axis;
  • four `[a, b, 1]` columns joined along the last axis into `[a, b, 4]`: entry `j` of a group is column `j`;
  • a `[1, c]` row repeated over `b` rows by `broadcast_in_dim`, and a `[c]` vector tiled `b` times along a
    `[1, b·c]` row (cast to a row, repeated, flattened, cast to a row again): column `q * c + l` holds entry `l`.

  Every lemma is over indices written `ix1 … ix3` (Lib/ValueIdx.lean) and shapes with natural-number extents, so that
  it applies to a printed operation by unification.
-/
import Idealize.ShloMosaic.Lib.Pipeline.Value
import Idealize.ShloMosaic.Lib.ValueIdx

namespace LastAxisGroups

open Idealize.ShloMosaic Idealize.ShloMosaic.ValueIdx

variable {α : Type}

/-- Column `q * c + j` of a last axis of extent `n = b * c`: entry `j` of group `q`. -/
abbrev flat {b c : ℕ} (n : ℕ) (hn : n = b * c) (q : Fin b) (j : Fin c) : Fin n :=
  ⟨q.val * c + j.val, by
    subst hn
    calc q.val * c + j.val < q.val * c + c := Nat.add_lt_add_left j.isLt _
      _ = (q.val + 1) * c := (Nat.succ_mul _ _).symm
      _ ≤ b * c := Nat.mul_le_mul_right c q.isLt⟩

/-- 784 columns are 196 groups of 4. -/
theorem n784 : (784 : ℕ) = 196 * 4 := by norm_num

/-- Every column of a last axis of extent `b * c` is entry `col % c` of group `col / c`. -/
theorem exists_flat {b c : ℕ} (n : ℕ) (hn : n = b * c) (hc : 0 < c) (k : Fin n) :
    ∃ (q : Fin b) (j : Fin c), k = flat n hn q j := by
  have hk : k.val < b * c := hn ▸ k.isLt
  refine ⟨⟨k.val / c, (Nat.div_lt_iff_lt_mul hc).2 hk⟩, ⟨k.val % c, Nat.mod_lt _ hc⟩, Fin.ext ?_⟩
  show k.val = k.val / c * c + k.val % c
  rw [Nat.mul_comm]; exact (Nat.div_add_mod _ _).symm

/-! ## The shape casts between the grouped and the flat form -/

/-- `[a, b, c]` cast to `[a, b·c]`: column `q * c + j` of row `r` is entry `j` of group `q` of row `r`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (r : Fin a) (q : Fin b) (j : Fin c) :
    shapeCast ⟨2, ![a, n]⟩ x h (ix2 r (flat n hn q j)) = x (ix3 r q j) :=
  shapeCast_apply x h _ _ (by
    rw [Shape.rowMajor_val_three, Shape.rowMajor_val_two]
    show (r.val * b + q.val) * c + j.val = r.val * n + (q.val * c + j.val)
    subst hn; ring)

/-- `[a, b·c]` cast to `[a, b, c]`: entry `j` of group `q` of row `r` is column `q * c + j` of row `r`. -/
theorem shapeCast_an_abc_apply {a b c n : ℕ} (hn : n = b * c) (x : (⟨2, ![a, n]⟩ : Shape).Idx → α)
    (h : (⟨2, ![a, n]⟩ : Shape).ShapeCasts ⟨3, ![a, b, c]⟩) (r : Fin a) (q : Fin b) (j : Fin c) :
    shapeCast ⟨3, ![a, b, c]⟩ x h (ix3 r q j) = x (ix2 r (flat n hn q j)) :=
  shapeCast_apply x h _ _ (by
    rw [Shape.rowMajor_val_two, Shape.rowMajor_val_three]
    show r.val * n + (q.val * c + j.val) = (r.val * b + q.val) * c + j.val
    subst hn; ring)

/-- `[b, c]` cast to `[b·c]`: position `q * c + j` is entry `j` of row `q`. -/
theorem shapeCast_bc_n_apply {b c n : ℕ} (hn : n = b * c) (x : (⟨2, ![b, c]⟩ : Shape).Idx → α)
    (h : (⟨2, ![b, c]⟩ : Shape).ShapeCasts ⟨1, ![n]⟩) (q : Fin b) (j : Fin c) :
    shapeCast ⟨1, ![n]⟩ x h (ix1 (flat n hn q j)) = x (ix2 q j) :=
  shapeCast_apply x h _ _ (by
    rw [Shape.rowMajor_val_two, Shape.rowMajor_val_one]
    rfl)

/-! ## A unit last axis -/

/-- `[a, b, 1]` cast to `[a, b]` reads, at `(r, q)`, the operand at `(r, q, 0)`. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (q : Fin b) :
    shapeCast ⟨2, ![a, b]⟩ x h (ix2 r q) = x (ix3 r q (0 : Fin 1)) :=
  shapeCast_apply x h _ _ (by
    rw [Shape.rowMajor_val_three, Shape.rowMajor_val_two]
    show (r.val * b + q.val) * 1 + 0 = r.val * b + q.val
    rw [Nat.mul_one, Nat.add_zero])

/-- `[a, b]` cast to `[a, b, 1]` reads, at `(r, q, u)`, the operand at `(r, q)`. -/
theorem shapeCast_ab_ab1_apply {a b : ℕ} (x : (⟨2, ![a, b]⟩ : Shape).Idx → α)
    (h : (⟨2, ![a, b]⟩ : Shape).ShapeCasts ⟨3, ![a, b, 1]⟩) (r : Fin a) (q : Fin b) (u : Fin 1) :
    shapeCast ⟨3, ![a, b, 1]⟩ x h (ix3 r q u) = x (ix2 r q) :=
  shapeCast_apply x h _ _ (by
    have hu : u.val = 0 := by omega
    rw [Shape.rowMajor_val_two, Shape.rowMajor_val_three]
    show r.val * b + q.val = (r.val * b + q.val) * 1 + u.val
    rw [hu, Nat.mul_one, Nat.add_zero])

/-! ## One entry of every group -/

/-- The slice `[a, b, n] → [a, b, 1]` at offset `o` on the last axis keeps entry `o` of every group. -/
theorem slice3_last_unit_apply {a b n : ℕ} (o : ℕ) (X : (⟨3, ![a, b, n]⟩ : Shape).Idx → α)
    (h : (⟨3, ![a, b, n]⟩ : Shape).Slices ![0, 0, o] ⟨3, ![a, b, 1]⟩)
    (r : Fin a) (q : Fin b) (u : Fin 1) (k : Fin n) (hk : k.val = o) :
    extractStridedSlice ⟨3, ![a, b, 1]⟩ ![0, 0, o] X h (ix3 r q u) = X (ix3 r q k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + u.val
      have hu : u.val = 0 := by omega
      rw [hk, hu, Nat.add_zero])

/-! ## Four columns joined into groups of four -/

/-- One of four things, by its number. -/
def pick4 {β : Type} (x0 x1 x2 x3 : β) : Fin 4 → β
  | ⟨0, _⟩ => x0
  | ⟨1, _⟩ => x1
  | ⟨2, _⟩ => x2
  | ⟨3, _⟩ => x3

/-- Four `[a, b, 1]` columns joined along the last axis: entry `j` of group `q` of row `r` is column `j` at `(r, q, 0)`. -/
theorem concatenate4_unit_apply {a b : ℕ} (x0 x1 x2 x3 : (⟨3, ![a, b, 1]⟩ : Shape).Idx → α)
    (h : Shape.Concatenates [(⟨3, ![a, b, 1]⟩ : Shape), ⟨3, ![a, b, 1]⟩, ⟨3, ![a, b, 1]⟩, ⟨3, ![a, b, 1]⟩] ⟨3, ![a, b, 4]⟩ 2)
    (r : Fin a) (q : Fin b) (j : Fin 4) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 r q j)
      = pick4 x0 x1 x2 x3 j (ix3 r q (0 : Fin 1)) := by
  have hi : ∀ (jj : Fin 4) (bx : Fin (⟨3, ![a, b, 1]⟩ : Shape).rank), bx.cast (rfl : (3 : ℕ) = 3) ≠ (2 : Fin 3) →
      ((ix3 r q (0 : Fin 1)) bx).val = ((ix3 r q jj) (bx.cast rfl)).val := fun jj bx hb => by
    match bx with
    | ⟨0, _⟩ => rfl
    | ⟨1, _⟩ => rfl
    | ⟨2, _⟩ => exact absurd rfl hb
  match j with
  | ⟨0, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 0 (by simp) ⟨3, ![a, b, 1]⟩ x0 rfl rfl 0 rfl _ (hi _) rfl
  | ⟨1, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 1 (by simp) ⟨3, ![a, b, 1]⟩ x1 rfl rfl 1 rfl _ (hi _) rfl
  | ⟨2, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 2 (by simp) ⟨3, ![a, b, 1]⟩ x2 rfl rfl 2 rfl _ (hi _) rfl
  | ⟨3, _⟩ =>
    exact concatenate_apply_piece (t := ⟨3, ![a, b, 4]⟩) 2
      [⟨⟨3, ![a, b, 1]⟩, x0⟩, ⟨⟨3, ![a, b, 1]⟩, x1⟩, ⟨⟨3, ![a, b, 1]⟩, x2⟩, ⟨⟨3, ![a, b, 1]⟩, x3⟩]
      h _ 3 (by simp) ⟨3, ![a, b, 1]⟩ x3 rfl rfl 3 rfl _ (hi _) rfl

/-! ## A vector repeated along a row -/

/-- A `[1, c]` row repeated over `b` rows (`broadcast_in_dim`, axes kept): row `q` at `l` is the row at `l`. -/
theorem broadcastInDim_1c_bc_apply {b c : ℕ} (x : (⟨2, ![1, c]⟩ : Shape).Idx → α)
    (h : (⟨2, ![1, c]⟩ : Shape).BroadcastsInDim ⟨2, ![b, c]⟩ ![0, 1]) (q : Fin b) (l : Fin c) :
    broadcastInDim ⟨2, ![b, c]⟩ ![0, 1] h x (ix2 q l) = x (ix2 (0 : Fin 1) l) := by
  refine broadcastInDim_apply _ h x (ix2 q l) (ix2 (0 : Fin 1) l) fun ax => ?_
  match ax with
  | ⟨0, _⟩ => rfl
  | ⟨1, _⟩ =>
    show l.val = if c = 1 then 0 else l.val
    split
    · have := l.isLt; omega
    · rfl

/-- A `[c]` vector tiled `b` times along a `[1, b·c]` row — cast to a `[1, c]` row, repeated over `b` rows, flattened
    to `[b·c]`, cast to a row —: column `q * c + l` holds entry `l`. -/
theorem tiled_row_apply {b c n : ℕ} (hn : n = b * c) (u : (⟨1, ![c]⟩ : Shape).Idx → α)
    (h0 : (⟨1, ![c]⟩ : Shape).ShapeCasts ⟨2, ![1, c]⟩)
    (h1 : (⟨2, ![1, c]⟩ : Shape).BroadcastsInDim ⟨2, ![b, c]⟩ ![0, 1])
    (h2 : (⟨2, ![b, c]⟩ : Shape).ShapeCasts ⟨1, ![n]⟩)
    (h3 : (⟨1, ![n]⟩ : Shape).ShapeCasts ⟨2, ![1, n]⟩) (z : Fin 1) (q : Fin b) (l : Fin c) :
    shapeCast ⟨2, ![1, n]⟩ (shapeCast ⟨1, ![n]⟩ (broadcastInDim ⟨2, ![b, c]⟩ ![0, 1] h1 (shapeCast ⟨2, ![1, c]⟩ u h0)) h2) h3
        (ix2 z (flat n hn q l)) = u (ix1 l) := by
  have e1 := shapeCast_apply (shapeCast ⟨1, ![n]⟩ (broadcastInDim ⟨2, ![b, c]⟩ ![0, 1] h1 (shapeCast ⟨2, ![1, c]⟩ u h0)) h2) h3
    (ix2 z (flat n hn q l)) (ix1 (flat n hn q l)) (by
      have hz : z.val = 0 := by omega
      rw [Shape.rowMajor_val_one, Shape.rowMajor_val_two]
      show q.val * c + l.val = z.val * n + (q.val * c + l.val)
      rw [hz, Nat.zero_mul, Nat.zero_add])
  have e4 := shapeCast_apply u h0 (ix2 (0 : Fin 1) l) (ix1 l) (by
      rw [Shape.rowMajor_val_one, Shape.rowMajor_val_two]
      show l.val = 0 * c + l.val
      rw [Nat.zero_mul, Nat.zero_add])
  rw [e1, shapeCast_bc_n_apply hn _ h2 q l, broadcastInDim_1c_bc_apply _ h1 q l, e4]

end LastAxisGroups
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.KernelNormProj.lean ====
/-
  The kernel's two projections of one block, read at an index: for batch row `b` of the block, token `n` and
  column `p`, the projected value is the sum over channels of the normed token (the kernel's form of the norm,
  deviation times reciprocal square root) times the transposed weight.
-/
import proofs.«156077_j26328149525078_2_alg».proof.Proof.Gen.KernelIdeal.Skeleton
import proofs.«156077_j26328149525078_2_alg».proof.Proof.Spec
import proofs.«156077_j26328149525078_2_alg».proof.Proof.LibLeadingAxes
import proofs.«156077_j26328149525078_2_alg».proof.Proof.LibLastAxisGroups
import proofs.«156077_j26328149525078_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.KernelNormProj

open Idealize.ShloMosaic Idealize.ShloMosaic.ValueIdx Cert.KernelIdeal Cert.KernelIdeal.Gen Cert.CrossAttn

/-! ## The lane sum and the tokens, read at an index -/

/-- The lane sum of a token array at (b, n): the sum over the 256 channels. -/
theorem rowSum_apply (t : FVec Ideal S16x64x256 .f32) (b : Fin 16) (n : Fin 64) :
    multiReduction (F := Ideal) .add [2] S16x64 t 0x00000000#32 reduces_S16x64x256_S16x64 (.inl rfl) rfl (ix2 b n)
      = ∑ c : Fin 256, t (ix3 b n c) :=
  (Ideal.multiReduction_add_single t 0x00000000#32 reduces_S16x64x256_S16x64 (.inl rfl) rfl (ix2 b n)).trans
    (Finset.sum_congr rfl fun k _ => congrArg t (funext fun a => Fin.ext (by
      match a with
      | ⟨0, _⟩ => rfl
      | ⟨1, _⟩ => rfl
      | ⟨2, _⟩ => rfl)))

/-- Tokens: the block transposed plus the positional table repeated over the rows. -/
theorem tok_apply (v6 : Vec Ideal S16x256x64 .f32) (v9 : Vec Ideal S1x64x256 .f32) (b : Fin 16) (n : Fin 64) (c : Fin 256) :
    k0_pay2 (F := Ideal) v6 v9 (ix3 b n c) = tok (fun c n => v6 (ix3 b c n)) (fun n c => v9 (ix3 0 n c)) n c := by
  unfold k0_pay2 tok
  rw [addf_apply, shapeCast_self,
    transpose_apply [0, 2, 1] v6 transposes_S16x256x64_p0_2_1_S16x64x256 (ix3 b n c) (ix3 b c n) (fun a => by
      match a with
      | ⟨0, _⟩ => rfl
      | ⟨1, _⟩ => rfl
      | ⟨2, _⟩ => rfl),
    LeadingAxes.broadcastTo_1bc_abc_apply v9 broadcasts_S1x64x256_S16x64x256 b n c]

/-! ## The layout steps of the row norm, read at an index -/

/-- A unit last axis repeated over `c` lanes: entry `(p, q, r)` of the result is entry `(p, q, 0)` of the operand. -/
theorem broadcastTo_ab1_abc_apply {α : Type} {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A weight vector spread over all rows and tokens: the `[256]` vector seen as `[1, 1, 256]` and repeated. -/
def spread (w : Vec Ideal S256 .f32) : FVec Ideal S16x64x256 .f32 :=
  broadcastTo S16x64x256 (shapeCast S1x1x256 w shapeCasts_S256_S1x1x256) broadcasts_S1x1x256_S16x64x256

/-- The spread weight at (b, n, c) is the weight at c. -/
theorem spread_apply (w : Vec Ideal S256 .f32) (b : Fin 16) (n : Fin 64) (c : Fin 256) :
    spread w (ix3 b n c) = w (ix1 c) := by
  unfold spread
  rw [broadcastTo_apply (shapeCast S1x1x256 w shapeCasts_S256_S1x1x256) broadcasts_S1x1x256_S16x64x256 (ix3 b n c)
      (ix3 (0 : Fin 1) (0 : Fin 1) c) (fun a => by
        match a with
        | ⟨0, _⟩ => rfl
        | ⟨1, _⟩ => rfl
        | ⟨2, _⟩ => rfl),
    shapeCast_apply w shapeCasts_S256_S1x1x256 (ix3 (0 : Fin 1) (0 : Fin 1) c) (ix1 c) (by
      rw [Shape.rowMajor_val_one, Shape.rowMajor_val_three]
      show c.val = (0 * 1 + 0) * 256 + c.val
      omega)]

/-- The mean column of an array: the lane sum, a unit last axis, divided by the splat of the word of 256. -/
def meanCol (t : FVec Ideal S16x64x256 .f32) : FVec Ideal S16x64x1 .f32 :=
  divf (shapeCast S16x64x1
      (multiReduction (F := Ideal) .add [2] S16x64 t 0x00000000#32 reduces_S16x64x256_S16x64 (.inl rfl) rfl)
      shapeCasts_S16x64_S16x64x1)
    (broadcast S16x64x1 (Scalar.ofBits (F := Ideal) .f32 0x43800000#32))

/-- The mean column at (b, n, 0) is the mean of row (b, n). -/
theorem meanCol_apply (t : FVec Ideal S16x64x256 .f32) (b : Fin 16) (n : Fin 64) (u : Fin 1) :
    meanCol t (ix3 b n u) = mean (fun c => t (ix3 b n c)) := by
  unfold meanCol mean
  rw [divf_apply, broadcast_apply, LastAxisGroups.shapeCast_ab_ab1_apply _ shapeCasts_S16x64_S16x64x1 b n u, rowSum_apply]
  rfl

/-- The deviation array: the array minus its mean column repeated over the lanes. -/
def devArr (t : FVec Ideal S16x64x256 .f32) : FVec Ideal S16x64x256 .f32 :=
  subf t (broadcastTo S16x64x256 (meanCol t) broadcasts_S16x64x1_S16x64x256)

/-- The deviation array at (b, n, c) is the deviation of row (b, n) at c. -/
theorem devArr_apply (t : FVec Ideal S16x64x256 .f32) (b : Fin 16) (n : Fin 64) (c : Fin 256) :
    devArr t (ix3 b n c) = dev (fun c => t (ix3 b n c)) c := by
  unfold devArr dev
  rw [subf_apply, broadcastTo_ab1_abc_apply (meanCol t) broadcasts_S16x64x1_S16x64x256 b n c, meanCol_apply]

/-- The mean column of the squared deviations at (b, n, 0) is the variance of row (b, n). -/
theorem varCol_apply (t : FVec Ideal S16x64x256 .f32) (b : Fin 16) (n : Fin 64) (u : Fin 1) :
    meanCol (mulf (devArr t) (devArr t)) (ix3 b n u) = var (fun c => t (ix3 b n c)) := by
  rw [meanCol_apply]
  unfold var
  exact congrArg mean (funext fun c => by rw [mulf_apply, devArr_apply])

/-- The kernel's row norm of an array with a weight and a bias vector: the shared text of the two branches. -/
def normArr (t : FVec Ideal S16x64x256 .f32) (w bb : Vec Ideal S256 .f32) : FVec Ideal S16x64x256 .f32 :=
  addf (mulf (spread w) (mulf (devArr t)
      (broadcastTo S16x64x256
        (rsqrt (addf (meanCol (mulf (devArr t) (devArr t)))
          (broadcast S16x64x1 (Scalar.ofBits (F := Ideal) .f32 0x3727C5AC#32))))
        broadcasts_S16x64x1_S16x64x256)))
    (spread bb)

/-- The normed array at (b, n, c) is the kernel's form of the norm of row (b, n) at c. -/
theorem normArr_apply (t : FVec Ideal S16x64x256 .f32) (w bb : Vec Ideal S256 .f32) (b : Fin 16) (n : Fin 64)
    (c : Fin 256) :
    normArr t w bb (ix3 b n c)
      = normK (fun c => w (ix1 c)) (fun c => bb (ix1 c)) (fun c => t (ix3 b n c)) c := by
  unfold normArr normK
  rw [addf_apply, mulf_apply, mulf_apply, spread_apply, spread_apply, devArr_apply,
    broadcastTo_ab1_abc_apply _ broadcasts_S16x64x1_S16x64x256 b n c]
  show w (ix1 c) * (dev (fun c => t (ix3 b n c)) c
      * Ideal.rsqrt (meanCol (mulf (devArr t) (devArr t)) (ix3 b n (0 : Fin 1)) + eps)) + bb (ix1 c) = _
  rw [varCol_apply]

/-- The origin branch's normed tokens are the shared norm text applied to the token text. -/
theorem pay3_eq (v0 : Vec Ideal S16x256x64 .f32) (v3 : Vec Ideal S1x64x256 .f32) (v12 v13 : Vec Ideal S256 .f32) :
    k0_pay3 (F := Ideal) v0 v3 v12 v13 = normArr (k0_pay2 (F := Ideal) v0 v3) v12 v13 := rfl

/-- The second branch's projection is the projection text applied to the shared norm text. -/
theorem pay5_eq (v11 : FVec Ideal S16x64x256 .f32) (v36 v37 : Vec Ideal S256 .f32) (v66 : Vec Ideal S256x768 .bf16) :
    k0_pay5 (F := Ideal) v11 v36 v37 v66 = k0_pay4 (F := Ideal) (normArr v11 v36 v37) v66 := rfl

/-! ## The projection, read at an index -/

/-- The row of the merged `[1024, …]` matrices that holds batch row `b`, token `n`. -/
def rowOf (b : Fin 16) (n : Fin 64) : Fin 1024 := ⟨b.val * 64 + n.val, by omega⟩

/-- The projection text at (b, n, p): rows merged, the product with the `[256, 768]` weight accumulated into zeros,
    rows split again — the sum over the channels of the array at (b, n, c) times the weight at (c, p). The change
    of format before the product is the identity on extended reals. -/
theorem proj_apply (x : FVec Ideal S16x64x256 .f32) (v60 : Vec Ideal S256x768 .bf16) (b : Fin 16) (n : Fin 64)
    (p : Fin 768) :
    k0_pay4 (F := Ideal) x v60 (ix3 b n p) = ∑ c : Fin 256, x (ix3 b n c) * v60 (ix2 c p) := by
  unfold k0_pay4
  rw [LeadingAxes.shapeCast_split_apply _ shapeCasts_S1024x768_S16x64x768 b n p (rowOf b n) rfl, shapeCast_self]
  refine (Cert.Lib.matmul_plain_zero_apply (φ₁ := .bf16) (φ₂ := .bf16) none _ v60 (rowOf b n) p).trans ?_
  refine Finset.sum_congr rfl fun j _ => ?_
  rw [truncf_apply, LeadingAxes.shapeCast_merge_apply x shapeCasts_S16x64x256_S1024x256 b n j (rowOf b n) rfl]

/-! ## The two projections of a block -/

/-- The origin branch's projection of a block at (b, n, p). -/
theorem yo_apply (v0 : Vec Ideal S16x256x64 .f32) (v3 : Vec Ideal S1x64x256 .f32) (v12 v13 : Vec Ideal S256 .f32)
    (v60 : Vec Ideal S256x768 .bf16) (b : Fin 16) (n : Fin 64) (p : Fin 768) :
    k0_pay4 (F := Ideal) (k0_pay3 (F := Ideal) v0 v3 v12 v13) v60 (ix3 b n p)
      = proj (fun p c => v60 (ix2 c p))
          (fun n => normK (fun c => v12 (ix1 c)) (fun c => v13 (ix1 c))
            (tok (fun c n => v0 (ix3 b c n)) (fun n c => v3 (ix3 0 n c)) n)) n p := by
  have ht : (fun c => k0_pay2 (F := Ideal) v0 v3 (ix3 b n c))
      = tok (fun c n => v0 (ix3 b c n)) (fun n c => v3 (ix3 0 n c)) n := funext fun c => tok_apply v0 v3 b n c
  rw [pay3_eq, proj_apply]
  unfold proj
  refine Finset.sum_congr rfl fun c _ => ?_
  rw [normArr_apply, ht]

/-- The second branch's projection of a block at (b, n, p). -/
theorem yd_apply (v6 : Vec Ideal S16x256x64 .f32) (v9 : Vec Ideal S1x64x256 .f32) (v36 v37 : Vec Ideal S256 .f32)
    (v66 : Vec Ideal S256x768 .bf16) (b : Fin 16) (n : Fin 64) (p : Fin 768) :
    k0_pay5 (F := Ideal) (k0_pay2 (F := Ideal) v6 v9) v36 v37 v66 (ix3 b n p)
      = proj (fun p c => v66 (ix2 c p))
          (fun n => normK (fun c => v36 (ix1 c)) (fun c => v37 (ix1 c))
            (tok (fun c n => v6 (ix3 b c n)) (fun n c => v9 (ix3 0 n c)) n)) n p := by
  have ht : (fun c => k0_pay2 (F := Ideal) v6 v9 (ix3 b n c))
      = tok (fun c n => v6 (ix3 b c n)) (fun n c => v9 (ix3 0 n c)) n := funext fun c => tok_apply v6 v9 b n c
  rw [pay5_eq, proj_apply]
  unfold proj
  refine Finset.sum_congr rfl fun c _ => ?_
  rw [normArr_apply, ht]

end Cert.CrossAttn.KernelNormProj

end
-- ==== Proof.KernelCore.lean ====
/-
  The kernel's attention core and mix of one block, read at an index, in terms of the two projections of the
  block: the heads are stacked along the batch axis (row h·16 + b of the stacked array is head h of batch row b),
  scores, softmax and context are taken per stacked row, the heads are laid back side by side along the channel
  axis, the three terms are mixed and the result is transposed to channel-major.
-/
import proofs.«156077_j26328149525078_2_alg».proof.Proof.Gen.KernelIdeal.Skeleton
import proofs.«156077_j26328149525078_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.KernelCore

open Idealize.ShloMosaic Idealize.ShloMosaic.ValueIdx Cert.KernelIdeal Cert.KernelIdeal.Gen Cert.CrossAttn

variable {α : Type}

/-- A rank-3 array cut along its last axis from `o` reads, at `(a, e, j)`, the source at `(a, e, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A rank-3 array cut along its first axis from `o` reads, at `(j, a, e)`, the source at `(k, a, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row `h·16 + b` of a stack of 8 blocks of 16 rows. -/
abbrev srow (h : Fin 8) (b : Fin 16) : Fin 128 := ⟨h.val * 16 + b.val, by omega⟩
/-- Channel `h·32 + d`: lane `d` of head `h`. -/
abbrev chan (h : Fin 8) (d : Fin 32) : Fin 256 := ⟨h.val * 32 + d.val, by omega⟩

/-- Eight lane windows of 32 of a `[16, 64, 256]` array stacked along the first axis: row `h·16 + b` of the stack is
    head `h` of batch row `b`, so its entry `(n, d)` is the array's entry `(b, n, h·32 + d)`. -/
theorem stack_apply (g : S16x64x256.Idx → α)
    (h0 : S16x64x256.Slices ![0, 0, 0] S16x64x32)
    (h1 : S16x64x256.Slices ![0, 0, 32] S16x64x32)
    (h2 : S16x64x256.Slices ![0, 0, 64] S16x64x32)
    (h3 : S16x64x256.Slices ![0, 0, 96] S16x64x32)
    (h4 : S16x64x256.Slices ![0, 0, 128] S16x64x32)
    (h5 : S16x64x256.Slices ![0, 0, 160] S16x64x32)
    (h6 : S16x64x256.Slices ![0, 0, 192] S16x64x32)
    (h7 : S16x64x256.Slices ![0, 0, 224] S16x64x32)
    (hc : Shape.Concatenates [S16x64x32, S16x64x32, S16x64x32, S16x64x32, S16x64x32, S16x64x32, S16x64x32, S16x64x32] S128x64x32 0)
    (h : Fin 8) (b : Fin 16) (n : Fin 64) (d : Fin 32) :
    concatenate S128x64x32 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩] hc (ix3 (srow h b) n d) = g (ix3 b n (chan h d)) := by
  have hi : ∀ (r : Fin 128) (bx : Fin S16x64x32.rank), bx.cast (rfl : (3 : ℕ) = 3) ≠ (0 : Fin 3) →
      ((ix3 b n d) bx).val = ((ix3 r n d) (bx.cast rfl)).val := fun r bx hb => by
    match bx with
    | ⟨0, _⟩ => exact absurd rfl hb
    | ⟨1, _⟩ => rfl
    | ⟨2, _⟩ => rfl
  match h with
  | ⟨0, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨0, by omega⟩ b) n d) 0 (by simp) S16x64x32 _ rfl rfl 0 rfl (ix3 b n d) (hi _) rfl).trans (slice3_axis2_apply 0 g h0 b n d (chan ⟨0, by omega⟩ d) rfl)
  | ⟨1, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨1, by omega⟩ b) n d) 1 (by simp) S16x64x32 _ rfl rfl 16 rfl (ix3 b n d) (hi _) rfl).trans (slice3_axis2_apply 32 g h1 b n d (chan ⟨1, by omega⟩ d) rfl)
  | ⟨2, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨2, by omega⟩ b) n d) 2 (by simp) S16x64x32 _ rfl rfl 32 rfl (ix3 b n d) (hi _) rfl).trans (slice3_axis2_apply 64 g h2 b n d (chan ⟨2, by omega⟩ d) rfl)
  | ⟨3, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨3, by omega⟩ b) n d) 3 (by simp) S16x64x32 _ rfl rfl 48 rfl (ix3 b n d) (hi _) rfl).trans (slice3_axis2_apply 96 g h3 b n d (chan ⟨3, by omega⟩ d) rfl)
  | ⟨4, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨4, by omega⟩ b) n d) 4 (by simp) S16x64x32 _ rfl rfl 64 rfl (ix3 b n d) (hi _) rfl).trans (slice3_axis2_apply 128 g h4 b n d (chan ⟨4, by omega⟩ d) rfl)
  | ⟨5, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨5, by omega⟩ b) n d) 5 (by simp) S16x64x32 _ rfl rfl 80 rfl (ix3 b n d) (hi _) rfl).trans (slice3_axis2_apply 160 g h5 b n d (chan ⟨5, by omega⟩ d) rfl)
  | ⟨6, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨6, by omega⟩ b) n d) 6 (by simp) S16x64x32 _ rfl rfl 96 rfl (ix3 b n d) (hi _) rfl).trans (slice3_axis2_apply 192 g h6 b n d (chan ⟨6, by omega⟩ d) rfl)
  | ⟨7, _⟩ =>
    exact (concatenate_apply_piece (t := S128x64x32) 0 [⟨S16x64x32, extractStridedSlice S16x64x32 ![0, 0, 0] g h0⟩, ⟨S16x64x32, extractStridedSlice S16x64x32 ![0, 0, 32] g h1⟩, ⟨S16x64x32, extractStridedSlice S16x64x32 ![0, 0, 64] g h2⟩, ⟨S16x64x32, extractStridedSlice S16x64x32 ![0, 0, 96] g h3⟩, ⟨S16x64x32, extractStridedSlice S16x64x32 ![0, 0, 128] g h4⟩, ⟨S16x64x32, extractStridedSlice S16x64x32 ![0, 0, 160] g h5⟩, ⟨S16x64x32, extractStridedSlice S16x64x32 ![0, 0, 192] g h6⟩, ⟨S16x64x32, extractStridedSlice S16x64x32 ![0, 0, 224] g h7⟩]
      hc (ix3 (srow ⟨7, by omega⟩ b) n d) 7 (by simp) S16x64x32 _ rfl rfl 112 rfl (ix3 b n d) (hi _) rfl).trans (slice3_axis2_apply 224 g h7 b n d (chan ⟨7, by omega⟩ d) rfl)

/-- Eight row blocks of 16 of a `[128, 64, 32]` stack laid side by side along the last axis: channel `h·32 + d` of
    batch row `b` is lane `d` of stacked row `h·16 + b`. -/
theorem unstack_apply (w : S128x64x32.Idx → α)
    (h0 : S128x64x32.Slices ![0, 0, 0] S16x64x32)
    (h1 : S128x64x32.Slices ![16, 0, 0] S16x64x32)
    (h2 : S128x64x32.Slices ![32, 0, 0] S16x64x32)
    (h3 : S128x64x32.Slices ![48, 0, 0] S16x64x32)
    (h4 : S128x64x32.Slices ![64, 0, 0] S16x64x32)
    (h5 : S128x64x32.Slices ![80, 0, 0] S16x64x32)
    (h6 : S128x64x32.Slices ![96, 0, 0] S16x64x32)
    (h7 : S128x64x32.Slices ![112, 0, 0] S16x64x32)
    (hc : Shape.Concatenates [S16x64x32, S16x64x32, S16x64x32, S16x64x32, S16x64x32, S16x64x32, S16x64x32, S16x64x32] S16x64x256 2)
    (h : Fin 8) (b : Fin 16) (n : Fin 64) (d : Fin 32) :
    concatenate S16x64x256 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩] hc (ix3 b n (chan h d)) = w (ix3 (srow h b) n d) := by
  have hi : ∀ (c : Fin 256) (bx : Fin S16x64x32.rank), bx.cast (rfl : (3 : ℕ) = 3) ≠ (2 : Fin 3) →
      ((ix3 b n d) bx).val = ((ix3 b n c) (bx.cast rfl)).val := fun c bx hb => by
    match bx with
    | ⟨0, _⟩ => rfl
    | ⟨1, _⟩ => rfl
    | ⟨2, _⟩ => exact absurd rfl hb
  match h with
  | ⟨0, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨0, by omega⟩ d)) 0 (by simp) S16x64x32 _ rfl rfl 0 rfl (ix3 b n d) (hi _) rfl).trans (slice3_axis0_apply 0 w h0 b n d (srow ⟨0, by omega⟩ b) rfl)
  | ⟨1, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨1, by omega⟩ d)) 1 (by simp) S16x64x32 _ rfl rfl 32 rfl (ix3 b n d) (hi _) rfl).trans (slice3_axis0_apply 16 w h1 b n d (srow ⟨1, by omega⟩ b) rfl)
  | ⟨2, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨2, by omega⟩ d)) 2 (by simp) S16x64x32 _ rfl rfl 64 rfl (ix3 b n d) (hi _) rfl).trans (slice3_axis0_apply 32 w h2 b n d (srow ⟨2, by omega⟩ b) rfl)
  | ⟨3, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨3, by omega⟩ d)) 3 (by simp) S16x64x32 _ rfl rfl 96 rfl (ix3 b n d) (hi _) rfl).trans (slice3_axis0_apply 48 w h3 b n d (srow ⟨3, by omega⟩ b) rfl)
  | ⟨4, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨4, by omega⟩ d)) 4 (by simp) S16x64x32 _ rfl rfl 128 rfl (ix3 b n d) (hi _) rfl).trans (slice3_axis0_apply 64 w h4 b n d (srow ⟨4, by omega⟩ b) rfl)
  | ⟨5, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨5, by omega⟩ d)) 5 (by simp) S16x64x32 _ rfl rfl 160 rfl (ix3 b n d) (hi _) rfl).trans (slice3_axis0_apply 80 w h5 b n d (srow ⟨5, by omega⟩ b) rfl)
  | ⟨6, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨6, by omega⟩ d)) 6 (by simp) S16x64x32 _ rfl rfl 192 rfl (ix3 b n d) (hi _) rfl).trans (slice3_axis0_apply 96 w h6 b n d (srow ⟨6, by omega⟩ b) rfl)
  | ⟨7, _⟩ =>
    exact (concatenate_apply_piece (t := S16x64x256) 2 [⟨S16x64x32, extractStridedSlice S16x64x32 ![0, 0, 0] w h0⟩, ⟨S16x64x32, extractStridedSlice S16x64x32 ![16, 0, 0] w h1⟩, ⟨S16x64x32, extractStridedSlice S16x64x32 ![32, 0, 0] w h2⟩, ⟨S16x64x32, extractStridedSlice S16x64x32 ![48, 0, 0] w h3⟩, ⟨S16x64x32, extractStridedSlice S16x64x32 ![64, 0, 0] w h4⟩, ⟨S16x64x32, extractStridedSlice S16x64x32 ![80, 0, 0] w h5⟩, ⟨S16x64x32, extractStridedSlice S16x64x32 ![96, 0, 0] w h6⟩, ⟨S16x64x32, extractStridedSlice S16x64x32 ![112, 0, 0] w h7⟩]
      hc (ix3 b n (chan ⟨7, by omega⟩ d)) 7 (by simp) S16x64x32 _ rfl rfl 224 rfl (ix3 b n d) (hi _) rfl).trans (slice3_axis0_apply 112 w h7 b n d (srow ⟨7, by omega⟩ b) rfl)

/-! ## The two batched products read at an index -/

theorem sc_lhs0 (i : S128x64x64.Idx) (q : dot_S128x64x32_S128x64x32_S128x64x64_2_2_1_1_0_0.contr.Idx) :
    (dot_S128x64x32_S128x64x32_S128x64x64_2_2_1_1_0_0.lhsIdx i q 0).val = (i 0).val := by
  unfold DotDims.lhsIdx
  rw [dif_pos (show (0 : Fin S128x64x32.rank) ∈ dot_S128x64x32_S128x64x32_S128x64x64_2_2_1_1_0_0.lhsBatch by decide)]
  rfl
theorem sc_lhs1 (i : S128x64x64.Idx) (q : dot_S128x64x32_S128x64x32_S128x64x64_2_2_1_1_0_0.contr.Idx) :
    (dot_S128x64x32_S128x64x32_S128x64x64_2_2_1_1_0_0.lhsIdx i q 1).val = (i 1).val := by
  unfold DotDims.lhsIdx
  rw [dif_neg (show ¬(1 : Fin S128x64x32.rank) ∈ dot_S128x64x32_S128x64x32_S128x64x64_2_2_1_1_0_0.lhsBatch by decide), dif_pos (show (1 : Fin S128x64x32.rank) ∈ dot_S128x64x32_S128x64x32_S128x64x64_2_2_1_1_0_0.lhsNonContracting by decide)]
  rfl
theorem sc_lhs2 (i : S128x64x64.Idx) (q : dot_S128x64x32_S128x64x32_S128x64x64_2_2_1_1_0_0.contr.Idx) :
    (dot_S128x64x32_S128x64x32_S128x64x64_2_2_1_1_0_0.lhsIdx i q 2).val = (q ⟨0, by decide⟩).val :=
  dot_S128x64x32_S128x64x32_S128x64x64_2_2_1_1_0_0.lhsIdx_val_of_single rfl i q
theorem sc_rhs0 (i : S128x64x64.Idx) (q : dot_S128x64x32_S128x64x32_S128x64x64_2_2_1_1_0_0.contr.Idx) :
    (dot_S128x64x32_S128x64x32_S128x64x64_2_2_1_1_0_0.rhsIdx i q 0).val = (i 0).val := by
  unfold DotDims.rhsIdx
  rw [dif_pos (show (0 : Fin S128x64x32.rank) ∈ dot_S128x64x32_S128x64x32_S128x64x64_2_2_1_1_0_0.rhsBatch by decide)]
  rfl
theorem sc_rhs1 (i : S128x64x64.Idx) (q : dot_S128x64x32_S128x64x32_S128x64x64_2_2_1_1_0_0.contr.Idx) :
    (dot_S128x64x32_S128x64x32_S128x64x64_2_2_1_1_0_0.rhsIdx i q 1).val = (i 2).val := by
  unfold DotDims.rhsIdx
  rw [dif_neg (show ¬(1 : Fin S128x64x32.rank) ∈ dot_S128x64x32_S128x64x32_S128x64x64_2_2_1_1_0_0.rhsBatch by decide), dif_pos (show (1 : Fin S128x64x32.rank) ∈ dot_S128x64x32_S128x64x32_S128x64x64_2_2_1_1_0_0.rhsNonContracting by decide)]
  rfl
theorem sc_rhs2 (i : S128x64x64.Idx) (q : dot_S128x64x32_S128x64x32_S128x64x64_2_2_1_1_0_0.contr.Idx) :
    (dot_S128x64x32_S128x64x32_S128x64x64_2_2_1_1_0_0.rhsIdx i q 2).val = (q ⟨0, by decide⟩).val :=
  dot_S128x64x32_S128x64x32_S128x64x64_2_2_1_1_0_0.rhsIdx_val_of_single rfl i q

/-- The score product of two stacks, into the zero splat: at stacked row `r`, query token `n`, key token `m`, the sum over
    the 32 lanes of the products. -/
theorem scores_apply {φ₁ φ₂ : FTy} (A : FVec Ideal S128x64x32 φ₁) (B : FVec Ideal S128x64x32 φ₂) (r : Fin 128) (n m : Fin 64) :
    matmul dot_S128x64x32_S128x64x32_S128x64x64_2_2_1_1_0_0 none A B (constant (F := Ideal) S128x64x64 .f32 0x00000000#32) (ix3 r n m)
      = ∑ d : Fin 32, A (ix3 r n d) * B (ix3 r m d) := by
  simp only [matmul]
  rw [Ideal.matmul_constant_zero_apply, ← Equiv.sum_comp (contrEquiv1 dot_S128x64x32_S128x64x32_S128x64x64_2_2_1_1_0_0 32 rfl rfl).symm]
  refine Finset.sum_congr rfl fun k _ => ?_
  have hk := contrEquiv1_symm_val dot_S128x64x32_S128x64x32_S128x64x64_2_2_1_1_0_0 32 rfl rfl k
  have el : dot_S128x64x32_S128x64x32_S128x64x64_2_2_1_1_0_0.lhsIdx (ix3 r n m) ((contrEquiv1 dot_S128x64x32_S128x64x32_S128x64x64_2_2_1_1_0_0 32 rfl rfl).symm k) = ix3 r n k := funext fun a => Fin.ext (by
    match a with
    | ⟨0, _⟩ => exact sc_lhs0 _ _
    | ⟨1, _⟩ => exact sc_lhs1 _ _
    | ⟨2, _⟩ => exact (sc_lhs2 _ _).trans hk)
  have er : dot_S128x64x32_S128x64x32_S128x64x64_2_2_1_1_0_0.rhsIdx (ix3 r n m) ((contrEquiv1 dot_S128x64x32_S128x64x32_S128x64x64_2_2_1_1_0_0 32 rfl rfl).symm k) = ix3 r m k := funext fun a => Fin.ext (by
    match a with
    | ⟨0, _⟩ => exact sc_rhs0 _ _
    | ⟨1, _⟩ => exact sc_rhs1 _ _
    | ⟨2, _⟩ => exact (sc_rhs2 _ _).trans hk)
  rw [el, er]

theorem cx_lhs0 (i : S128x64x32.Idx) (q : dot_S128x64x64_S128x64x32_S128x64x32_2_1_1_2_0_0.contr.Idx) :
    (dot_S128x64x64_S128x64x32_S128x64x32_2_1_1_2_0_0.lhsIdx i q 0).val = (i 0).val := by
  unfold DotDims.lhsIdx
  rw [dif_pos (show (0 : Fin S128x64x64.rank) ∈ dot_S128x64x64_S128x64x32_S128x64x32_2_1_1_2_0_0.lhsBatch by decide)]
  rfl
theorem cx_lhs1 (i : S128x64x32.Idx) (q : dot_S128x64x64_S128x64x32_S128x64x32_2_1_1_2_0_0.contr.Idx) :
    (dot_S128x64x64_S128x64x32_S128x64x32_2_1_1_2_0_0.lhsIdx i q 1).val = (i 1).val := by
  unfold DotDims.lhsIdx
  rw [dif_neg (show ¬(1 : Fin S128x64x64.rank) ∈ dot_S128x64x64_S128x64x32_S128x64x32_2_1_1_2_0_0.lhsBatch by decide), dif_pos (show (1 : Fin S128x64x64.rank) ∈ dot_S128x64x64_S128x64x32_S128x64x32_2_1_1_2_0_0.lhsNonContracting by decide)]
  rfl
theorem cx_lhs2 (i : S128x64x32.Idx) (q : dot_S128x64x64_S128x64x32_S128x64x32_2_1_1_2_0_0.contr.Idx) :
    (dot_S128x64x64_S128x64x32_S128x64x32_2_1_1_2_0_0.lhsIdx i q 2).val = (q ⟨0, by decide⟩).val :=
  dot_S128x64x64_S128x64x32_S128x64x32_2_1_1_2_0_0.lhsIdx_val_of_single rfl i q
theorem cx_rhs0 (i : S128x64x32.Idx) (q : dot_S128x64x64_S128x64x32_S128x64x32_2_1_1_2_0_0.contr.Idx) :
    (dot_S128x64x64_S128x64x32_S128x64x32_2_1_1_2_0_0.rhsIdx i q 0).val = (i 0).val := by
  unfold DotDims.rhsIdx
  rw [dif_pos (show (0 : Fin S128x64x32.rank) ∈ dot_S128x64x64_S128x64x32_S128x64x32_2_1_1_2_0_0.rhsBatch by decide)]
  rfl
theorem cx_rhs1 (i : S128x64x32.Idx) (q : dot_S128x64x64_S128x64x32_S128x64x32_2_1_1_2_0_0.contr.Idx) :
    (dot_S128x64x64_S128x64x32_S128x64x32_2_1_1_2_0_0.rhsIdx i q 1).val = (q ⟨0, by decide⟩).val :=
  dot_S128x64x64_S128x64x32_S128x64x32_2_1_1_2_0_0.rhsIdx_val_of_single rfl i q
theorem cx_rhs2 (i : S128x64x32.Idx) (q : dot_S128x64x64_S128x64x32_S128x64x32_2_1_1_2_0_0.contr.Idx) :
    (dot_S128x64x64_S128x64x32_S128x64x32_2_1_1_2_0_0.rhsIdx i q 2).val = (i 2).val := by
  unfold DotDims.rhsIdx
  rw [dif_neg (show ¬(2 : Fin S128x64x32.rank) ∈ dot_S128x64x64_S128x64x32_S128x64x32_2_1_1_2_0_0.rhsBatch by decide), dif_pos (show (2 : Fin S128x64x32.rank) ∈ dot_S128x64x64_S128x64x32_S128x64x32_2_1_1_2_0_0.rhsNonContracting by decide)]
  rfl

/-- The context product of the weights and a stack of values, into the zero splat: at stacked row `r`, token `n`, lane `d`,
    the sum over the 64 key tokens of weight times value. -/
theorem ctxmm_apply {φ₁ φ₂ : FTy} (P : FVec Ideal S128x64x64 φ₁) (V : FVec Ideal S128x64x32 φ₂) (r : Fin 128) (n : Fin 64) (d : Fin 32) :
    matmul dot_S128x64x64_S128x64x32_S128x64x32_2_1_1_2_0_0 none P V (constant (F := Ideal) S128x64x32 .f32 0x00000000#32) (ix3 r n d)
      = ∑ m : Fin 64, P (ix3 r n m) * V (ix3 r m d) := by
  simp only [matmul]
  rw [Ideal.matmul_constant_zero_apply, ← Equiv.sum_comp (contrEquiv1 dot_S128x64x64_S128x64x32_S128x64x32_2_1_1_2_0_0 64 rfl rfl).symm]
  refine Finset.sum_congr rfl fun k _ => ?_
  have hk := contrEquiv1_symm_val dot_S128x64x64_S128x64x32_S128x64x32_2_1_1_2_0_0 64 rfl rfl k
  have el : dot_S128x64x64_S128x64x32_S128x64x32_2_1_1_2_0_0.lhsIdx (ix3 r n d) ((contrEquiv1 dot_S128x64x64_S128x64x32_S128x64x32_2_1_1_2_0_0 64 rfl rfl).symm k) = ix3 r n k := funext fun a => Fin.ext (by
    match a with
    | ⟨0, _⟩ => exact cx_lhs0 _ _
    | ⟨1, _⟩ => exact cx_lhs1 _ _
    | ⟨2, _⟩ => exact (cx_lhs2 _ _).trans hk)
  have er : dot_S128x64x64_S128x64x32_S128x64x32_2_1_1_2_0_0.rhsIdx (ix3 r n d) ((contrEquiv1 dot_S128x64x64_S128x64x32_S128x64x32_2_1_1_2_0_0 64 rfl rfl).symm k) = ix3 r k d := funext fun a => Fin.ext (by
    match a with
    | ⟨0, _⟩ => exact cx_rhs0 _ _
    | ⟨1, _⟩ => exact (cx_rhs1 _ _).trans hk
    | ⟨2, _⟩ => exact cx_rhs2 _ _)
  rw [el, er]

/-! ## The keepdims column forms -/

/-- `[128, 64] → [128, 64, 1] → [128, 64, 64]`: every lane of row `(r, n)` reads the column's entry `(r, n)`. -/
theorem col_apply (v : S128x64.Idx → α) (h1 : S128x64.ShapeCasts S128x64x1) (h2 : S128x64x1.Broadcasts S128x64x64)
    (r : Fin 128) (n m : Fin 64) :
    broadcastTo S128x64x64 (shapeCast S128x64x1 v h1) h2 (ix3 r n m) = v (ix2 r n) := by
  refine (broadcastTo_apply _ h2 (ix3 r n m) (ix3 r n (0 : Fin 1)) fun ax => ?_).trans ?_
  · match ax with
    | ⟨0, _⟩ => rfl
    | ⟨1, _⟩ => rfl
    | ⟨2, _⟩ => rfl
  · exact shapeCast_apply v h1 _ (ix2 r n) (by
      rw [Shape.rowMajor_val_two, Shape.rowMajor_val_three]
      show r.val * 64 + n.val = (r.val * 64 + n.val) * 1 + 0
      omega)

/-- The index a reduction over the last axis inserts a coordinate into. -/
theorem lift_last (h : S128x64x64.Reduces [2] S128x64) (r : Fin 128) (n m : Fin 64) :
    h.lift (ix2 r n) m = ix3 r n m :=
  funext fun a => Fin.ext (by
    match a with
    | ⟨0, _⟩ => rfl
    | ⟨1, _⟩ => rfl
    | ⟨2, _⟩ => rfl)

/-- The row maximum, as a column: the fold of `max` over the 64 entries of the row, from the word of -∞. -/
theorem rowmax_col_apply (s : FVec Ideal S128x64x64 .f32) (r : Fin 128) (n m : Fin 64) :
    broadcastTo S128x64x64 (shapeCast S128x64x1 (multiReduction (F := Ideal) .maximumf [2] S128x64 s 0xFF800000#32 reduces_S128x64x64_S128x64 (.inl rfl) rfl) shapeCasts_S128x64_S128x64x1) broadcasts_S128x64x1_S128x64x64 (ix3 r n m)
      = (Finset.univ : Finset (Fin 64)).fold max (Ideal.ofBits .f32 0xFF800000#32) (fun m' => s (ix3 r n m')) := by
  refine (col_apply _ _ _ r n m).trans ?_
  refine (Ideal.multiReduction_maximumf_single s 0xFF800000#32 reduces_S128x64x64_S128x64 (.inl rfl) rfl (ix2 r n)).trans ?_
  show (Finset.univ : Finset (Fin 64)).fold max (Ideal.ofBits .f32 0xFF800000#32) (s ∘ reduces_S128x64x64_S128x64.lift (ix2 r n)) = _
  congr 1
  funext m'
  exact congrArg s (lift_last _ r n m')

/-- The lane sum, as a column: the sum of the 64 entries of the row. -/
theorem rowsum_col_apply (e : FVec Ideal S128x64x64 .f32) (r : Fin 128) (n m : Fin 64) :
    broadcastTo S128x64x64 (shapeCast S128x64x1 (multiReduction (F := Ideal) .add [2] S128x64 e 0x00000000#32 reduces_S128x64x64_S128x64 (.inl rfl) rfl) shapeCasts_S128x64_S128x64x1) broadcasts_S128x64x1_S128x64x64 (ix3 r n m)
      = ∑ m' : Fin 64, e (ix3 r n m') := by
  refine (col_apply _ _ _ r n m).trans ?_
  refine (Ideal.multiReduction_add_single e 0x00000000#32 reduces_S128x64x64_S128x64 (.inl rfl) rfl (ix2 r n)).trans ?_
  show ∑ m' : Fin 64, e (reduces_S128x64x64_S128x64.lift (ix2 r n) m') = _
  exact Finset.sum_congr rfl fun m' _ => congrArg e (lift_last _ r n m')

/-! ## The mixing weights -/

/-- Entry `k` of the 3-vector, taken as a one-entry slice and extracted. -/
theorem weight_apply (x : S3.Idx → α) (k : Fin 3) (h : S3.Slices ![k.val] S1) (hp : ∀ a, (![0] : Fin 1 → Nat) a < S1.size a) :
    extractAt ![0] (extractStridedSlice S1 ![k.val] x h) hp = x (ix1 k) := by
  unfold extractAt
  refine (extractStridedSlice_apply _ x h _ (ix1 k) fun a => ?_)
  match a with
  | ⟨0, _⟩ => exact (Nat.add_zero _).symm

/-! ## Heads and lanes of a channel -/

theorem hd_chan (h : Fin 8) (d : Fin 32) : hd (chan h d) = h :=
  Fin.ext (by show (h.val * 32 + d.val) / 32 = h.val; omega)
theorem ln_chan (h : Fin 8) (d : Fin 32) : ln (chan h d) = d :=
  Fin.ext (by show (h.val * 32 + d.val) % 32 = d.val; omega)
/-- Every channel is a lane of a head. -/
theorem exists_chan (c : Fin 256) : ∃ (h : Fin 8) (d : Fin 32), c = chan h d :=
  ⟨hd c, ln c, Fin.ext (by show c.val = c.val / 32 * 32 + c.val % 32; omega)⟩

/-- The exponential of a vector at an index. -/
theorem exp_apply {s : Shape} {φ : FTy} (a : FVec Ideal s φ) (i : s.Idx) : exp a i = Ideal.exp (a i) := rfl

/-! ## The thirds of a projection: queries, keys, values -/

section thirds
variable (v35 v11 : FVec Ideal S16x64x256 .f32) (v60 v66 : Vec Ideal S256x768 .bf16) (v36 v37 : Vec Ideal S256 .f32)
variable (b : Fin 16) (n : Fin 64) (h : Fin 8) (d : Fin 32)

theorem pay6_apply : k0_pay6 (F := Ideal) v35 v60 (ix3 b n (chan h d)) = k0_pay4 (F := Ideal) v35 v60 (ix3 b n (qi h d)) := by
  unfold k0_pay6
  simp only [truncf_apply]
  exact slice3_axis2_apply 0 _ _ b n (chan h d) (qi h d) (Nat.zero_add _).symm
theorem pay7_apply : k0_pay7 (F := Ideal) v35 v60 (ix3 b n (chan h d)) = k0_pay4 (F := Ideal) v35 v60 (ix3 b n (ki h d)) := by
  unfold k0_pay7
  simp only [truncf_apply]
  exact slice3_axis2_apply 256 _ _ b n (chan h d) (ki h d) rfl
theorem pay8_apply : k0_pay8 (F := Ideal) v35 v60 (ix3 b n (chan h d)) = k0_pay4 (F := Ideal) v35 v60 (ix3 b n (vi h d)) := by
  unfold k0_pay8
  simp only [truncf_apply]
  exact slice3_axis2_apply 512 _ _ b n (chan h d) (vi h d) rfl
theorem pay9_apply : k0_pay9 (F := Ideal) v11 v36 v37 v66 (ix3 b n (chan h d)) = k0_pay5 (F := Ideal) v11 v36 v37 v66 (ix3 b n (qi h d)) := by
  unfold k0_pay9
  simp only [truncf_apply]
  exact slice3_axis2_apply 0 _ _ b n (chan h d) (qi h d) (Nat.zero_add _).symm
theorem pay10_apply : k0_pay10 (F := Ideal) v11 v36 v37 v66 (ix3 b n (chan h d)) = k0_pay5 (F := Ideal) v11 v36 v37 v66 (ix3 b n (ki h d)) := by
  unfold k0_pay10
  simp only [truncf_apply]
  exact slice3_axis2_apply 256 _ _ b n (chan h d) (ki h d) rfl
theorem pay11_apply : k0_pay11 (F := Ideal) v11 v36 v37 v66 (ix3 b n (chan h d)) = k0_pay5 (F := Ideal) v11 v36 v37 v66 (ix3 b n (vi h d)) := by
  unfold k0_pay11
  simp only [truncf_apply]
  exact slice3_axis2_apply 512 _ _ b n (chan h d) (vi h d) rfl

end thirds

/-! ## The four stacks -/

section stacked
variable (g : FVec Ideal S16x64x256 .bf16) (h : Fin 8) (b : Fin 16) (n : Fin 64) (d : Fin 32)

theorem pay15_apply : k0_pay15 (F := Ideal) g (ix3 (srow h b) n d) = g (ix3 b n (chan h d)) := by
  unfold k0_pay15
  exact stack_apply g _ _ _ _ _ _ _ _ _ h b n d
theorem pay16_apply : k0_pay16 (F := Ideal) g (ix3 (srow h b) n d) = g (ix3 b n (chan h d)) := by
  unfold k0_pay16
  exact stack_apply g _ _ _ _ _ _ _ _ _ h b n d
theorem pay17_apply : k0_pay17 (F := Ideal) g (ix3 (srow h b) n d) = g (ix3 b n (chan h d)) := by
  unfold k0_pay17
  exact stack_apply g _ _ _ _ _ _ _ _ _ h b n d
theorem pay18_apply : k0_pay18 (F := Ideal) g (ix3 (srow h b) n d) = g (ix3 b n (chan h d)) := by
  unfold k0_pay18
  exact stack_apply g _ _ _ _ _ _ _ _ _ h b n d

end stacked

/-! ## Scores, row maximum, softmax and context of the stacks -/

section attention
variable (h : Fin 8) (b : Fin 16) (n : Fin 64)

/-- The scaled scores of the stacked queries of `Q` against the stacked keys of `K`: at stacked row `h·16 + b` the
    products run over the 32 lanes of head `h` of batch row `b`. -/
theorem pay19_apply (Q K : FVec Ideal S16x64x256 .bf16) (m : Fin 64) :
    k0_pay19 (F := Ideal) Q K (extractStridedSlice S16x64x32 ![0, 0, 0] Q slices_S16x64x256_o0_0_0_S16x64x32)
        (extractStridedSlice S16x64x32 ![0, 0, 32] Q slices_S16x64x256_o0_0_32_S16x64x32)
        (extractStridedSlice S16x64x32 ![0, 0, 64] Q slices_S16x64x256_o0_0_64_S16x64x32) (ix3 (srow h b) n m)
      = (∑ d : Fin 32, Q (ix3 b n (chan h d)) * K (ix3 b m (chan h d))) * scl := by
  unfold k0_pay19
  simp only [mulf_apply, broadcast_apply]
  refine congrArg (· * _) ((scores_apply _ _ _ _ _).trans (Finset.sum_congr rfl fun d _ => ?_))
  rw [stack_apply, stack_apply]

/-- The row maximum, broadcast along the row. -/
theorem pay20_apply (Q K : FVec Ideal S16x64x256 .bf16) (v84 v85 v86 : FVec Ideal S16x64x32 .bf16) (r : Fin 128) (m : Fin 64) :
    k0_pay20 (F := Ideal) Q K v84 v85 v86 (ix3 r n m)
      = rowmax (fun m' => k0_pay19 (F := Ideal) Q K v84 v85 v86 (ix3 r n m')) := by
  unfold k0_pay20
  exact rowmax_col_apply _ r n m

/-- The row softmax as it is computed: the exponential of the score less the row's maximum, over the row's sum of those
    exponentials (`R` holds the row maxima of `S`). -/
theorem softmax_apply (S R : FVec Ideal S128x64x64 .f32) (r : Fin 128) (m : Fin 64)
    (hR : ∀ m, R (ix3 r n m) = rowmax (fun m' => S (ix3 r n m'))) :
    (truncf .bf16 (divf (exp (subf S R)) (broadcastTo S128x64x64 (shapeCast S128x64x1 (multiReduction (F := Ideal) .add [2] S128x64 (exp (subf S R)) 0x00000000#32 reduces_S128x64x64_S128x64 (.inl rfl) rfl) shapeCasts_S128x64_S128x64x1) broadcasts_S128x64x1_S128x64x64)) bitsLt_bf16_f32 : FVec Ideal S128x64x64 .bf16) (ix3 r n m)
      = smax (fun m' => S (ix3 r n m')) m := by
  simp only [truncf_apply, divf_apply]
  unfold smax
  refine congrArg₂ Ideal.div ?_ ((rowsum_col_apply _ r n m).trans (Finset.sum_congr rfl fun m' _ => ?_))
  · exact congrArg (fun t => Ideal.exp (S (ix3 r n m) - t)) (hR m)
  · exact congrArg (fun t => Ideal.exp (S (ix3 r n m') - t)) (hR m')

/-- Softmax of the rows of `S` (whose row maxima `R` holds), context against the stacked values, heads laid back side by
    side: channel `h·32 + d` of batch row `b`. -/
theorem pay21_apply (SV : FVec Ideal S128x64x32 .bf16) (S R : FVec Ideal S128x64x64 .f32) (d : Fin 32)
    (hR : ∀ m, R (ix3 (srow h b) n m) = rowmax (fun m' => S (ix3 (srow h b) n m'))) :
    k0_pay21 (F := Ideal) SV S R (ix3 b n (chan h d))
      = ∑ m : Fin 64, smax (fun m' => S (ix3 (srow h b) n m')) m * SV (ix3 (srow h b) m d) := by
  unfold k0_pay21
  refine (unstack_apply _ _ _ _ _ _ _ _ _ _ h b n d).trans ?_
  refine (ctxmm_apply _ _ _ n d).trans ?_
  refine Finset.sum_congr rfl fun m _ => ?_
  exact congrArg (· * _) (softmax_apply n S R _ m hR)

/-- The same from the three stacks, times the first mixing weight. -/
theorem pay23_apply (SQ SK SV : FVec Ideal S128x64x32 .bf16) (x11 : Vec Ideal S3 .f32) (d : Fin 32) :
    k0_pay23 (F := Ideal) SQ SK SV x11 (ix3 b n (chan h d))
      = x11 (ix1 0) * ∑ m : Fin 64, smax (fun m' => (∑ d' : Fin 32, SQ (ix3 (srow h b) n d') * SK (ix3 (srow h b) m' d')) * scl) m
          * SV (ix3 (srow h b) m d) := by
  unfold k0_pay23
  simp only [mulf_apply, broadcast_apply]
  refine congrArg₂ (· * ·) (weight_apply x11 0 _ _) ?_
  refine (unstack_apply _ _ _ _ _ _ _ _ _ _ h b n d).trans ?_
  refine (ctxmm_apply _ _ _ n d).trans ?_
  refine Finset.sum_congr rfl fun m _ => ?_
  refine congrArg (· * _) ?_
  refine (softmax_apply n _ _ _ m ?_).trans ?_
  · exact fun m => rowmax_col_apply _ _ n m
  · refine congrArg (fun s => smax s m) (funext fun m' => ?_)
    exact congrArg (· * _) (scores_apply _ _ _ _ _)

end attention

/-! ## The two branches in the specification's terms, and the mix -/

section core
variable (v35 v11 : FVec Ideal S16x64x256 .f32) (v60 v66 : Vec Ideal S256x768 .bf16) (v36 v37 : Vec Ideal S256 .f32)
variable (b : Fin 16) (n : Fin 64) (h : Fin 8)

/-- The scores of the origin branch's queries against the second branch's keys are the specification's scores. -/
theorem scores_od (m : Fin 64) :
    k0_pay19 (F := Ideal) (k0_pay6 v35 v60) (k0_pay10 v11 v36 v37 v66) (k0_pay12 v35 v60) (k0_pay13 v35 v60) (k0_pay14 v35 v60)
        (ix3 (srow h b) n m)
      = score (fun n p => k0_pay4 (F := Ideal) v35 v60 (ix3 b n p)) (fun n p => k0_pay5 (F := Ideal) v11 v36 v37 v66 (ix3 b n p)) h n m := by
  refine (pay19_apply h b n (k0_pay6 v35 v60) (k0_pay10 v11 v36 v37 v66) m).trans ?_
  simp only [pay6_apply, pay10_apply]
  rfl

end core

/-- The stored value of a block at (b, c, n): the mix of the two contexts and the prototypes, the projections being
    the block's `k0_pay4` (origin branch) and `k0_pay5` (second branch). -/
theorem core_apply (v35 v11 : FVec Ideal S16x64x256 .f32) (v60 v66 : Vec Ideal S256x768 .bf16) (v36 v37 : Vec Ideal S256 .f32)
    (x2 : Vec Ideal S16x256x64 .f32) (x11 : Vec Ideal S3 .f32) (b : Fin 16) (c : Fin 256) (n : Fin 64) :
    (k0_pay1 (F := Ideal) (k0_pay21 (k0_pay15 (k0_pay11 v11 v36 v37 v66)) (k0_pay19 (k0_pay6 v35 v60) (k0_pay10 v11 v36 v37 v66) (k0_pay12 v35 v60) (k0_pay13 v35 v60) (k0_pay14 v35 v60)) (k0_pay20 (k0_pay6 v35 v60) (k0_pay10 v11 v36 v37 v66) (k0_pay12 v35 v60) (k0_pay13 v35 v60) (k0_pay14 v35 v60))) (k0_pay22 x2) x11 (k0_pay23 (k0_pay16 (k0_pay9 v11 v36 v37 v66)) (k0_pay17 (k0_pay7 v35 v60)) (k0_pay18 (k0_pay8 v35 v60)) x11) (k0_pay24 x11)) (ix3 b c n)
      = mix (fun k => x11 (ix1 k)) (fun n p => k0_pay4 (F := Ideal) v35 v60 (ix3 b n p))
          (fun n p => k0_pay5 (F := Ideal) v11 v36 v37 v66 (ix3 b n p)) (fun c n => x2 (ix3 b c n)) c n := by
  obtain ⟨h, d, rfl⟩ := exists_chan c
  unfold k0_pay1
  refine (transpose_ix3_021_apply _ _ b (chan h d) n).trans ?_
  simp only [addf_apply, mulf_apply, broadcast_apply]
  unfold mix
  refine congrArg₂ (· + ·) (congrArg₂ (· + ·) ?_ (congrArg₂ (· * ·) ?_ ?_)) (congrArg₂ (· * ·) ?_ ?_)
  · -- the second branch's queries against the origin's keys and values, times the first weight
    refine (pay23_apply h b n _ _ _ x11 d).trans (congrArg (x11 (ix1 0) * ·) ?_)
    unfold ctx
    rw [hd_chan, ln_chan]
    refine Finset.sum_congr rfl fun m _ => ?_
    simp only [pay16_apply, pay17_apply, pay18_apply, pay9_apply, pay7_apply, pay8_apply]
    rfl
  · -- the second weight
    unfold k0_pay24
    exact weight_apply x11 1 _ _
  · -- the origin's queries against the second branch's keys and values
    refine (pay21_apply h b n _ _ _ d (fun m => pay20_apply n _ _ _ _ _ (srow h b) m)).trans ?_
    unfold ctx
    rw [hd_chan, ln_chan]
    refine Finset.sum_congr rfl fun m _ => ?_
    simp only [pay15_apply, pay11_apply, scores_od]
  · -- the third weight
    exact weight_apply x11 2 _ _
  · -- the prototypes, transposed
    unfold k0_pay22
    exact (transpose_ix3_021_apply _ _ b n (chan h d)).trans (congrFun (shapeCast_self _ _) _)

end Cert.CrossAttn.KernelCore

end
-- ==== Proof.KernelBlocks.lean ====
/-
  From blocks to the array. The grid has 128 points; at point t every batch-blocked window (the three maps and the
  result) holds rows 16·q … 16·q + 15 of its array, q the point's block index, and every other window holds its whole
  array. What a point writes back is therefore, entry by entry, the one-batch-element function of row 16·q + b of the
  three maps and of the whole tables; the 128 blocks tile the result array, so the array ends at that function of its
  own row index everywhere.
-/
import proofs.«156077_j26328149525078_2_alg».proof.Proof.Gen.KernelIdeal.Frame
import proofs.«156077_j26328149525078_2_alg».proof.Proof.Spec
import proofs.«156077_j26328149525078_2_alg».proof.Proof.KernelNormProj
import proofs.«156077_j26328149525078_2_alg».proof.Proof.KernelCore
import Idealize.ShloMosaic.Lib.Pipeline.Value
import Idealize.ShloMosaic.Lib.ValueIdx

set_option maxRecDepth 16384

noncomputable section

namespace Cert.KernelIdeal.Hand

open Cert.KernelIdeal Cert.KernelIdeal.Gen Cert.CrossAttn
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array of the region as one function of the arrays the region finds: entry (B, c, n) is the
    one-batch-element function of row B of the three maps, at channel c and token n. The weights arrive transposed. -/
def G3 (A0 A1 A2 : S2048x256x64.Idx → Elt Ideal .f32) (A3 A4 : S1x64x256.Idx → Elt Ideal .f32)
    (A5 A6 A7 A8 : S256.Idx → Elt Ideal .f32) (A9 A10 : S256x768.Idx → Elt Ideal .bf16) (A11 : S3.Idx → Elt Ideal .f32) :
    S2048x256x64.Idx → Elt Ideal .f32 := fun i =>
  outK (fun c n => A0 (ix3 (i 0) c n)) (fun c n => A1 (ix3 (i 0) c n)) (fun c n => A2 (ix3 (i 0) c n))
    (fun n c => A3 (ix3 0 n c)) (fun n c => A4 (ix3 0 n c)) (fun c => A5 (ix1 c)) (fun c => A6 (ix1 c))
    (fun c => A7 (ix1 c)) (fun c => A8 (ix1 c)) (fun p c => A9 (ix2 c p)) (fun p c => A10 (ix2 c p))
    (fun k => A11 (ix1 k)) (i 1) (i 2)

/-- The printed index maps, decided over the grid: the batch-blocked windows move together along axis 0 and sit at 0
    on the other axes; every other window sits at 0. -/
theorem idx_facts : ∀ t : Fin cfg0.N,
    (win0_0.index t (0 : Fin 3) = win0_12.index t (0 : Fin 3) ∧ win0_0.index t (1 : Fin 3) = 0 ∧ win0_0.index t (2 : Fin 3) = 0)
    ∧ (win0_1.index t (0 : Fin 3) = win0_12.index t (0 : Fin 3) ∧ win0_1.index t (1 : Fin 3) = 0 ∧ win0_1.index t (2 : Fin 3) = 0)
    ∧ (win0_2.index t (0 : Fin 3) = win0_12.index t (0 : Fin 3) ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 1) = 0 ∧ win0_6.index t (0 : Fin 1) = 0 ∧ win0_7.index t (0 : Fin 1) = 0 ∧ win0_8.index t (0 : Fin 1) = 0)
    ∧ (win0_9.index t (0 : Fin 2) = 0 ∧ win0_9.index t (1 : Fin 2) = 0 ∧ win0_10.index t (0 : Fin 2) = 0 ∧ win0_10.index t (1 : Fin 2) = 0)
    ∧ win0_11.index t (0 : Fin 1) = 0
    ∧ (win0_12.index t (1 : Fin 3) = 0 ∧ win0_12.index t (2 : Fin 3) = 0 ∧ win0_12.index t (0 : Fin 3) ≤ 127) :=
  (by decide +kernel : ∀ t : Fin grid0.N, _)

/-- Every block of rows is some point's. -/
theorem idx_onto : ∀ q : Fin 128, ∃ t : Fin cfg0.N, win0_12.index t (0 : Fin 3) = q.val :=
  (by decide +kernel : ∀ q : Fin 128, ∃ t : Fin grid0.N, win0_12.index t (0 : Fin 3) = q.val)

/-- The array row of batch row `b` of point `t`'s block. -/
def row (t : Fin cfg0.N) (b : Fin 16) : Fin 2048 :=
  ⟨win0_12.index t (0 : Fin 3) * 16 + b.val, by have := (idx_facts t).2.2.2.2.2.2.2.2.2.2; omega⟩

/-- Window 0's block at point `t`, read at an entry, is its array at the entry's place. -/
theorem blk0 (c : Dev nD) (t : Fin cfg0.N) (b : Fin 16) (p : Fin 256) (q : Fin 64) :
    (iblk m c 0 t : Vec Ideal S16x256x64 .f32) (ix3 b p q) = (V m c main_v0 : _ → Elt Ideal .f32) (ix3 (row t b) p q) := by
  unfold iblk
  rw [View.read_apply]
  show V m c main_v0 _ = V m c main_v0 _
  refine congrArg (V m c main_v0) (funext fun a => Fin.ext ?_)
  match a with
  | ⟨0, _⟩ => show win0_0.index t (0 : Fin 3) * 16 + 1 * b.val = win0_12.index t (0 : Fin 3) * 16 + b.val; have := (idx_facts t).1; omega
  | ⟨1, _⟩ => show win0_0.index t (1 : Fin 3) * 256 + 1 * p.val = p.val; have := (idx_facts t).1; omega
  | ⟨2, _⟩ => show win0_0.index t (2 : Fin 3) * 64 + 1 * q.val = q.val; have := (idx_facts t).1; omega

/-- Window 1's block at point `t`, read at an entry, is its array at the entry's place. -/
theorem blk1 (c : Dev nD) (t : Fin cfg0.N) (b : Fin 16) (p : Fin 256) (q : Fin 64) :
    (iblk m c 1 t : Vec Ideal S16x256x64 .f32) (ix3 b p q) = (V m c main_v1 : _ → Elt Ideal .f32) (ix3 (row t b) p q) := by
  unfold iblk
  rw [View.read_apply]
  show V m c main_v1 _ = V m c main_v1 _
  refine congrArg (V m c main_v1) (funext fun a => Fin.ext ?_)
  match a with
  | ⟨0, _⟩ => show win0_1.index t (0 : Fin 3) * 16 + 1 * b.val = win0_12.index t (0 : Fin 3) * 16 + b.val; have := (idx_facts t).2.1; omega
  | ⟨1, _⟩ => show win0_1.index t (1 : Fin 3) * 256 + 1 * p.val = p.val; have := (idx_facts t).2.1; omega
  | ⟨2, _⟩ => show win0_1.index t (2 : Fin 3) * 64 + 1 * q.val = q.val; have := (idx_facts t).2.1; omega

/-- Window 2's block at point `t`, read at an entry, is its array at the entry's place. -/
theorem blk2 (c : Dev nD) (t : Fin cfg0.N) (b : Fin 16) (p : Fin 256) (q : Fin 64) :
    (iblk m c 2 t : Vec Ideal S16x256x64 .f32) (ix3 b p q) = (V m c main_v2 : _ → Elt Ideal .f32) (ix3 (row t b) p q) := by
  unfold iblk
  rw [View.read_apply]
  show V m c main_v2 _ = V m c main_v2 _
  refine congrArg (V m c main_v2) (funext fun a => Fin.ext ?_)
  match a with
  | ⟨0, _⟩ => show win0_2.index t (0 : Fin 3) * 16 + 1 * b.val = win0_12.index t (0 : Fin 3) * 16 + b.val; have := (idx_facts t).2.2.1; omega
  | ⟨1, _⟩ => show win0_2.index t (1 : Fin 3) * 256 + 1 * p.val = p.val; have := (idx_facts t).2.2.1; omega
  | ⟨2, _⟩ => show win0_2.index t (2 : Fin 3) * 64 + 1 * q.val = q.val; have := (idx_facts t).2.2.1; omega

/-- Window 3's block at point `t`, read at an entry, is its array at the entry's place. -/
theorem blk3 (c : Dev nD) (t : Fin cfg0.N) (b : Fin 1) (p : Fin 64) (q : Fin 256) :
    (iblk m c 3 t : Vec Ideal S1x64x256 .f32) (ix3 b p q) = (V m c main_arg3 : _ → Elt Ideal .f32) (ix3 b p q) := by
  unfold iblk
  rw [View.read_apply]
  show V m c main_arg3 _ = V m c main_arg3 _
  refine congrArg (V m c main_arg3) (funext fun a => Fin.ext ?_)
  match a with
  | ⟨0, _⟩ => show win0_3.index t (0 : Fin 3) * 1 + 1 * b.val = b.val; have := (idx_facts t).2.2.2.1; omega
  | ⟨1, _⟩ => show win0_3.index t (1 : Fin 3) * 64 + 1 * p.val = p.val; have := (idx_facts t).2.2.2.1; omega
  | ⟨2, _⟩ => show win0_3.index t (2 : Fin 3) * 256 + 1 * q.val = q.val; have := (idx_facts t).2.2.2.1; omega

/-- Window 4's block at point `t`, read at an entry, is its array at the entry's place. -/
theorem blk4 (c : Dev nD) (t : Fin cfg0.N) (b : Fin 1) (p : Fin 64) (q : Fin 256) :
    (iblk m c 4 t : Vec Ideal S1x64x256 .f32) (ix3 b p q) = (V m c main_arg4 : _ → Elt Ideal .f32) (ix3 b p q) := by
  unfold iblk
  rw [View.read_apply]
  show V m c main_arg4 _ = V m c main_arg4 _
  refine congrArg (V m c main_arg4) (funext fun a => Fin.ext ?_)
  match a with
  | ⟨0, _⟩ => show win0_4.index t (0 : Fin 3) * 1 + 1 * b.val = b.val; have := (idx_facts t).2.2.2.2.1; omega
  | ⟨1, _⟩ => show win0_4.index t (1 : Fin 3) * 64 + 1 * p.val = p.val; have := (idx_facts t).2.2.2.2.1; omega
  | ⟨2, _⟩ => show win0_4.index t (2 : Fin 3) * 256 + 1 * q.val = q.val; have := (idx_facts t).2.2.2.2.1; omega

/-- Window 5's block at point `t`, read at an entry, is its array at the entry's place. -/
theorem blk5 (c : Dev nD) (t : Fin cfg0.N) (p : Fin 256) :
    (iblk m c 5 t : Vec Ideal S256 .f32) (ix1 p) = (V m c main_arg5 : _ → Elt Ideal .f32) (ix1 p) := by
  unfold iblk
  rw [View.read_apply]
  show V m c main_arg5 _ = V m c main_arg5 _
  refine congrArg (V m c main_arg5) (funext fun a => Fin.ext ?_)
  match a with
  | ⟨0, _⟩ => show win0_5.index t (0 : Fin 1) * 256 + 1 * p.val = p.val; have := (idx_facts t).2.2.2.2.2.1; omega

/-- Window 6's block at point `t`, read at an entry, is its array at the entry's place. -/
theorem blk6 (c : Dev nD) (t : Fin cfg0.N) (p : Fin 256) :
    (iblk m c 6 t : Vec Ideal S256 .f32) (ix1 p) = (V m c main_arg6 : _ → Elt Ideal .f32) (ix1 p) := by
  unfold iblk
  rw [View.read_apply]
  show V m c main_arg6 _ = V m c main_arg6 _
  refine congrArg (V m c main_arg6) (funext fun a => Fin.ext ?_)
  match a with
  | ⟨0, _⟩ => show win0_6.index t (0 : Fin 1) * 256 + 1 * p.val = p.val; have := (idx_facts t).2.2.2.2.2.1; omega

/-- Window 7's block at point `t`, read at an entry, is its array at the entry's place. -/
theorem blk7 (c : Dev nD) (t : Fin cfg0.N) (p : Fin 256) :
    (iblk m c 7 t : Vec Ideal S256 .f32) (ix1 p) = (V m c main_arg7 : _ → Elt Ideal .f32) (ix1 p) := by
  unfold iblk
  rw [View.read_apply]
  show V m c main_arg7 _ = V m c main_arg7 _
  refine congrArg (V m c main_arg7) (funext fun a => Fin.ext ?_)
  match a with
  | ⟨0, _⟩ => show win0_7.index t (0 : Fin 1) * 256 + 1 * p.val = p.val; have := (idx_facts t).2.2.2.2.2.1; omega

/-- Window 8's block at point `t`, read at an entry, is its array at the entry's place. -/
theorem blk8 (c : Dev nD) (t : Fin cfg0.N) (p : Fin 256) :
    (iblk m c 8 t : Vec Ideal S256 .f32) (ix1 p) = (V m c main_arg8 : _ → Elt Ideal .f32) (ix1 p) := by
  unfold iblk
  rw [View.read_apply]
  show V m c main_arg8 _ = V m c main_arg8 _
  refine congrArg (V m c main_arg8) (funext fun a => Fin.ext ?_)
  match a with
  | ⟨0, _⟩ => show win0_8.index t (0 : Fin 1) * 256 + 1 * p.val = p.val; have := (idx_facts t).2.2.2.2.2.1; omega

/-- Window 9's block at point `t`, read at an entry, is its array at the entry's place. -/
theorem blk9 (c : Dev nD) (t : Fin cfg0.N) (p : Fin 256) (q : Fin 768) :
    (iblk m c 9 t : Vec Ideal S256x768 .bf16) (ix2 p q) = (V m c main_v4 : _ → Elt Ideal .bf16) (ix2 p q) := by
  unfold iblk
  rw [View.read_apply]
  show V m c main_v4 _ = V m c main_v4 _
  refine congrArg (V m c main_v4) (funext fun a => Fin.ext ?_)
  match a with
  | ⟨0, _⟩ => show win0_9.index t (0 : Fin 2) * 256 + 1 * p.val = p.val; have := (idx_facts t).2.2.2.2.2.2.1; omega
  | ⟨1, _⟩ => show win0_9.index t (1 : Fin 2) * 768 + 1 * q.val = q.val; have := (idx_facts t).2.2.2.2.2.2.1; omega

/-- Window 10's block at point `t`, read at an entry, is its array at the entry's place. -/
theorem blk10 (c : Dev nD) (t : Fin cfg0.N) (p : Fin 256) (q : Fin 768) :
    (iblk m c 10 t : Vec Ideal S256x768 .bf16) (ix2 p q) = (V m c main_v6 : _ → Elt Ideal .bf16) (ix2 p q) := by
  unfold iblk
  rw [View.read_apply]
  show V m c main_v6 _ = V m c main_v6 _
  refine congrArg (V m c main_v6) (funext fun a => Fin.ext ?_)
  match a with
  | ⟨0, _⟩ => show win0_10.index t (0 : Fin 2) * 256 + 1 * p.val = p.val; have := (idx_facts t).2.2.2.2.2.2.1; omega
  | ⟨1, _⟩ => show win0_10.index t (1 : Fin 2) * 768 + 1 * q.val = q.val; have := (idx_facts t).2.2.2.2.2.2.1; omega

/-- Window 11's block at point `t`, read at an entry, is its array at the entry's place. -/
theorem blk11 (c : Dev nD) (t : Fin cfg0.N) (p : Fin 3) :
    (iblk m c 11 t : Vec Ideal S3 .f32) (ix1 p) = (V m c main_arg11 : _ → Elt Ideal .f32) (ix1 p) := by
  unfold iblk
  rw [View.read_apply]
  show V m c main_arg11 _ = V m c main_arg11 _
  refine congrArg (V m c main_arg11) (funext fun a => Fin.ext ?_)
  match a with
  | ⟨0, _⟩ => show win0_11.index t (0 : Fin 1) * 3 + 1 * p.val = p.val; have := (idx_facts t).2.2.2.2.2.2.2.1; omega

/-- The result window's block entry (b, p, q) of point `t` sits at row `row t b` of the array. -/
theorem emb12 (t : Fin cfg0.N) (b : Fin 16) (p : Fin 256) (q : Fin 64) :
    ((cfg0.win 12).blk t).view.emb (ix3 b p q) = (ix3 (row t b) p q : S2048x256x64.Idx) := by
  refine funext fun a => Fin.ext ?_
  match a with
  | ⟨0, _⟩ => show win0_12.index t (0 : Fin 3) * 16 + 1 * b.val = win0_12.index t (0 : Fin 3) * 16 + b.val; omega
  | ⟨1, _⟩ => show win0_12.index t (1 : Fin 3) * 256 + 1 * p.val = p.val; have := (idx_facts t).2.2.2.2.2.2.2.2; omega
  | ⟨2, _⟩ => show win0_12.index t (2 : Fin 3) * 64 + 1 * q.val = q.val; have := (idx_facts t).2.2.2.2.2.2.2.2; omega

/-- WHAT POINT `t` WRITES BACK is block `t` of `G3` of the arrays as the region finds them. -/
theorem flushed_eq (c : Dev nD) (t : Fin cfg0.N) :
    (dats m 0 c).flushed 12 t = ((cfg0.win 12).blk t).view.read (Elt Ideal) (G3 (V m c main_v0) (V m c main_v1) (V m c main_v2) (V m c main_arg3) (V m c main_arg4) (V m c main_arg5) (V m c main_arg6) (V m c main_arg7) (V m c main_arg8) (V m c main_v4) (V m c main_v6) (V m c main_arg11)) := by
  show (cfg0.win 12).cut (grid0.coords t) ((dats m 0 c).after 12 t) = _
  rw [after0_12]
  unfold out0_12
  rw [View.canon_unit_zero hz3]
  simp only [View.ld_unit_zero (S := S16x256x64) hz3, View.ld_unit_zero (S := S1x64x256) hz3, View.ld_unit_zero (S := S256) hz1,
    View.ld_unit_zero (S := S256x768) hz2, View.ld_unit_zero (S := S3) hz1]
  funext j
  obtain ⟨b, p, q, rfl⟩ : ∃ (b : Fin 16) (p : Fin 256) (q : Fin 64), j = ix3 b p q := ⟨j 0, j 1, j 2, eq_ix3 j⟩
  refine (Cert.CrossAttn.KernelCore.core_apply (k0_pay3 (F := Ideal) (iblk m c 0 t) (iblk m c 3 t) (iblk m c 5 t) (iblk m c 6 t)) (k0_pay2 (F := Ideal) (iblk m c 1 t) (iblk m c 4 t))
    (iblk m c 9 t) (iblk m c 10 t) (iblk m c 7 t) (iblk m c 8 t) (iblk m c 2 t) (iblk m c 11 t) b p q).trans ?_
  rw [View.read_apply, emb12]
  show _ = G3 (V m c main_v0) (V m c main_v1) (V m c main_v2) (V m c main_arg3) (V m c main_arg4) (V m c main_arg5) (V m c main_arg6) (V m c main_arg7) (V m c main_arg8) (V m c main_v4) (V m c main_v6) (V m c main_arg11) (ix3 (row t b) p q)
  have e_yo : (fun n p' => k0_pay4 (F := Ideal) (k0_pay3 (F := Ideal) (iblk m c 0 t) (iblk m c 3 t) (iblk m c 5 t) (iblk m c 6 t)) (iblk m c 9 t) (ix3 b n p'))
      = proj (fun p' c' => (V m c main_v4 : _ → Elt Ideal .bf16) (ix2 c' p'))
          (fun n => normK (fun c' => (V m c main_arg5 : _ → Elt Ideal .f32) (ix1 c')) (fun c' => (V m c main_arg6 : _ → Elt Ideal .f32) (ix1 c'))
            (tok (fun c' n' => (V m c main_v0 : _ → Elt Ideal .f32) (ix3 (row t b) c' n')) (fun n' c' => (V m c main_arg3 : _ → Elt Ideal .f32) (ix3 0 n' c')) n)) := by
    funext n p'
    refine (Cert.CrossAttn.KernelNormProj.yo_apply (iblk m c 0 t) (iblk m c 3 t) (iblk m c 5 t) (iblk m c 6 t) (iblk m c 9 t) b n p').trans ?_
    simp only [blk0 m c t, blk3 m c t, blk5 m c t, blk6 m c t, blk9 m c t]
  have e_yd : (fun n p' => k0_pay5 (F := Ideal) (k0_pay2 (F := Ideal) (iblk m c 1 t) (iblk m c 4 t)) (iblk m c 7 t) (iblk m c 8 t) (iblk m c 10 t) (ix3 b n p'))
      = proj (fun p' c' => (V m c main_v6 : _ → Elt Ideal .bf16) (ix2 c' p'))
          (fun n => normK (fun c' => (V m c main_arg7 : _ → Elt Ideal .f32) (ix1 c')) (fun c' => (V m c main_arg8 : _ → Elt Ideal .f32) (ix1 c'))
            (tok (fun c' n' => (V m c main_v1 : _ → Elt Ideal .f32) (ix3 (row t b) c' n')) (fun n' c' => (V m c main_arg4 : _ → Elt Ideal .f32) (ix3 0 n' c')) n)) := by
    funext n p'
    refine (Cert.CrossAttn.KernelNormProj.yd_apply (iblk m c 1 t) (iblk m c 4 t) (iblk m c 7 t) (iblk m c 8 t) (iblk m c 10 t) b n p').trans ?_
    simp only [blk1 m c t, blk4 m c t, blk7 m c t, blk8 m c t, blk10 m c t]
  rw [e_yo, e_yd]
  simp only [blk2 m c t, blk11 m c t]
  rfl

/-- An index of the array is in point `t`'s block iff each coordinate is in the block's range on its axis. -/
theorem mem_blk12 (t : Fin cfg0.N) (i : S2048x256x64.Idx) :
    i ∈ ((cfg0.win 12).blk t).view.set ↔ ∀ a : Fin 3, win0_12.index t a * S16x256x64.size a ≤ (i a).val
      ∧ (i a).val < win0_12.index t a * S16x256x64.size a + S16x256x64.size a := by
  show i ∈ ((View.whole main_v7).slice (win0_12.rect t)).set ↔ _
  rw [View.set_slice_whole, Rect.mem_set_unit]
  exact Iff.rfl

/-- The 128 blocks tile the array: row r lies in the block of the point whose block index is r / 16. -/
theorem cover12 (i : S2048x256x64.Idx) :
    ∃ t : Fin cfg0.N, (cfg0.win 12).flush t = true ∧ i ∈ ((cfg0.win 12).blk t).view.set := by
  have h0 : (i 0).val < 2048 := (i 0).isLt
  have h1 : (i 1).val < 256 := (i 1).isLt
  have h2 : (i 2).val < 64 := (i 2).isLt
  obtain ⟨t, ht⟩ := idx_onto ⟨(i 0).val / 16, by omega⟩
  have hq : win0_12.index t (0 : Fin 3) = (i 0).val / 16 := ht
  have hf := (idx_facts t).2.2.2.2.2.2.2.2
  refine ⟨t, flush0_12 t, ?_⟩
  rw [mem_blk12]
  intro a
  match a with
  | ⟨0, _⟩ => show win0_12.index t (0 : Fin 3) * 16 ≤ (i 0).val ∧ (i 0).val < win0_12.index t (0 : Fin 3) * 16 + 16; omega
  | ⟨1, _⟩ => show win0_12.index t (1 : Fin 3) * 256 ≤ (i 1).val ∧ (i 1).val < win0_12.index t (1 : Fin 3) * 256 + 256; omega
  | ⟨2, _⟩ => show win0_12.index t (2 : Fin 3) * 64 ≤ (i 2).val ∧ (i 2).val < win0_12.index t (2 : Fin 3) * 64 + 64; omega

/-- THE ARRAY after the region: `G3` of the arrays as the region finds them. -/
theorem final12 (c : Dev nD) :
    (dats m 0 c).arrAt 12 cfg0.N = G3 (V m c main_v0) (V m c main_v1) (V m c main_v2) (V m c main_arg3) (V m c main_arg4) (V m c main_arg5) (V m c main_arg6) (V m c main_arg7) (V m c main_arg8) (V m c main_v4) (V m c main_v6) (V m c main_arg11) :=
  (dats m 0 c).arrAt_eq_of_cover 12 (G3 (V m c main_v0) (V m c main_v1) (V m c main_v2) (V m c main_arg3) (V m c main_arg4) (V m c main_arg5) (V m c main_arg6) (V m c main_arg7) (V m c main_arg8) (V m c main_v4) (V m c main_v6) (V m c main_arg11)) (fun t _ => flushed_eq m c t) cover12

end Cert.KernelIdeal.Hand

end
-- ==== Proof.KernelHost.lean ====
/-
  The host lines around the region. Before it: each map [2048, 256, 8, 8] is reshaped to [2048, 256, 64] — entry
  (B, c, n) is pixel (n / 8, n % 8) of channel c — and each weight matrix [768, 256] is transposed to [256, 768] and
  narrowed to bf16, which at the ideal instance changes nothing. After it: the result [2048, 256, 64] is reshaped to
  [2048, 256, 8, 8] — pixel (r, s) is token 8·r + s.
-/
import proofs.«156077_j26328149525078_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- Pixel row of token `n`. -/
def prow (n : Fin 64) : Fin 8 := ⟨n.val / 8, by omega⟩
/-- Pixel column of token `n`. -/
def pcol (n : Fin 64) : Fin 8 := ⟨n.val % 8, by omega⟩
/-- The token of pixel (r, s). -/
def tokOf (r s : Fin 8) : Fin 64 := ⟨r.val * 8 + s.val, by omega⟩

/-! ## What the region finds -/

theorem V_v0 (c : Dev nD) : (V m c main_v0 : FVec Ideal S2048x256x64 .f32)
    = shapeCast S2048x256x64 (m ((c : Thread nD τ).loc main_arg0) : FVec Ideal S2048x256x8x8 .f32) shapeCasts_S2048x256x8x8_S2048x256x64 := by
  show StableHlo.after hostOps0 (fun b => m (c, b)) (Proc.devRef .tc main_v0) = _
  after_results
  rfl

theorem V_v1 (c : Dev nD) : (V m c main_v1 : FVec Ideal S2048x256x64 .f32)
    = shapeCast S2048x256x64 (m ((c : Thread nD τ).loc main_arg1) : FVec Ideal S2048x256x8x8 .f32) shapeCasts_S2048x256x8x8_S2048x256x64 := by
  show StableHlo.after hostOps0 (fun b => m (c, b)) (Proc.devRef .tc main_v1) = _
  after_results
  rfl

theorem V_v2 (c : Dev nD) : (V m c main_v2 : FVec Ideal S2048x256x64 .f32)
    = shapeCast S2048x256x64 (m ((c : Thread nD τ).loc main_arg2) : FVec Ideal S2048x256x8x8 .f32) shapeCasts_S2048x256x8x8_S2048x256x64 := by
  show StableHlo.after hostOps0 (fun b => m (c, b)) (Proc.devRef .tc main_v2) = _
  after_results
  rfl

theorem V_v4 (c : Dev nD) : (V m c main_v4 : FVec Ideal S256x768 .bf16)
    = truncf (F := Ideal) .bf16 (transpose S256x768 [1, 0] (m ((c : Thread nD τ).loc main_arg9) : FVec Ideal S768x256 .f32) transposes_S768x256_S256x768_1_0) bitsLt_bf16_f32 := by
  show StableHlo.after hostOps0 (fun b => m (c, b)) (Proc.devRef .tc main_v4) = _
  after_results

theorem V_v6 (c : Dev nD) : (V m c main_v6 : FVec Ideal S256x768 .bf16)
    = truncf (F := Ideal) .bf16 (transpose S256x768 [1, 0] (m ((c : Thread nD τ).loc main_arg10) : FVec Ideal S768x256 .f32) transposes_S768x256_S256x768_1_0) bitsLt_bf16_f32 := by
  show StableHlo.after hostOps0 (fun b => m (c, b)) (Proc.devRef .tc main_v6) = _
  after_results

/-! ## The three layout operations read at an index -/

/-- The map reshaped to tokens: entry (B, c, n) is pixel (n / 8, n % 8) of channel c. -/
theorem tokens_apply (x : FVec Ideal S2048x256x8x8 .f32) (B : Fin 2048) (ch : Fin 256) (n : Fin 64) :
    shapeCast S2048x256x64 x shapeCasts_S2048x256x8x8_S2048x256x64 (ix3 B ch n) = x (ix4 B ch (prow n) (pcol n)) := by
  refine shapeCast_apply x _ _ _ ?_
  rw [Shape.rowMajor_val_four, Shape.rowMajor_val_three]
  show ((B.val * 256 + ch.val) * 8 + n.val / 8) * 8 + n.val % 8 = (B.val * 256 + ch.val) * 64 + n.val
  omega

/-- The weight transposed and narrowed: entry (c, p) is entry (p, c) of the matrix. -/
theorem weight_apply (w : FVec Ideal S768x256 .f32) (ch : Fin 256) (p : Fin 768) :
    truncf (F := Ideal) .bf16 (transpose S256x768 [1, 0] w transposes_S768x256_S256x768_1_0) bitsLt_bf16_f32 (ix2 ch p)
      = w (ix2 p ch) := by
  show FloatOps.truncf (F := Ideal) .bf16 bitsLt_bf16_f32 (transpose S256x768 [1, 0] w transposes_S768x256_S256x768_1_0 (ix2 ch p)) = _
  rw [Ideal.truncf_def]
  exact transpose_apply [1, 0] w transposes_S768x256_S256x768_1_0 (ix2 ch p) (ix2 p ch) (fun b => match b with
    | ⟨0, _⟩ => rfl
    | ⟨1, _⟩ => rfl)

/-- The result reshaped to the 8 × 8 map: pixel (r, s) is token 8·r + s. -/
theorem pixels_apply (y : FVec Ideal S2048x256x64 .f32) (B : Fin 2048) (ch : Fin 256) (r s : Fin 8) :
    shapeCast S2048x256x8x8 y shapeCasts_S2048x256x64_S2048x256x8x8 (ix4 B ch r s) = y (ix3 B ch (tokOf r s)) := by
  refine shapeCast_apply y _ _ _ ?_
  rw [Shape.rowMajor_val_four, Shape.rowMajor_val_three]
  show (B.val * 256 + ch.val) * 64 + (r.val * 8 + s.val) = ((B.val * 256 + ch.val) * 8 + r.val) * 8 + s.val
  omega

/-! ## The line after the region -/

/-- The program's result is the region's result array reshaped. -/
theorem tail_v8 (c : Dev nD) :
    Pipeline.afterTail₀ cfgs (dats m) 0 (V0 m) [hostOps1] c main_v8
      = shapeCast S2048x256x8x8 ((dats m 0 c).arrAt 12 cfg0.N : FVec Ideal S2048x256x64 .f32) shapeCasts_S2048x256x64_S2048x256x8x8 := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v7)
        = (dats m 0 c).arrAt 12 cfg0.N from Pipeline.withArrays_arr spec0 launch0.win.arr_inj c _ _ 12]
  rfl

end Cert.KernelIdeal.Hand

end
-- ==== Proof.LibIdealReal.lean ====
/-
  General lemmas, independent of any one program: "every entry of an array is a real number" (and its
  refinements "a nonnegative real", "a positive real") is carried through the operations of a program read
  at the ideal instance, where a float is an extended real and every operation is the exact one.  The two
  infinities are the only extended reals that are not reals; sums, differences, products and maxima of
  reals are reals, a quotient by a positive real is a real, the reciprocal square root of a positive real
  is a positive real, a real power of a real is a real, a finite sum of reals is a real, and an operation
  that only re-indexes an array (broadcast, reshape, slice, gather) returns entries of its operand.
-/
import Idealize.ShloMosaic.PureOps.Ideal.Laws

namespace Cert.LibIdealReal

open Idealize.ShloMosaic
open scoped BigOperators

/-- Every entry of the array is a real number (neither infinity). -/
def AllReal {s : Shape} {φ : FTy} (v : FVec Ideal s φ) : Prop := ∀ i, ∃ r : ℝ, v i = (r : EReal)

/-- Every entry of the array is a nonnegative real number. -/
def AllNonneg {s : Shape} {φ : FTy} (v : FVec Ideal s φ) : Prop := ∀ i, ∃ r : ℝ, 0 ≤ r ∧ v i = (r : EReal)

/-- Every entry of the array is a positive real number. -/
def AllPos {s : Shape} {φ : FTy} (v : FVec Ideal s φ) : Prop := ∀ i, ∃ r : ℝ, 0 < r ∧ v i = (r : EReal)

section Pointwise
variable {s : Shape} {φ : FTy}

/-- A nonnegative real is a real. -/
theorem AllNonneg.allReal {x : FVec Ideal s φ} (hx : AllNonneg x) : AllReal x :=
  fun i => let ⟨r, _, h⟩ := hx i; ⟨r, h⟩

/-- A positive real is a real. -/
theorem AllPos.allReal {x : FVec Ideal s φ} (hx : AllPos x) : AllReal x :=
  fun i => let ⟨r, _, h⟩ := hx i; ⟨r, h⟩

/-- A positive real is a nonnegative real. -/
theorem AllPos.allNonneg {x : FVec Ideal s φ} (hx : AllPos x) : AllNonneg x :=
  fun i => let ⟨r, hr, h⟩ := hx i; ⟨r, hr.le, h⟩

/-- The sum of two reals is a real: (a : EReal) + (b : EReal) = ((a + b : ℝ) : EReal). -/
theorem allReal_addf {x y : FVec Ideal s φ} (hx : AllReal x) (hy : AllReal y) : AllReal (addf x y) := by
  intro i
  obtain ⟨a, ha⟩ := hx i
  obtain ⟨b, hb⟩ := hy i
  refine ⟨a + b, ?_⟩
  show x i + y i = _
  rw [ha, hb, EReal.coe_add]

/-- The difference of two reals is a real. -/
theorem allReal_subf {x y : FVec Ideal s φ} (hx : AllReal x) (hy : AllReal y) : AllReal (subf x y) := by
  intro i
  obtain ⟨a, ha⟩ := hx i
  obtain ⟨b, hb⟩ := hy i
  refine ⟨a - b, ?_⟩
  show x i - y i = _
  rw [ha, hb, EReal.coe_sub]

/-- The product of two reals is a real. -/
theorem allReal_mulf {x y : FVec Ideal s φ} (hx : AllReal x) (hy : AllReal y) : AllReal (mulf x y) := by
  intro i
  obtain ⟨a, ha⟩ := hx i
  obtain ⟨b, hb⟩ := hy i
  refine ⟨a * b, ?_⟩
  show x i * y i = _
  rw [ha, hb, EReal.coe_mul]

/-- The maximum of two reals is one of them, hence a real. -/
theorem allReal_maximumf {x y : FVec Ideal s φ} (hx : AllReal x) (hy : AllReal y) : AllReal (maximumf x y) := by
  intro i
  obtain ⟨a, ha⟩ := hx i
  obtain ⟨b, hb⟩ := hy i
  show ∃ r : ℝ, max (x i) (y i) = (r : EReal)
  rcases le_total (x i) (y i) with h | h
  · exact ⟨b, by rw [max_eq_right h, hb]⟩
  · exact ⟨a, by rw [max_eq_left h, ha]⟩

/-- The maximum of a real and a nonnegative real is a nonnegative real (the rectifier max(x, 0)). -/
theorem allNonneg_maximumf_right {x y : FVec Ideal s φ} (hx : AllReal x) (hy : AllNonneg y) :
    AllNonneg (maximumf x y) := by
  intro i
  obtain ⟨a, ha⟩ := hx i
  obtain ⟨b, hb0, hb⟩ := hy i
  show ∃ r : ℝ, 0 ≤ r ∧ max (x i) (y i) = (r : EReal)
  rcases le_total (x i) (y i) with h | h
  · exact ⟨b, hb0, by rw [max_eq_right h, hb]⟩
  · refine ⟨a, ?_, by rw [max_eq_left h, ha]⟩
    rw [ha, hb] at h
    exact hb0.trans (EReal.coe_le_coe_iff.mp h)

/-- The square of a real is a nonnegative real. -/
theorem allNonneg_mulf_self {x : FVec Ideal s φ} (hx : AllReal x) : AllNonneg (mulf x x) := by
  intro i
  obtain ⟨a, ha⟩ := hx i
  refine ⟨a * a, mul_self_nonneg a, ?_⟩
  show x i * x i = _
  rw [ha, EReal.coe_mul]

/-- The product of two nonnegative reals is a nonnegative real. -/
theorem allNonneg_mulf {x y : FVec Ideal s φ} (hx : AllNonneg x) (hy : AllNonneg y) : AllNonneg (mulf x y) := by
  intro i
  obtain ⟨a, ha0, ha⟩ := hx i
  obtain ⟨b, hb0, hb⟩ := hy i
  refine ⟨a * b, mul_nonneg ha0 hb0, ?_⟩
  show x i * y i = _
  rw [ha, hb, EReal.coe_mul]

/-- The sum of two nonnegative reals is a nonnegative real. -/
theorem allNonneg_addf {x y : FVec Ideal s φ} (hx : AllNonneg x) (hy : AllNonneg y) : AllNonneg (addf x y) := by
  intro i
  obtain ⟨a, ha0, ha⟩ := hx i
  obtain ⟨b, hb0, hb⟩ := hy i
  refine ⟨a + b, add_nonneg ha0 hb0, ?_⟩
  show x i + y i = _
  rw [ha, hb, EReal.coe_add]

/-- A nonnegative real plus a positive real is a positive real. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A real divided by a positive real is a real: for b ≠ 0 the quotient is the product with 1 / b. -/
theorem allReal_hostDivf {x y : FVec Ideal s φ} (hx : AllReal x) (hy : AllPos y) : AllReal (Host.divf x y) := by
  intro i
  obtain ⟨a, ha⟩ := hx i
  obtain ⟨b, hb0, hb⟩ := hy i
  refine ⟨a * (1 / b), ?_⟩
  show Ideal.div (x i) (y i) = _
  rw [ha, hb, Ideal.div_coe hb0.ne', EReal.coe_mul]

/-- A nonnegative real divided by a positive real is a nonnegative real. -/
theorem allNonneg_hostDivf {x y : FVec Ideal s φ} (hx : AllNonneg x) (hy : AllPos y) :
    AllNonneg (Host.divf x y) := by
  intro i
  obtain ⟨a, ha0, ha⟩ := hx i
  obtain ⟨b, hb0, hb⟩ := hy i
  refine ⟨a * (1 / b), mul_nonneg ha0 (one_div_pos.mpr hb0).le, ?_⟩
  show Ideal.div (x i) (y i) = _
  rw [ha, hb, Ideal.div_coe hb0.ne', EReal.coe_mul]

/-- The reciprocal square root of a positive real r is the positive real (√r)⁻¹. -/
theorem allPos_hostRsqrt {x : FVec Ideal s φ} (hx : AllPos x) : AllPos (Host.rsqrt x) := by
  intro i
  obtain ⟨a, ha0, ha⟩ := hx i
  refine ⟨(Real.sqrt a)⁻¹, inv_pos.mpr (Real.sqrt_pos.mpr ha0), ?_⟩
  show Ideal.rsqrt (x i) = _
  rw [ha, Ideal.rsqrt_coe, if_neg (not_lt.mpr ha0.le), if_neg ha0.ne']

/-- The reciprocal square root of a positive real is a real. -/
theorem allReal_hostRsqrt {x : FVec Ideal s φ} (hx : AllPos x) : AllReal (Host.rsqrt x) :=
  (allPos_hostRsqrt hx).allReal

/-- A real power of a real is a real (the real power function is total on the reals). -/
theorem allReal_hostPowf {x y : FVec Ideal s φ} (hx : AllReal x) (hy : AllReal y) : AllReal (Host.powf x y) := by
  intro i
  obtain ⟨a, ha⟩ := hx i
  obtain ⟨b, hb⟩ := hy i
  refine ⟨Real.rpow a b, ?_⟩
  show Ideal.pow (x i) (y i) = _
  rw [ha, hb, Ideal.pow_coe_coe]

/-- A real power of a positive real is a positive real. -/
theorem allPos_hostPowf {x y : FVec Ideal s φ} (hx : AllPos x) (hy : AllReal y) : AllPos (Host.powf x y) := by
  intro i
  obtain ⟨a, ha0, ha⟩ := hx i
  obtain ⟨b, hb⟩ := hy i
  refine ⟨Real.rpow a b, Real.rpow_pos_of_pos ha0 b, ?_⟩
  show Ideal.pow (x i) (y i) = _
  rw [ha, hb, Ideal.pow_coe_coe]

end Pointwise

section Layout
variable {s t : Shape} {φ : FTy}

/-- Each entry of a broadcast is an entry of the operand: reals stay reals. -/
theorem allReal_broadcastInDim (dims : Fin s.rank → Fin t.rank) (h : s.BroadcastsInDim t dims)
    {x : FVec Ideal s φ} (hx : AllReal x) : AllReal (φ := φ) (broadcastInDim t dims h x) :=
  fun _ => hx _

/-- Each entry of a broadcast is an entry of the operand: nonnegative reals stay nonnegative reals. -/
theorem allNonneg_broadcastInDim (dims : Fin s.rank → Fin t.rank) (h : s.BroadcastsInDim t dims)
    {x : FVec Ideal s φ} (hx : AllNonneg x) : AllNonneg (φ := φ) (broadcastInDim t dims h x) :=
  fun _ => hx _

/-- Each entry of a broadcast is an entry of the operand: positive reals stay positive reals. -/
theorem allPos_broadcastInDim (dims : Fin s.rank → Fin t.rank) (h : s.BroadcastsInDim t dims)
    {x : FVec Ideal s φ} (hx : AllPos x) : AllPos (φ := φ) (broadcastInDim t dims h x) :=
  fun _ => hx _

/-- A reshape holds the same entries in row-major order under another shape: reals stay reals. -/
theorem allReal_shapeCast {x : FVec Ideal s φ} (h : s.ShapeCasts t) (hx : AllReal x) :
    AllReal (φ := φ) (shapeCast t x h) :=
  fun _ => hx _

/-- A reshape holds the same entries: nonnegative reals stay nonnegative reals. -/
theorem allNonneg_shapeCast {x : FVec Ideal s φ} (h : s.ShapeCasts t) (hx : AllNonneg x) :
    AllNonneg (φ := φ) (shapeCast t x h) :=
  fun _ => hx _

/-- A reshape holds the same entries: positive reals stay positive reals. -/
theorem allPos_shapeCast {x : FVec Ideal s φ} (h : s.ShapeCasts t) (hx : AllPos x) :
    AllPos (φ := φ) (shapeCast t x h) :=
  fun _ => hx _

/-- Each entry of a slice is the operand's entry at the offset index: reals stay reals. -/
theorem allReal_extractStridedSlice (off : Fin s.rank → Nat) {x : FVec Ideal s φ} (h : s.Slices off t)
    (hx : AllReal x) : AllReal (φ := φ) (extractStridedSlice t off x h) :=
  fun _ => hx _

/-- Each entry of a slice is an entry of the operand: nonnegative reals stay nonnegative reals. -/
theorem allNonneg_extractStridedSlice (off : Fin s.rank → Nat) {x : FVec Ideal s φ} (h : s.Slices off t)
    (hx : AllNonneg x) : AllNonneg (φ := φ) (extractStridedSlice t off x h) :=
  fun _ => hx _

/-- Each entry of a slice is an entry of the operand: positive reals stay positive reals. -/
theorem allPos_extractStridedSlice (off : Fin s.rank → Nat) {x : FVec Ideal s φ} (h : s.Slices off t)
    (hx : AllPos x) : AllPos (φ := φ) (extractStridedSlice t off x h) :=
  fun _ => hx _

/-- Each entry of a gather is the operand's entry at the (clamped) index the index array names:
    reals stay reals, whatever the indices. -/
theorem allReal_hostGather {si : Shape} {w : Nat} (d : GatherDims s si t) {x : FVec Ideal s φ} (idx : IVec si w)
    (hx : AllReal x) : AllReal (φ := φ) (Host.gather d x idx) :=
  fun _ => hx _

/-- Each entry of a gather is an entry of the operand: nonnegative reals stay nonnegative reals. -/
theorem allNonneg_hostGather {si : Shape} {w : Nat} (d : GatherDims s si t) {x : FVec Ideal s φ} (idx : IVec si w)
    (hx : AllNonneg x) : AllNonneg (φ := φ) (Host.gather d x idx) :=
  fun _ => hx _

/-- Each entry of a gather is an entry of the operand: positive reals stay positive reals. -/
theorem allPos_hostGather {si : Shape} {w : Nat} (d : GatherDims s si t) {x : FVec Ideal s φ} (idx : IVec si w)
    (hx : AllPos x) : AllPos (φ := φ) (Host.gather d x idx) :=
  fun _ => hx _

end Layout

section Sums

/-- A finite sum of reals, each read as an extended real, is the real sum read as an extended real. -/
theorem coe_finset_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A finite sum of extended reals each of which is a real is a real. -/
theorem exists_real_sum {ι : Type} (S : Finset ι) (g : ι → EReal) (hg : ∀ i, ∃ r : ℝ, g i = (r : EReal)) :
    ∃ r : ℝ, ∑ i ∈ S, g i = (r : EReal) := by
  choose f hf using hg
  exact ⟨∑ i ∈ S, f i, by rw [← coe_finset_sum]; exact Finset.sum_congr rfl fun i _ => hf i⟩

/-- A finite sum of extended reals each of which is a nonnegative real is a nonnegative real. -/
theorem exists_nonneg_sum {ι : Type} (S : Finset ι) (g : ι → EReal)
    (hg : ∀ i, ∃ r : ℝ, 0 ≤ r ∧ g i = (r : EReal)) : ∃ r : ℝ, 0 ≤ r ∧ ∑ i ∈ S, g i = (r : EReal) := by
  choose f hf0 hf using hg
  exact ⟨∑ i ∈ S, f i, Finset.sum_nonneg fun i _ => hf0 i,
    by rw [← coe_finset_sum]; exact Finset.sum_congr rfl fun i _ => hf i⟩

variable {s t u : Shape} {φ : FTy}

/-- The host's sum over some axes: at each kept index, the initial value plus the sum of the operand's
    entries that reduce to it — a finite sum of reals, hence a real. -/
theorem allReal_hostReduceAdd {axes : List (Fin s.rank)} {x : FVec Ideal s φ} {v : FVec Ideal u φ}
    (hred : s.ReducesTo axes t) (hS : 0 < u.numel) (hx : AllReal x) (hv : AllReal v) :
    AllReal (Host.reduceAdd (F := Ideal) x v hred hS) := by
  intro j
  obtain ⟨a, ha⟩ := hv (Shape.Idx.first hS)
  obtain ⟨b, hb⟩ := exists_real_sum (Finset.univ.filter fun i => hred.drop i = j) x hx
  refine ⟨a + b, ?_⟩
  have h : Host.reduceAdd (F := Ideal) x v hred hS j
      = v (Shape.Idx.first hS) + ∑ i ∈ Finset.univ.filter (fun i => hred.drop i = j), x i := rfl
  rw [h, ha, hb, EReal.coe_add]

/-- The host's sum of nonnegative reals from a nonnegative initial value is a nonnegative real. -/
theorem allNonneg_hostReduceAdd {axes : List (Fin s.rank)} {x : FVec Ideal s φ} {v : FVec Ideal u φ}
    (hred : s.ReducesTo axes t) (hS : 0 < u.numel) (hx : AllNonneg x) (hv : AllNonneg v) :
    AllNonneg (Host.reduceAdd (F := Ideal) x v hred hS) := by
  intro j
  obtain ⟨a, ha0, ha⟩ := hv (Shape.Idx.first hS)
  obtain ⟨b, hb0, hb⟩ := exists_nonneg_sum (Finset.univ.filter fun i => hred.drop i = j) x hx
  refine ⟨a + b, add_nonneg ha0 hb0, ?_⟩
  have h : Host.reduceAdd (F := Ideal) x v hred hS j
      = v (Shape.Idx.first hS) + ∑ i ∈ Finset.univ.filter (fun i => hred.drop i = j), x i := rfl
  rw [h, ha, hb, EReal.coe_add]

/-- The host's accumulating scatter: each operand entry plus the sum of the update entries whose index
    lands on it — a finite sum of reals, hence a real, whatever the indices. -/
theorem allReal_hostScatterAdd {si : Shape} {w : Nat} (d : ScatterDims s si u) {x : FVec Ideal s φ}
    (idx : IVec si w) {upd : FVec Ideal u φ} (hx : AllReal x) (hu : AllReal upd) :
    AllReal (Host.scatterAdd (F := Ideal) d x idx upd) := by
  intro i
  obtain ⟨a, ha⟩ := hx i
  obtain ⟨b, hb⟩ := exists_real_sum (Finset.univ.filter fun j => d.resultIdx? j idx = some i) upd hu
  refine ⟨a + b, ?_⟩
  have h : Host.scatterAdd (F := Ideal) d x idx upd i
      = x i + ∑ j ∈ Finset.univ.filter (fun j => d.resultIdx? j idx = some i), upd j := rfl
  rw [h, ha, hb, EReal.coe_add]

/-- The accumulating scatter of nonnegative reals into nonnegative reals gives nonnegative reals. -/
theorem allNonneg_hostScatterAdd {si : Shape} {w : Nat} (d : ScatterDims s si u) {x : FVec Ideal s φ}
    (idx : IVec si w) {upd : FVec Ideal u φ} (hx : AllNonneg x) (hu : AllNonneg upd) :
    AllNonneg (Host.scatterAdd (F := Ideal) d x idx upd) := by
  intro i
  obtain ⟨a, ha0, ha⟩ := hx i
  obtain ⟨b, hb0, hb⟩ := exists_nonneg_sum (Finset.univ.filter fun j => d.resultIdx? j idx = some i) upd hu
  refine ⟨a + b, add_nonneg ha0 hb0, ?_⟩
  have h : Host.scatterAdd (F := Ideal) d x idx upd i
      = x i + ∑ j ∈ Finset.univ.filter (fun j => d.resultIdx? j idx = some i), upd j := rfl
  rw [h, ha, hb, EReal.coe_add]

end Sums

section Contraction
variable {sl sr so : Shape} {φ₁ φ₂ : FTy}

/-- The sum over the contraction index of the products of two arrays of reals is a real. -/
theorem exists_real_contraction (d : DotDims sl sr so) {l : FVec Ideal sl φ₁} {r : FVec Ideal sr φ₂}
    (hl : AllReal l) (hr : AllReal r) (j : so.Idx) :
    ∃ c : ℝ, ∑ k : d.contr.Idx, l (d.lhsIdx j k) * r (d.rhsIdx j k) = (c : EReal) :=
  exists_real_sum Finset.univ (fun k => l (d.lhsIdx j k) * r (d.rhsIdx j k)) fun k => by
    obtain ⟨a, ha⟩ := hl (d.lhsIdx j k)
    obtain ⟨b, hb⟩ := hr (d.rhsIdx j k)
    exact ⟨a * b, by rw [ha, hb, EReal.coe_mul]⟩

/-- The host's matrix product of two arrays of reals: each entry a finite sum of products, a real. -/
theorem allReal_hostDotGeneral (d : DotDims sl sr so) (prec : Option ContractPrecision) {l : FVec Ideal sl φ₁}
    {r : FVec Ideal sr φ₂} (hl : AllReal l) (hr : AllReal r) : AllReal (Host.dotGeneral (F := Ideal) d prec l r) := by
  intro j
  obtain ⟨c, hc⟩ := exists_real_contraction d hl hr j
  exact ⟨c, (Ideal.dotGeneral_apply d prec .single l r j).trans hc⟩

/-- The matrix unit's product added to an accumulator, all three arrays of reals: each entry the
    accumulator's plus a finite sum of products, a real. -/
theorem allReal_matmul (d : DotDims sl sr so) (prec : Option ContractPrecision) {l : FVec Ideal sl φ₁}
    {r : FVec Ideal sr φ₂} {acc : FVec Ideal so .f32} (hl : AllReal l) (hr : AllReal r) (hacc : AllReal acc) :
    AllReal (matmul (F := Ideal) d prec l r acc) := by
  intro j
  obtain ⟨c, hc⟩ := exists_real_contraction d hl hr j
  obtain ⟨a, ha⟩ := hacc j
  refine ⟨a + c, (Ideal.matmul_apply d prec l r acc j).trans ?_⟩
  rw [ha, hc, EReal.coe_add]

end Contraction

section Constants

/-- The single-precision pattern 0x3F800000 (sign 0, exponent 127, fraction 0) denotes the real 1. -/
theorem ofBits_f32_one : Ideal.ofBits .f32 0x3F800000#32 = ((1 : ℝ) : EReal) := by
  simp [Ideal.ofBits, Ideal.ieee, -EReal.coe_mul]; norm_num

/-- The single-precision pattern 0xBF000000 (sign 1, exponent 126, fraction 0) denotes the real -1/2. -/
theorem ofBits_f32_neg_half : Ideal.ofBits .f32 0xBF000000#32 = ((-(1 / 2) : ℝ) : EReal) := by
  simp [Ideal.ofBits, Ideal.ieee, -EReal.coe_mul]; norm_num

/-- The single-precision pattern 0x47435000 (exponent 142, fraction 0x435000) denotes the real 50000. -/
theorem ofBits_f32_50000 : Ideal.ofBits .f32 0x47435000#32 = ((50000 : ℝ) : EReal) := by
  simp [Ideal.ofBits, Ideal.ieee, -EReal.coe_mul]; norm_num

/-- The single-precision pattern 0x3727C5AC (exponent 110, fraction 0x27C5AC) denotes the real
    (2^23 + 2606508) · 2^(110 - 127 - 23) = 10995116 / 2^40, the float nearest 10⁻⁵. -/
theorem ofBits_f32_eps : Ideal.ofBits .f32 0x3727C5AC#32 = ((10995116 / 1099511627776 : ℝ) : EReal) := by
  simp [Ideal.ofBits, Ideal.ieee, -EReal.coe_mul]; norm_num

variable (s : Shape)

/-- The constant array of pattern 0x00000000: every entry the real 0. -/
theorem allNonneg_constant_zero : AllNonneg (constant (F := Ideal) s .f32 0x00000000#32) :=
  fun _ => ⟨0, le_rfl, Ideal.ofBits_zero_f32.trans EReal.coe_zero.symm⟩

/-- The constant array of pattern 0x00000000: every entry the real 0. -/
theorem allReal_constant_zero : AllReal (constant (F := Ideal) s .f32 0x00000000#32) :=
  (allNonneg_constant_zero s).allReal

/-- The constant array of pattern 0x3F800000: every entry the positive real 1. -/
theorem allPos_constant_one : AllPos (constant (F := Ideal) s .f32 0x3F800000#32) :=
  fun _ => ⟨1, one_pos, ofBits_f32_one⟩

/-- The constant array of pattern 0x3F800000: every entry the real 1. -/
theorem allReal_constant_one : AllReal (constant (F := Ideal) s .f32 0x3F800000#32) :=
  (allPos_constant_one s).allReal

/-- The constant array of pattern 0xBF000000: every entry the real -1/2. -/
theorem allReal_constant_neg_half : AllReal (constant (F := Ideal) s .f32 0xBF000000#32) :=
  fun _ => ⟨-(1 / 2), ofBits_f32_neg_half⟩

/-- The constant array of pattern 0x47435000: every entry the positive real 50000. -/
theorem allPos_constant_50000 : AllPos (constant (F := Ideal) s .f32 0x47435000#32) :=
  fun _ => ⟨50000, by norm_num, ofBits_f32_50000⟩

/-- The constant array of pattern 0x47435000: every entry the real 50000. -/
theorem allReal_constant_50000 : AllReal (constant (F := Ideal) s .f32 0x47435000#32) :=
  (allPos_constant_50000 s).allReal

/-- The constant array of pattern 0x3727C5AC: every entry the positive real 10995116 / 2^40. -/
theorem allPos_constant_eps : AllPos (constant (F := Ideal) s .f32 0x3727C5AC#32) :=
  fun _ => ⟨10995116 / 1099511627776, by norm_num, ofBits_f32_eps⟩

/-- The constant array of pattern 0x3727C5AC: every entry a real. -/
theorem allReal_constant_eps : AllReal (constant (F := Ideal) s .f32 0x3727C5AC#32) :=
  (allPos_constant_eps s).allReal

end Constants

end Cert.LibIdealReal
-- ==== Proof.NormLaw.lean ====
/-
  The one law that joins the two sides: on a row of REAL tokens the kernel's norm (deviation times the reciprocal
  square root of variance plus ε) is the reference's (deviation divided by the square root of variance plus ε).

  For a row of reals the mean, the deviations and the variance are reals, the variance is nonnegative and ε is a
  positive real, so v = variance + ε is a positive real; there rsqrt v = (√v)⁻¹ and x / √v = x · (1 / √v) for every
  extended real x. The tokens are reals as soon as the map and the positional table are (neither infinity).
-/
import proofs.«156077_j26328149525078_2_alg».proof.Proof.Spec
import proofs.«156077_j26328149525078_2_alg».proof.Proof.LibIdealReal

noncomputable section

namespace Cert.CrossAttn

open Idealize.ShloMosaic
open scoped BigOperators

/-- The word 0x43800000 (exponent 135, fraction 0) denotes the real 256. -/
theorem c256_eq : c256 = ((256 : ℝ) : EReal) := by
  show Ideal.ofBits .f32 0x43800000#32 = _
  simp [Ideal.ofBits, Ideal.ieee, -EReal.coe_mul]; norm_num

/-- The ε word denotes a positive real. -/
theorem eps_eq : eps = ((10995116 / 1099511627776 : ℝ) : EReal) := Cert.LibIdealReal.ofBits_f32_eps

/-- The mean of a row of reals. -/
theorem mean_coe (g : Fin 256 → ℝ) :
    mean (fun c => ((g c : ℝ) : EReal)) = (((∑ c : Fin 256, g c) * (1 / 256) : ℝ) : EReal) := by
  unfold mean
  rw [c256_eq, Ideal.div_coe (by norm_num : (256 : ℝ) ≠ 0), Cert.LibIdealReal.coe_finset_sum, ← EReal.coe_mul]

/-- The deviation of a row of reals. -/
theorem dev_coe (g : Fin 256 → ℝ) (c : Fin 256) :
    dev (fun c => ((g c : ℝ) : EReal)) c = ((g c - (∑ c : Fin 256, g c) * (1 / 256) : ℝ) : EReal) := by
  unfold dev
  rw [mean_coe, ← EReal.coe_sub]

/-- The variance of a row of reals. -/
theorem var_coe (g : Fin 256 → ℝ) :
    var (fun c => ((g c : ℝ) : EReal))
      = (((∑ c : Fin 256, (g c - (∑ c : Fin 256, g c) * (1 / 256)) * (g c - (∑ c : Fin 256, g c) * (1 / 256)))
            * (1 / 256) : ℝ) : EReal) := by
  unfold var
  simp only [dev_coe, ← EReal.coe_mul]
  exact mean_coe _

/-- Variance plus ε of a row of reals is a positive real. -/
theorem var_add_eps_pos (g : Fin 256 → ℝ) :
    ∃ r : ℝ, 0 < r ∧ var (fun c => ((g c : ℝ) : EReal)) + eps = (r : EReal) := by
  rw [var_coe, eps_eq, ← EReal.coe_add]
  exact ⟨_, add_pos_of_nonneg_of_pos
    (mul_nonneg (Finset.sum_nonneg fun c _ => mul_self_nonneg _) (by norm_num)) (by norm_num), rfl⟩

/-- On a row of reals the two forms of the norm agree, whatever the weights. -/
theorem normK_eq_normR (w b : Fin 256 → EReal) (g : Fin 256 → ℝ) :
    normK w b (fun c => ((g c : ℝ) : EReal)) = normR w b (fun c => ((g c : ℝ) : EReal)) := by
  obtain ⟨r, hr, h⟩ := var_add_eps_pos g
  have h1 : ¬ r < 0 := not_lt.mpr hr.le
  have h2 : ¬ r = 0 := hr.ne'
  funext c
  unfold normK normR
  rw [h, Ideal.rsqrt_coe, Ideal.sqrt_coe]
  simp only [if_neg h1, if_neg h2]
  rw [Ideal.div_coe (Real.sqrt_pos.mpr hr).ne', one_div]

/-- One batch element: when both maps and both positional tables hold reals, the kernel's form is the reference's. -/
theorem outK_eq_outR (xo xd pr : Fin 256 → Fin 64 → EReal) (po pd : Fin 64 → Fin 256 → EReal)
    (wo bo wd bd : Fin 256 → EReal) (Wo Wd : Fin 768 → Fin 256 → EReal) (mw : Fin 3 → EReal)
    (hxo : ∀ c n, ∃ r : ℝ, xo c n = (r : EReal)) (hxd : ∀ c n, ∃ r : ℝ, xd c n = (r : EReal))
    (hpo : ∀ n c, ∃ r : ℝ, po n c = (r : EReal)) (hpd : ∀ n c, ∃ r : ℝ, pd n c = (r : EReal)) :
    outK xo xd pr po pd wo bo wd bd Wo Wd mw = outR xo xd pr po pd wo bo wd bd Wo Wd mw := by
  choose fo hfo using hxo
  choose fd hfd using hxd
  choose go hgo using hpo
  choose gd hgd using hpd
  have ho : ∀ n, tok xo po n = fun c => ((fo c n + go n c : ℝ) : EReal) := fun n => funext fun c => by
    unfold tok; rw [hfo, hgo, EReal.coe_add]
  have hd' : ∀ n, tok xd pd n = fun c => ((fd c n + gd n c : ℝ) : EReal) := fun n => funext fun c => by
    unfold tok; rw [hfd, hgd, EReal.coe_add]
  unfold outK outR
  simp only [ho, hd', normK_eq_normR]

end Cert.CrossAttn

end
-- ==== Proof.Final.lean ====
/-
  The whole result as one function of the twelve argument arrays: entry (B, c, r, s) of the [2048, 256, 8, 8] result is
  the one-batch-element function of batch row B of the three maps — token n being pixel (n / 8, n % 8) — at channel c
  and token 8·r + s. Stated once with the kernel's form of the norm and once with the reference's; the two agree as
  soon as the two maps and the two positional tables the norm reads hold reals.
-/
import proofs.«156077_j26328149525078_2_alg».proof.Proof.Spec
import proofs.«156077_j26328149525078_2_alg».proof.Proof.NormLaw
import Idealize.ShloMosaic.Lib.ValueIdx

noncomputable section

namespace Cert.CrossAttn.Final

open Idealize.ShloMosaic Idealize.ShloMosaic.ValueIdx Cert.CrossAttn

/-- Pixel row of token `n`. -/
def prow (n : Fin 64) : Fin 8 := ⟨n.val / 8, by omega⟩
/-- Pixel column of token `n`. -/
def pcol (n : Fin 64) : Fin 8 := ⟨n.val % 8, by omega⟩
/-- The token of pixel (r, s). -/
def tokOf (r s : Fin 8) : Fin 64 := ⟨r.val * 8 + s.val, by omega⟩

/-- The result array, the norm in the kernel's form. -/
def Gk (x0 x1 x2 : (⟨4, ![2048, 256, 8, 8]⟩ : Shape).Idx → EReal) (x3 x4 : (⟨3, ![1, 64, 256]⟩ : Shape).Idx → EReal) (x5 x6 x7 x8 : (⟨1, ![256]⟩ : Shape).Idx → EReal)
    (x9 x10 : (⟨2, ![768, 256]⟩ : Shape).Idx → EReal) (x11 : (⟨1, ![3]⟩ : Shape).Idx → EReal) : (⟨4, ![2048, 256, 8, 8]⟩ : Shape).Idx → EReal := fun i =>
  outK (fun c n => x0 (ix4 (i 0) c (prow n) (pcol n))) (fun c n => x1 (ix4 (i 0) c (prow n) (pcol n)))
    (fun c n => x2 (ix4 (i 0) c (prow n) (pcol n))) (fun n c => x3 (ix3 0 n c)) (fun n c => x4 (ix3 0 n c))
    (fun c => x5 (ix1 c)) (fun c => x6 (ix1 c)) (fun c => x7 (ix1 c)) (fun c => x8 (ix1 c))
    (fun p c => x9 (ix2 p c)) (fun p c => x10 (ix2 p c)) (fun k => x11 (ix1 k)) (i 1) (tokOf (i 2) (i 3))

/-- The result array, the norm in the reference's form. -/
def Gr (x0 x1 x2 : (⟨4, ![2048, 256, 8, 8]⟩ : Shape).Idx → EReal) (x3 x4 : (⟨3, ![1, 64, 256]⟩ : Shape).Idx → EReal) (x5 x6 x7 x8 : (⟨1, ![256]⟩ : Shape).Idx → EReal)
    (x9 x10 : (⟨2, ![768, 256]⟩ : Shape).Idx → EReal) (x11 : (⟨1, ![3]⟩ : Shape).Idx → EReal) : (⟨4, ![2048, 256, 8, 8]⟩ : Shape).Idx → EReal := fun i =>
  outR (fun c n => x0 (ix4 (i 0) c (prow n) (pcol n))) (fun c n => x1 (ix4 (i 0) c (prow n) (pcol n)))
    (fun c n => x2 (ix4 (i 0) c (prow n) (pcol n))) (fun n c => x3 (ix3 0 n c)) (fun n c => x4 (ix3 0 n c))
    (fun c => x5 (ix1 c)) (fun c => x6 (ix1 c)) (fun c => x7 (ix1 c)) (fun c => x8 (ix1 c))
    (fun p c => x9 (ix2 p c)) (fun p c => x10 (ix2 p c)) (fun k => x11 (ix1 k)) (i 1) (tokOf (i 2) (i 3))

/-- With real maps and real positional tables the two forms are one array. -/
theorem Gk_eq_Gr (x0 x1 x2 : (⟨4, ![2048, 256, 8, 8]⟩ : Shape).Idx → EReal) (x3 x4 : (⟨3, ![1, 64, 256]⟩ : Shape).Idx → EReal) (x5 x6 x7 x8 : (⟨1, ![256]⟩ : Shape).Idx → EReal)
    (x9 x10 : (⟨2, ![768, 256]⟩ : Shape).Idx → EReal) (x11 : (⟨1, ![3]⟩ : Shape).Idx → EReal)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) :
    Gk x0 x1 x2 x3 x4 x5 x6 x7 x8 x9 x10 x11 = Gr x0 x1 x2 x3 x4 x5 x6 x7 x8 x9 x10 x11 :=
  funext fun i => congrFun (congrFun (outK_eq_outR _ _ _ _ _ _ _ _ _ _ _ _
    (fun c n => h0 _) (fun c n => h1 _) (fun n c => h3 _) (fun n c => h4 _)) (i 1)) (tokOf (i 2) (i 3))

end Cert.CrossAttn.Final

end
-- ==== Proof.KernelRun.lean ====
/-
  The kernel program's run, read: every weakly fair execution ends with the result buffer holding, entry by entry, the
  one-batch-element function (the norm in the kernel's form) of the twelve argument arrays, and with the arguments as
  they were. The region's result array is that function over [2048, 256, 64] of the reshaped maps and transposed
  weights; reading the reshapes and transposes at an index turns it into the function of the arguments themselves.
-/
import proofs.«156077_j26328149525078_2_alg».proof.Proof.KernelBlocks
import proofs.«156077_j26328149525078_2_alg».proof.Proof.KernelHost
import proofs.«156077_j26328149525078_2_alg».proof.Proof.Final

set_option maxRecDepth 16384

noncomputable section

namespace Cert.KernelIdeal.Hand

open Cert.KernelIdeal Cert.KernelIdeal.Gen Cert.CrossAttn
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The region's result array reshaped to the 8 × 8 map is the function of the twelve arguments. -/
theorem result_eq (c : Dev nD) :
    shapeCast S2048x256x8x8 (G3 (V m c main_v0) (V m c main_v1) (V m c main_v2) (V m c main_arg3) (V m c main_arg4) (V m c main_arg5) (V m c main_arg6) (V m c main_arg7) (V m c main_arg8) (V m c main_v4) (V m c main_v6) (V m c main_arg11)) shapeCasts_S2048x256x64_S2048x256x8x8
      = Cert.CrossAttn.Final.Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨B, ch, r, s, rfl⟩ : ∃ (B : Fin 2048) (ch : Fin 256) (r s : Fin 8), i = ix4 B ch r s := ⟨i 0, i 1, i 2, i 3, eq_ix4 i⟩
  rw [pixels_apply]
  show outK (fun (c' : Fin 256) (n' : Fin 64) => (V m c main_v0 : FVec Ideal S2048x256x64 .f32) (ix3 B c' n')) (fun (c' : Fin 256) (n' : Fin 64) => (V m c main_v1 : FVec Ideal S2048x256x64 .f32) (ix3 B c' n'))
      (fun (c' : Fin 256) (n' : Fin 64) => (V m c main_v2 : FVec Ideal S2048x256x64 .f32) (ix3 B c' n')) (fun n' c' => (V m c main_arg3 : FVec Ideal S1x64x256 .f32) (ix3 0 n' c'))
      (fun n' c' => (V m c main_arg4 : FVec Ideal S1x64x256 .f32) (ix3 0 n' c')) (fun c' => (V m c main_arg5 : FVec Ideal S256 .f32) (ix1 c'))
      (fun c' => (V m c main_arg6 : FVec Ideal S256 .f32) (ix1 c')) (fun c' => (V m c main_arg7 : FVec Ideal S256 .f32) (ix1 c'))
      (fun c' => (V m c main_arg8 : FVec Ideal S256 .f32) (ix1 c')) (fun (p' : Fin 768) (c' : Fin 256) => (V m c main_v4 : FVec Ideal S256x768 .bf16) (ix2 c' p'))
      (fun (p' : Fin 768) (c' : Fin 256) => (V m c main_v6 : FVec Ideal S256x768 .bf16) (ix2 c' p')) (fun k => (V m c main_arg11 : FVec Ideal S3 .f32) (ix1 k)) ch (tokOf r s)
    = outK (fun c' n' => m ((c.tc : Thread nD τ).loc main_arg0) (ix4 B c' (Cert.CrossAttn.Final.prow n') (Cert.CrossAttn.Final.pcol n')))
      (fun c' n' => m ((c.tc : Thread nD τ).loc main_arg1) (ix4 B c' (Cert.CrossAttn.Final.prow n') (Cert.CrossAttn.Final.pcol n')))
      (fun c' n' => m ((c.tc : Thread nD τ).loc main_arg2) (ix4 B c' (Cert.CrossAttn.Final.prow n') (Cert.CrossAttn.Final.pcol n')))
      (fun n' c' => m ((c.tc : Thread nD τ).loc main_arg3) (ix3 0 n' c')) (fun n' c' => m ((c.tc : Thread nD τ).loc main_arg4) (ix3 0 n' c'))
      (fun c' => m ((c.tc : Thread nD τ).loc main_arg5) (ix1 c')) (fun c' => m ((c.tc : Thread nD τ).loc main_arg6) (ix1 c')) (fun c' => m ((c.tc : Thread nD τ).loc main_arg7) (ix1 c'))
      (fun c' => m ((c.tc : Thread nD τ).loc main_arg8) (ix1 c')) (fun p' c' => m ((c.tc : Thread nD τ).loc main_arg9) (ix2 p' c')) (fun p' c' => m ((c.tc : Thread nD τ).loc main_arg10) (ix2 p' c'))
      (fun k => m ((c.tc : Thread nD τ).loc main_arg11) (ix1 k)) ch (Cert.CrossAttn.Final.tokOf r s)
  have e0 : (fun (c' : Fin 256) (n' : Fin 64) => (V m c main_v0 : FVec Ideal S2048x256x64 .f32) (ix3 B c' n'))
      = fun c' n' => m ((c.tc : Thread nD τ).loc main_arg0) (ix4 B c' (Cert.CrossAttn.Final.prow n') (Cert.CrossAttn.Final.pcol n')) :=
    funext fun c' => funext fun n' => (congrFun (V_v0 m c) (ix3 B c' n')).trans (tokens_apply _ B c' n')
  have e1 : (fun (c' : Fin 256) (n' : Fin 64) => (V m c main_v1 : FVec Ideal S2048x256x64 .f32) (ix3 B c' n'))
      = fun c' n' => m ((c.tc : Thread nD τ).loc main_arg1) (ix4 B c' (Cert.CrossAttn.Final.prow n') (Cert.CrossAttn.Final.pcol n')) :=
    funext fun c' => funext fun n' => (congrFun (V_v1 m c) (ix3 B c' n')).trans (tokens_apply _ B c' n')
  have e2 : (fun (c' : Fin 256) (n' : Fin 64) => (V m c main_v2 : FVec Ideal S2048x256x64 .f32) (ix3 B c' n'))
      = fun c' n' => m ((c.tc : Thread nD τ).loc main_arg2) (ix4 B c' (Cert.CrossAttn.Final.prow n') (Cert.CrossAttn.Final.pcol n')) :=
    funext fun c' => funext fun n' => (congrFun (V_v2 m c) (ix3 B c' n')).trans (tokens_apply _ B c' n')
  have e9 : (fun (p' : Fin 768) (c' : Fin 256) => (V m c main_v4 : FVec Ideal S256x768 .bf16) (ix2 c' p'))
      = fun p' c' => m ((c.tc : Thread nD τ).loc main_arg9) (ix2 p' c') :=
    funext fun p' => funext fun c' => (congrFun (V_v4 m c) (ix2 c' p')).trans (weight_apply _ c' p')
  have e10 : (fun (p' : Fin 768) (c' : Fin 256) => (V m c main_v6 : FVec Ideal S256x768 .bf16) (ix2 c' p'))
      = fun p' c' => m ((c.tc : Thread nD τ).loc main_arg10) (ix2 p' c') :=
    funext fun p' => funext fun c' => (congrFun (V_v6 m c) (ix2 c' p')).trans (weight_apply _ c' p')
  rw [e0, e1, e2, e9, e10, V_main_arg3 m c, V_main_arg4 m c, V_main_arg5 m c, V_main_arg6 m c,
    V_main_arg7 m c, V_main_arg8 m c, V_main_arg11 m c]
  rfl

/-- THE RUN, READ: the result buffer at the function of the arguments, the arguments unchanged. -/
theorem run : θ_run defs (onTc (τ := τ) (main (F := Ideal))) ⟨m, fun _ => 0, ρ⟩ (fun r => ∀ c : Dev nD,
      r.2.mem ((c.tc : Thread nD τ).loc main_v8) = Cert.CrossAttn.Final.Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      ((h c).2 main_v8 (Pipeline.mem_restRefs_of main_v8 (by decide) (by decide))).trans
        ((tail_v8 m c).trans ((congrArg (fun y : FVec Ideal S2048x256x64 .f32 =>
          shapeCast S2048x256x8x8 y shapeCasts_S2048x256x64_S2048x256x8x8) (final12 m c)).trans (result_eq m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).1 3).trans (((dats m 0 c).arrAt_in 3 rfl _).trans ((A_eq m c 3).trans (V_main_arg3 m c)))),
      (((h c).1 4).trans (((dats m 0 c).arrAt_in 4 rfl _).trans ((A_eq m c 4).trans (V_main_arg4 m c)))),
      (((h c).1 5).trans (((dats m 0 c).arrAt_in 5 rfl _).trans ((A_eq m c 5).trans (V_main_arg5 m c)))),
      (((h c).1 6).trans (((dats m 0 c).arrAt_in 6 rfl _).trans ((A_eq m c 6).trans (V_main_arg6 m c)))),
      (((h c).1 7).trans (((dats m 0 c).arrAt_in 7 rfl _).trans ((A_eq m c 7).trans (V_main_arg7 m c)))),
      (((h c).1 8).trans (((dats m 0 c).arrAt_in 8 rfl _).trans ((A_eq m c 8).trans (V_main_arg8 m c)))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).1 11).trans (((dats m 0 c).arrAt_in 11 rfl _).trans ((A_eq m c 11).trans (V_main_arg11 m c))))⟩) (run_main m ρ)

end Cert.KernelIdeal.Hand

end
-- ==== Proof.RefNormProj.lean ====
/-
  The reference's two projections read at an index: for batch row `B`, token `n` and column `p`, the sum over
  channels of the normed token (the reference's form of the norm, deviation divided by the square root) times the
  weight. Token `n` of the 8 × 8 map is the pixel (n / 8, n % 8).

  Each branch is the same text: the channel-major map transposed and flattened to tokens plus the positional table,
  the row sum divided by the word of 256 (the mean), the deviation, the row sum of its square divided by 256 plus the
  ε word (the variance plus ε), the square root, the deviation divided by it, times and plus the weight vectors, and
  the contraction of the channel axis with the 768 × 256 matrix. Every stage is read at explicit coordinates: first
  the index each layout operation reads its operand at is identified with the coordinates (arithmetic on the flat
  index for the flattening), then the stages are chained innermost first.
-/
import proofs.«156077_j26328149525078_2_alg».proof.Proof.Gen.ReferenceIdeal.Read
import proofs.«156077_j26328149525078_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.RefNormProj

open Idealize.ShloMosaic Idealize.ShloMosaic.ValueIdx Cert.ReferenceIdeal Cert.ReferenceIdeal.Read Cert.CrossAttn

/-- Pixel row of token `n`. -/
def prow (n : Fin 64) : Fin 8 := ⟨n.val / 8, by omega⟩
/-- Pixel column of token `n`. -/
def pcol (n : Fin 64) : Fin 8 := ⟨n.val % 8, by omega⟩

/-- Batch row `B` of a channel-major map, as a function of channel and token. -/
def xmap (x : (⟨S2048x256x8x8, .f32⟩ : BufTy).Contents (Elt Ideal)) (B : Fin 2048) : Fin 256 → Fin 64 → EReal :=
  fun c n => x (ix4 B c (prow n) (pcol n))
/-- A positional table, as a function of token and channel. -/
def pmap (x : (⟨S1x64x256, .f32⟩ : BufTy).Contents (Elt Ideal)) : Fin 64 → Fin 256 → EReal :=
  fun n c => x (ix3 0 n c)
/-- A weight vector, as a function of the channel. -/
def wvec (x : (⟨S256, .f32⟩ : BufTy).Contents (Elt Ideal)) : Fin 256 → EReal := fun c => x (ix1 c)
/-- A projection matrix, as a function of column and channel. -/
def wmat (x : (⟨S768x256, .f32⟩ : BufTy).Contents (Elt Ideal)) : Fin 768 → Fin 256 → EReal := fun p c => x (ix2 p c)

/-! ## The origin branch -/

section Brancho

variable (x0 : (⟨S2048x256x8x8, .f32⟩ : BufTy).Contents (Elt Ideal)) (x3 : (⟨S1x64x256, .f32⟩ : BufTy).Contents (Elt Ideal))
  (x5 x6 : (⟨S256, .f32⟩ : BufTy).Contents (Elt Ideal)) (x9 : (⟨S768x256, .f32⟩ : BufTy).Contents (Elt Ideal))

/-- Flattening then transposing: token `n`, channel `c` of batch row `B` is read at pixel (n / 8, n % 8) of channel `c`. -/
theorem idx_tok_o (B : Fin 2048) (n : Fin 64) (c : Fin 256) :
    idx_main_v2 (idx_main_v3 (ix3 B n c)) = ix4 B c (prow n) (pcol n) := by
  have hB := B.isLt; have hn := n.isLt; have hc := c.isLt
  funext a
  match a with
  | ⟨0, _⟩ => exact Fin.ext (by show ((B.val * 64 + n.val) * 256 + c.val) / 16384 = B.val; omega)
  | ⟨1, _⟩ => exact Fin.ext (by show ((B.val * 64 + n.val) * 256 + c.val) % 256 = c.val; omega)
  | ⟨2, _⟩ => exact Fin.ext (by show ((B.val * 64 + n.val) * 256 + c.val) / 2048 % 8 = n.val / 8; omega)
  | ⟨3, _⟩ => exact Fin.ext (by show ((B.val * 64 + n.val) * 256 + c.val) / 256 % 8 = n.val % 8; omega)

/-- The positional table is read at batch row 0. -/
theorem idx_pos_o (B : Fin 2048) (n : Fin 64) (c : Fin 256) : idx_main_v4 (ix3 B n c) = ix3 0 n c := by
  funext a
  match a with
  | ⟨0, _⟩ => rfl
  | ⟨1, _⟩ => rfl
  | ⟨2, _⟩ => rfl

/-- The first row sum runs over the channels of row (B, n). -/
theorem idx_sum1_o (B : Fin 2048) (n : Fin 64) (z : Fin 1) (k : Fin 256) : idx_main_v6 (idx_main_v7 (ix3 B n z)) k = ix3 B n k := by
  funext a
  match a with
  | ⟨0, _⟩ => rfl
  | ⟨1, _⟩ => rfl
  | ⟨2, _⟩ => rfl

/-- The second row sum runs over the channels of row (B, n). -/
theorem idx_sum2_o (B : Fin 2048) (n : Fin 64) (z : Fin 1) (k : Fin 256) : idx_main_v13 (idx_main_v14 (ix3 B n z)) k = ix3 B n k := by
  funext a
  match a with
  | ⟨0, _⟩ => rfl
  | ⟨1, _⟩ => rfl
  | ⟨2, _⟩ => rfl

/-- A row statistic [2048, 64, 1] broadcast along the channels is read at (B, n, 0). -/
theorem idx_b10_o (B : Fin 2048) (n : Fin 64) (c : Fin 256) : idx_main_v10 (ix3 B n c) = ix3 B n 0 := by
  funext a
  match a with
  | ⟨0, _⟩ => rfl
  | ⟨1, _⟩ => rfl
  | ⟨2, _⟩ => rfl
theorem idx_b17_o (B : Fin 2048) (n : Fin 64) (c : Fin 256) : idx_main_v17 (ix3 B n c) = ix3 B n 0 := by
  funext a
  match a with
  | ⟨0, _⟩ => rfl
  | ⟨1, _⟩ => rfl
  | ⟨2, _⟩ => rfl
theorem idx_b22_o (B : Fin 2048) (n : Fin 64) (c : Fin 256) : idx_main_v22 (ix3 B n c) = ix3 B n 0 := by
  funext a
  match a with
  | ⟨0, _⟩ => rfl
  | ⟨1, _⟩ => rfl
  | ⟨2, _⟩ => rfl

/-- A weight vector broadcast in two steps is read at the channel. -/
theorem idx_w25_o (B : Fin 2048) (n : Fin 64) (c : Fin 256) : idx_main_v24 (idx_main_v25 (ix3 B n c)) = ix1 c := by
  funext a
  match a with
  | ⟨0, _⟩ => rfl
theorem idx_w28_o (B : Fin 2048) (n : Fin 64) (c : Fin 256) : idx_main_v27 (idx_main_v28 (ix3 B n c)) = ix1 c := by
  funext a
  match a with
  | ⟨0, _⟩ => rfl

/-- The contraction reads the normed token at (B, n, k) … -/
theorem idx_lhs_o (B : Fin 2048) (n : Fin 64) (p : Fin 768) (k : Fin 256) : lidx_main_v58 (ix3 B n p) k = ix3 B n k := by
  funext a
  match a with
  | ⟨0, _⟩ => rfl
  | ⟨1, _⟩ => rfl
  | ⟨2, _⟩ => rfl
/-- … and the matrix at (p, k). -/
theorem idx_rhs_o (B : Fin 2048) (n : Fin 64) (p : Fin 768) (k : Fin 256) : ridx_main_v58 (ix3 B n p) k = ix2 p k := by
  funext a
  match a with
  | ⟨0, _⟩ => rfl
  | ⟨1, _⟩ => rfl

/-- The tokens: the map transposed and flattened, plus the positional table. -/
theorem tok_ref_o (B : Fin 2048) (n : Fin 64) (c : Fin 256) :
    val_main_v5 (F := Ideal) x0 x3 (ix3 B n c) = tok (xmap x0 B) (pmap x3) n c := by
  rw [val_main_v5_apply, val_main_v3_apply, val_main_v2_apply, val_main_v4_apply, idx_tok_o, idx_pos_o]
  rfl

/-- The row sum divided by the word of 256 is the mean. -/
theorem mean_ref_o (B : Fin 2048) (n : Fin 64) (z : Fin 1) :
    val_main_v9 (F := Ideal) x0 x3 (ix3 B n z) = mean (tok (xmap x0 B) (pmap x3) n) := by
  rw [val_main_v9_apply, val_main_v7_apply, val_main_v8_apply, val_main_cst_0_apply, val_main_v6_apply, val_main_cst_apply]
  have hs : ∑ k : Fin 256, val_main_v5 (F := Ideal) x0 x3 (idx_main_v6 (idx_main_v7 (ix3 B n z)) k)
      = ∑ k : Fin 256, tok (xmap x0 B) (pmap x3) n k :=
    Finset.sum_congr rfl fun k _ => by rw [idx_sum1_o, tok_ref_o]
  rw [hs]
  simp only [Ideal.hostDivf_def, Ideal.ofBits_def, Ideal.ofBits_zero_f32, zero_add]
  rfl

/-- The deviation from the mean (the operand of the square). -/
theorem dev_ref_o (B : Fin 2048) (n : Fin 64) (c : Fin 256) :
    val_main_v11 (F := Ideal) x0 x3 (ix3 B n c) = dev (tok (xmap x0 B) (pmap x3) n) c := by
  rw [val_main_v11_apply, val_main_v10_apply, idx_b10_o, tok_ref_o, mean_ref_o]
  rfl

/-- The deviation from the mean (the operand of the quotient): the same value, computed a second time. -/
theorem dev2_ref_o (B : Fin 2048) (n : Fin 64) (c : Fin 256) :
    val_main_v18 (F := Ideal) x0 x3 (ix3 B n c) = dev (tok (xmap x0 B) (pmap x3) n) c := by
  rw [val_main_v18_apply, val_main_v17_apply, idx_b17_o, tok_ref_o, mean_ref_o]
  rfl

/-- The row sum of the squared deviation divided by the word of 256 is the variance. -/
theorem var_ref_o (B : Fin 2048) (n : Fin 64) (z : Fin 1) :
    val_main_v16 (F := Ideal) x0 x3 (ix3 B n z) = var (tok (xmap x0 B) (pmap x3) n) := by
  rw [val_main_v16_apply, val_main_v14_apply, val_main_v15_apply, val_main_cst_2_apply, val_main_v13_apply, val_main_cst_1_apply]
  have hs : ∑ k : Fin 256, val_main_v12 (F := Ideal) x0 x3 (idx_main_v13 (idx_main_v14 (ix3 B n z)) k)
      = ∑ k : Fin 256, dev (tok (xmap x0 B) (pmap x3) n) k * dev (tok (xmap x0 B) (pmap x3) n) k :=
    Finset.sum_congr rfl fun k _ => by rw [idx_sum2_o, val_main_v12_apply, dev_ref_o]; rfl
  rw [hs]
  simp only [Ideal.hostDivf_def, Ideal.ofBits_def, Ideal.ofBits_zero_f32, zero_add]
  rfl

/-- The square root of the variance plus the ε word. -/
theorem root_ref_o (B : Fin 2048) (n : Fin 64) (z : Fin 1) :
    val_main_v21 (F := Ideal) x0 x3 (ix3 B n z) = Ideal.sqrt (var (tok (xmap x0 B) (pmap x3) n) + eps) := by
  rw [val_main_v21_apply, val_main_v20_apply, val_main_v19_apply, val_main_cst_3_apply, var_ref_o]
  rfl

/-- The deviation divided by the square root. -/
theorem quot_ref_o (B : Fin 2048) (n : Fin 64) (c : Fin 256) :
    val_main_v23 (F := Ideal) x0 x3 (ix3 B n c)
      = Ideal.div (dev (tok (xmap x0 B) (pmap x3) n) c) (Ideal.sqrt (var (tok (xmap x0 B) (pmap x3) n) + eps)) := by
  rw [val_main_v23_apply, val_main_v22_apply, idx_b22_o, dev2_ref_o, root_ref_o]
  rfl

/-- The scale vector, broadcast in two steps. -/
theorem w_ref_o (B : Fin 2048) (n : Fin 64) (c : Fin 256) : val_main_v25 (F := Ideal) x5 (ix3 B n c) = wvec x5 c := by
  rw [val_main_v25_apply, val_main_v24_apply, idx_w25_o]
  rfl
/-- The shift vector, broadcast in two steps. -/
theorem b_ref_o (B : Fin 2048) (n : Fin 64) (c : Fin 256) : val_main_v28 (F := Ideal) x6 (ix3 B n c) = wvec x6 c := by
  rw [val_main_v28_apply, val_main_v27_apply, idx_w28_o]
  rfl

/-- The normed token, in the reference's form. -/
theorem norm_ref_o (B : Fin 2048) (n : Fin 64) (c : Fin 256) :
    val_main_v29 (F := Ideal) x0 x3 x5 x6 (ix3 B n c) = normR (wvec x5) (wvec x6) (tok (xmap x0 B) (pmap x3) n) c := by
  rw [val_main_v29_apply, val_main_v26_apply, w_ref_o, b_ref_o, quot_ref_o]
  rfl

/-- The projection: the channel axis of the normed token contracted with the matrix. -/
theorem proj_ref_o (B : Fin 2048) (n : Fin 64) (p : Fin 768) :
    val_main_v58 (F := Ideal) x0 x3 x5 x6 x9 (ix3 B n p)
      = proj (wmat x9) (fun n => normR (wvec x5) (wvec x6) (tok (xmap x0 B) (pmap x3) n)) n p := by
  rw [val_main_v58_apply]
  unfold proj
  refine Finset.sum_congr rfl fun k _ => ?_
  rw [idx_lhs_o, idx_rhs_o, norm_ref_o]
  rfl

end Brancho

/-! ## The second branch -/

section Branchd

variable (x1 : (⟨S2048x256x8x8, .f32⟩ : BufTy).Contents (Elt Ideal)) (x4 : (⟨S1x64x256, .f32⟩ : BufTy).Contents (Elt Ideal))
  (x7 x8 : (⟨S256, .f32⟩ : BufTy).Contents (Elt Ideal)) (x10 : (⟨S768x256, .f32⟩ : BufTy).Contents (Elt Ideal))

/-- Flattening then transposing: token `n`, channel `c` of batch row `B` is read at pixel (n / 8, n % 8) of channel `c`. -/
theorem idx_tok_d (B : Fin 2048) (n : Fin 64) (c : Fin 256) :
    idx_main_v30 (idx_main_v31 (ix3 B n c)) = ix4 B c (prow n) (pcol n) := by
  have hB := B.isLt; have hn := n.isLt; have hc := c.isLt
  funext a
  match a with
  | ⟨0, _⟩ => exact Fin.ext (by show ((B.val * 64 + n.val) * 256 + c.val) / 16384 = B.val; omega)
  | ⟨1, _⟩ => exact Fin.ext (by show ((B.val * 64 + n.val) * 256 + c.val) % 256 = c.val; omega)
  | ⟨2, _⟩ => exact Fin.ext (by show ((B.val * 64 + n.val) * 256 + c.val) / 2048 % 8 = n.val / 8; omega)
  | ⟨3, _⟩ => exact Fin.ext (by show ((B.val * 64 + n.val) * 256 + c.val) / 256 % 8 = n.val % 8; omega)

/-- The positional table is read at batch row 0. -/
theorem idx_pos_d (B : Fin 2048) (n : Fin 64) (c : Fin 256) : idx_main_v32 (ix3 B n c) = ix3 0 n c := by
  funext a
  match a with
  | ⟨0, _⟩ => rfl
  | ⟨1, _⟩ => rfl
  | ⟨2, _⟩ => rfl

/-- The first row sum runs over the channels of row (B, n). -/
theorem idx_sum1_d (B : Fin 2048) (n : Fin 64) (z : Fin 1) (k : Fin 256) : idx_main_v34 (idx_main_v35 (ix3 B n z)) k = ix3 B n k := by
  funext a
  match a with
  | ⟨0, _⟩ => rfl
  | ⟨1, _⟩ => rfl
  | ⟨2, _⟩ => rfl

/-- The second row sum runs over the channels of row (B, n). -/
theorem idx_sum2_d (B : Fin 2048) (n : Fin 64) (z : Fin 1) (k : Fin 256) : idx_main_v41 (idx_main_v42 (ix3 B n z)) k = ix3 B n k := by
  funext a
  match a with
  | ⟨0, _⟩ => rfl
  | ⟨1, _⟩ => rfl
  | ⟨2, _⟩ => rfl

/-- A row statistic [2048, 64, 1] broadcast along the channels is read at (B, n, 0). -/
theorem idx_b10_d (B : Fin 2048) (n : Fin 64) (c : Fin 256) : idx_main_v38 (ix3 B n c) = ix3 B n 0 := by
  funext a
  match a with
  | ⟨0, _⟩ => rfl
  | ⟨1, _⟩ => rfl
  | ⟨2, _⟩ => rfl
theorem idx_b17_d (B : Fin 2048) (n : Fin 64) (c : Fin 256) : idx_main_v45 (ix3 B n c) = ix3 B n 0 := by
  funext a
  match a with
  | ⟨0, _⟩ => rfl
  | ⟨1, _⟩ => rfl
  | ⟨2, _⟩ => rfl
theorem idx_b22_d (B : Fin 2048) (n : Fin 64) (c : Fin 256) : idx_main_v50 (ix3 B n c) = ix3 B n 0 := by
  funext a
  match a with
  | ⟨0, _⟩ => rfl
  | ⟨1, _⟩ => rfl
  | ⟨2, _⟩ => rfl

/-- A weight vector broadcast in two steps is read at the channel. -/
theorem idx_w25_d (B : Fin 2048) (n : Fin 64) (c : Fin 256) : idx_main_v52 (idx_main_v53 (ix3 B n c)) = ix1 c := by
  funext a
  match a with
  | ⟨0, _⟩ => rfl
theorem idx_w28_d (B : Fin 2048) (n : Fin 64) (c : Fin 256) : idx_main_v55 (idx_main_v56 (ix3 B n c)) = ix1 c := by
  funext a
  match a with
  | ⟨0, _⟩ => rfl

/-- The contraction reads the normed token at (B, n, k) … -/
theorem idx_lhs_d (B : Fin 2048) (n : Fin 64) (p : Fin 768) (k : Fin 256) : lidx_main_v67 (ix3 B n p) k = ix3 B n k := by
  funext a
  match a with
  | ⟨0, _⟩ => rfl
  | ⟨1, _⟩ => rfl
  | ⟨2, _⟩ => rfl
/-- … and the matrix at (p, k). -/
theorem idx_rhs_d (B : Fin 2048) (n : Fin 64) (p : Fin 768) (k : Fin 256) : ridx_main_v67 (ix3 B n p) k = ix2 p k := by
  funext a
  match a with
  | ⟨0, _⟩ => rfl
  | ⟨1, _⟩ => rfl

/-- The tokens: the map transposed and flattened, plus the positional table. -/
theorem tok_ref_d (B : Fin 2048) (n : Fin 64) (c : Fin 256) :
    val_main_v33 (F := Ideal) x1 x4 (ix3 B n c) = tok (xmap x1 B) (pmap x4) n c := by
  rw [val_main_v33_apply, val_main_v31_apply, val_main_v30_apply, val_main_v32_apply, idx_tok_d, idx_pos_d]
  rfl

/-- The row sum divided by the word of 256 is the mean. -/
theorem mean_ref_d (B : Fin 2048) (n : Fin 64) (z : Fin 1) :
    val_main_v37 (F := Ideal) x1 x4 (ix3 B n z) = mean (tok (xmap x1 B) (pmap x4) n) := by
  rw [val_main_v37_apply, val_main_v35_apply, val_main_v36_apply, val_main_cst_5_apply, val_main_v34_apply, val_main_cst_4_apply]
  have hs : ∑ k : Fin 256, val_main_v33 (F := Ideal) x1 x4 (idx_main_v34 (idx_main_v35 (ix3 B n z)) k)
      = ∑ k : Fin 256, tok (xmap x1 B) (pmap x4) n k :=
    Finset.sum_congr rfl fun k _ => by rw [idx_sum1_d, tok_ref_d]
  rw [hs]
  simp only [Ideal.hostDivf_def, Ideal.ofBits_def, Ideal.ofBits_zero_f32, zero_add]
  rfl

/-- The deviation from the mean (the operand of the square). -/
theorem dev_ref_d (B : Fin 2048) (n : Fin 64) (c : Fin 256) :
    val_main_v39 (F := Ideal) x1 x4 (ix3 B n c) = dev (tok (xmap x1 B) (pmap x4) n) c := by
  rw [val_main_v39_apply, val_main_v38_apply, idx_b10_d, tok_ref_d, mean_ref_d]
  rfl

/-- The deviation from the mean (the operand of the quotient): the same value, computed a second time. -/
theorem dev2_ref_d (B : Fin 2048) (n : Fin 64) (c : Fin 256) :
    val_main_v46 (F := Ideal) x1 x4 (ix3 B n c) = dev (tok (xmap x1 B) (pmap x4) n) c := by
  rw [val_main_v46_apply, val_main_v45_apply, idx_b17_d, tok_ref_d, mean_ref_d]
  rfl

/-- The row sum of the squared deviation divided by the word of 256 is the variance. -/
theorem var_ref_d (B : Fin 2048) (n : Fin 64) (z : Fin 1) :
    val_main_v44 (F := Ideal) x1 x4 (ix3 B n z) = var (tok (xmap x1 B) (pmap x4) n) := by
  rw [val_main_v44_apply, val_main_v42_apply, val_main_v43_apply, val_main_cst_7_apply, val_main_v41_apply, val_main_cst_6_apply]
  have hs : ∑ k : Fin 256, val_main_v40 (F := Ideal) x1 x4 (idx_main_v41 (idx_main_v42 (ix3 B n z)) k)
      = ∑ k : Fin 256, dev (tok (xmap x1 B) (pmap x4) n) k * dev (tok (xmap x1 B) (pmap x4) n) k :=
    Finset.sum_congr rfl fun k _ => by rw [idx_sum2_d, val_main_v40_apply, dev_ref_d]; rfl
  rw [hs]
  simp only [Ideal.hostDivf_def, Ideal.ofBits_def, Ideal.ofBits_zero_f32, zero_add]
  rfl

/-- The square root of the variance plus the ε word. -/
theorem root_ref_d (B : Fin 2048) (n : Fin 64) (z : Fin 1) :
    val_main_v49 (F := Ideal) x1 x4 (ix3 B n z) = Ideal.sqrt (var (tok (xmap x1 B) (pmap x4) n) + eps) := by
  rw [val_main_v49_apply, val_main_v48_apply, val_main_v47_apply, val_main_cst_8_apply, var_ref_d]
  rfl

/-- The deviation divided by the square root. -/
theorem quot_ref_d (B : Fin 2048) (n : Fin 64) (c : Fin 256) :
    val_main_v51 (F := Ideal) x1 x4 (ix3 B n c)
      = Ideal.div (dev (tok (xmap x1 B) (pmap x4) n) c) (Ideal.sqrt (var (tok (xmap x1 B) (pmap x4) n) + eps)) := by
  rw [val_main_v51_apply, val_main_v50_apply, idx_b22_d, dev2_ref_d, root_ref_d]
  rfl

/-- The scale vector, broadcast in two steps. -/
theorem w_ref_d (B : Fin 2048) (n : Fin 64) (c : Fin 256) : val_main_v53 (F := Ideal) x7 (ix3 B n c) = wvec x7 c := by
  rw [val_main_v53_apply, val_main_v52_apply, idx_w25_d]
  rfl
/-- The shift vector, broadcast in two steps. -/
theorem b_ref_d (B : Fin 2048) (n : Fin 64) (c : Fin 256) : val_main_v56 (F := Ideal) x8 (ix3 B n c) = wvec x8 c := by
  rw [val_main_v56_apply, val_main_v55_apply, idx_w28_d]
  rfl

/-- The normed token, in the reference's form. -/
theorem norm_ref_d (B : Fin 2048) (n : Fin 64) (c : Fin 256) :
    val_main_v57 (F := Ideal) x1 x4 x7 x8 (ix3 B n c) = normR (wvec x7) (wvec x8) (tok (xmap x1 B) (pmap x4) n) c := by
  rw [val_main_v57_apply, val_main_v54_apply, w_ref_d, b_ref_d, quot_ref_d]
  rfl

/-- The projection: the channel axis of the normed token contracted with the matrix. -/
theorem proj_ref_d (B : Fin 2048) (n : Fin 64) (p : Fin 768) :
    val_main_v67 (F := Ideal) x1 x4 x7 x8 x10 (ix3 B n p)
      = proj (wmat x10) (fun n => normR (wvec x7) (wvec x8) (tok (xmap x1 B) (pmap x4) n)) n p := by
  rw [val_main_v67_apply]
  unfold proj
  refine Finset.sum_congr rfl fun k _ => ?_
  rw [idx_lhs_d, idx_rhs_d, norm_ref_d]
  rfl

end Branchd

/-! ## The two projections, as stated over the arrays -/

/-- The origin branch's projection at (B, n, p). -/
theorem yo_ref (x0 : (⟨S2048x256x8x8, .f32⟩ : BufTy).Contents (Elt Ideal)) (x3 : (⟨S1x64x256, .f32⟩ : BufTy).Contents (Elt Ideal)) (x5 x6 : (⟨S256, .f32⟩ : BufTy).Contents (Elt Ideal)) (x9 : (⟨S768x256, .f32⟩ : BufTy).Contents (Elt Ideal))
    (B : Fin 2048) (n : Fin 64) (p : Fin 768) :
    val_main_v58 (F := Ideal) x0 x3 x5 x6 x9 (ix3 B n p)
      = proj (fun p c => x9 (ix2 p c))
          (fun n => normR (fun c => x5 (ix1 c)) (fun c => x6 (ix1 c))
            (tok (fun c n => x0 (ix4 B c (prow n) (pcol n))) (fun n c => x3 (ix3 0 n c)) n)) n p :=
  proj_ref_o x0 x3 x5 x6 x9 B n p

/-- The second branch's projection at (B, n, p). -/
theorem yd_ref (x1 : (⟨S2048x256x8x8, .f32⟩ : BufTy).Contents (Elt Ideal)) (x4 : (⟨S1x64x256, .f32⟩ : BufTy).Contents (Elt Ideal)) (x7 x8 : (⟨S256, .f32⟩ : BufTy).Contents (Elt Ideal)) (x10 : (⟨S768x256, .f32⟩ : BufTy).Contents (Elt Ideal))
    (B : Fin 2048) (n : Fin 64) (p : Fin 768) :
    val_main_v67 (F := Ideal) x1 x4 x7 x8 x10 (ix3 B n p)
      = proj (fun p c => x10 (ix2 p c))
          (fun n => normR (fun c => x7 (ix1 c)) (fun c => x8 (ix1 c))
            (tok (fun c n => x1 (ix4 B c (prow n) (pcol n))) (fun n c => x4 (ix3 0 n c)) n)) n p :=
  proj_ref_d x1 x4 x7 x8 x10 B n p

end Cert.CrossAttn.RefNormProj

end
-- ==== Proof.LibIdxExt.lean ====
/-
  General lemmas about array indices, none about a particular program: an index of rank one, two or three is
  determined by the natural numbers its coordinates denote.  A composite of re-indexing maps (slices, reshapes,
  broadcasts) is thereby identified with the index built from explicit coordinates by checking one equation of
  naturals per axis.
-/
import Idealize.ShloMosaic.Lib.ValueIdx

namespace Cert.Lib

open Idealize.ShloMosaic Idealize.ShloMosaic.ValueIdx

/-- A rank-one index whose coordinate denotes the number `a` denotes is the index built from `a`. -/
theorem idx1_ext {n : ℕ} (i : (⟨1, ![n]⟩ : Shape).Idx) (a : Fin n) (h0 : (i 0).val = a.val) : i = ix1 a :=
  funext fun d => Fin.ext (by match d with | ⟨0, _⟩ => exact h0)

/-- A rank-two index whose coordinates denote the numbers `a` and `b` denote is the index built from them. -/
theorem idx2_ext {n0 n1 : ℕ} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-three index whose coordinates denote the numbers `a`, `b`, `c` denote is the index built from them. -/
theorem idx3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

end Cert.Lib
-- ==== Proof.RefCore.lean ====
/-
  The reference's attention core and mix read at an index, in terms of its two projections: the projection is
  reshaped to (token, {q,k,v}, head, lane) and transposed to (head, token, lane) per batch row; scores, softmax and
  context are taken per head; the heads are laid side by side along the channel axis; the three terms are mixed and
  the result is transposed to channel-major and its 64 tokens split into the 8 × 8 map.

  The proof goes inward-out.  Each reshape is read through the row-major position, so a composite of reshapes,
  transposes and slices is identified with explicit coordinates by one equation of naturals per axis (`qidx`, `kidx`,
  `vidx`, `cidx`, `pidx`, `oidx`).  Queries, keys and values of both branches are then entries of the projections at
  columns `qi`, `ki`, `vi`.  A score is the sum over the 32 lanes times the scale word; the row maximum is the fold
  of `max` from the word of -∞ over the 64 keys, and taking `max` with that word once more changes nothing
  (`max a (fold max a f) = fold max a f` for every `a`; the word is never evaluated); the softmax and the context
  follow.  The two branches are the same chain over the operations 76–89, 104–106 and 90–103, 107–109.
-/
import proofs.«156077_j26328149525078_2_alg».proof.Proof.Gen.ReferenceIdeal.Read
import proofs.«156077_j26328149525078_2_alg».proof.Proof.Spec
import proofs.«156077_j26328149525078_2_alg».proof.Proof.LibIdxExt
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.RefCore

open Idealize.ShloMosaic Idealize.ShloMosaic.ValueIdx Cert.ReferenceIdeal Cert.ReferenceIdeal.Read Cert.CrossAttn
open Cert.ReferenceIdeal.Gen

/-! ### Indices -/

/-- Pixel row of token `n`. -/
def prow (n : Fin 64) : Fin 8 := ⟨n.val / 8, by omega⟩
/-- Pixel column of token `n`. -/
def pcol (n : Fin 64) : Fin 8 := ⟨n.val % 8, by omega⟩
/-- The token of pixel (r, s). -/
def tokOf (r s : Fin 8) : Fin 64 := ⟨r.val * 8 + s.val, by omega⟩

/-- A rank-four index whose coordinates denote the numbers `a`, `b`, `c`, `d` denote is the index built from them. -/
theorem idx4_ext {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun e => Fin.ext (by match e with | ⟨0, _⟩ => exact h0 | ⟨1, _⟩ => exact h1 | ⟨2, _⟩ => exact h2 | ⟨3, _⟩ => exact h3)

/-- The maximum of a value with a fold of maxima started from that value is the fold. -/
theorem max_fold_max_self {ι : Type} (s : Finset ι) (a : EReal) (f : ι → EReal) : max a (s.fold max a f) = s.fold max a f :=
  max_eq_right ((Finset.le_fold_max a).mpr (Or.inl le_rfl))

/-- The reference's maximum of a [2048, 8, 64, 64] array along its last axis, read at (B, h, n): the fold of `max` from the
    initial value over the row. -/
theorem hostMax_row (s : (⟨S2048x8x64x64, .f32⟩ : BufTy).Contents (Elt Ideal)) (init : (⟨S_, .f32⟩ : BufTy).Contents (Elt Ideal))
    (B : Fin 2048) (h : Fin 8) (n : Fin 64) :
    Host.reduce (FloatOps.maximumf (F := Ideal) (φ := .f32)) s init reducesTo_S2048x8x64x64_S2048x8x64_d3 h_S_ (ix3 B h n)
      = (Finset.univ : Finset (Fin 64)).fold max (init (Shape.Idx.first h_S_)) (fun m => s (ix4 B h n m)) := by
  rw [Host.reduce_eq_fold_single _ _ _ _ (by decide : S2048x8x64x64.Reduces [3] S2048x8x64)]
  exact Finset.fold_congr (fun k _ => congrArg s (funext fun a => Fin.ext (by
    match a with | ⟨0, _⟩ => rfl | ⟨1, _⟩ => rfl | ⟨2, _⟩ => rfl | ⟨3, _⟩ => rfl)))

/-- A one-element vector reshaped to a scalar reads its one element. -/
theorem scalar_of_one (v : (⟨S1, .f32⟩ : BufTy).Contents (Elt Ideal)) (j : S_.Idx) :
    shapeCast S_ v shapeCasts_S1_S_ j = v (ix1 (0 : Fin 1)) := by
  refine shapeCast_apply v shapeCasts_S1_S_ j (ix1 (0 : Fin 1)) ?_
  rw [Shape.rowMajor_val_one]
  exact (Shape.rowMajorPi_zero _ _).symm

/-- The row-major position of (B, h, n, d) in [2048, 8, 64, 32], divided back into its coordinates. -/
theorem flat4 (B h n d : ℕ) (hh : h < 8) (hn : n < 64) (hd : d < 32) :
    (((B * 8 + h) * 64 + n) * 32 + d) / 16384 = B ∧ (((B * 8 + h) * 64 + n) * 32 + d) / 2048 % 8 = h
      ∧ (((B * 8 + h) * 64 + n) * 32 + d) / 32 % 64 = n ∧ (((B * 8 + h) * 64 + n) * 32 + d) % 32 = d := by
  refine ⟨by omega, by omega, by omega, by omega⟩

/-- Entry (B, h, n, d) of the queries is entry (B, n, h·32 + d) of the projection: the [2048, 8, 64, 32] position goes
    back through the unit leading axis, the slice at 0 of the {q,k,v} axis, the transpose and the split of the 768 columns. -/
theorem qidx (B : Fin 2048) (h : Fin 8) (n : Fin 64) (d : Fin 32) :
    idx_main_v59 (idx_main_v60 (idx_main_v61 (idx_main_v62 (ix4 B h n d)))) = ix3 B n (qi h d) := by
  have hB := B.isLt; have hh := h.isLt; have hn := n.isLt; have hd := d.isLt
  obtain ⟨e1, e2, e3, e4⟩ := flat4 B.val h.val n.val d.val hh hn hd
  refine Cert.Lib.idx3_ext _ _ _ _ ?_ ?_ ?_ <;>
    dsimp only [idx_main_v59, idx_main_v60, idx_main_v61, idx_main_v62, ix4, ix3, qi] <;> rw [e1, e2, e3, e4] <;> clear e1 e2 e3 e4 <;> omega

/-- Likewise the keys, through the slice at 1: column 256 + h·32 + d. -/
theorem kidx (B : Fin 2048) (h : Fin 8) (n : Fin 64) (d : Fin 32) :
    idx_main_v59 (idx_main_v60 (idx_main_v63 (idx_main_v64 (ix4 B h n d)))) = ix3 B n (ki h d) := by
  have hB := B.isLt; have hh := h.isLt; have hn := n.isLt; have hd := d.isLt
  obtain ⟨e1, e2, e3, e4⟩ := flat4 B.val h.val n.val d.val hh hn hd
  refine Cert.Lib.idx3_ext _ _ _ _ ?_ ?_ ?_ <;>
    dsimp only [idx_main_v59, idx_main_v60, idx_main_v63, idx_main_v64, ix4, ix3, ki] <;> rw [e1, e2, e3, e4] <;> clear e1 e2 e3 e4 <;> omega

/-- Likewise the values, through the slice at 2: column 512 + h·32 + d. -/
theorem vidx (B : Fin 2048) (h : Fin 8) (n : Fin 64) (d : Fin 32) :
    idx_main_v59 (idx_main_v60 (idx_main_v65 (idx_main_v66 (ix4 B h n d)))) = ix3 B n (vi h d) := by
  have hB := B.isLt; have hh := h.isLt; have hn := n.isLt; have hd := d.isLt
  obtain ⟨e1, e2, e3, e4⟩ := flat4 B.val h.val n.val d.val hh hn hd
  refine Cert.Lib.idx3_ext _ _ _ _ ?_ ?_ ?_ <;>
    dsimp only [idx_main_v59, idx_main_v60, idx_main_v65, idx_main_v66, ix4, ix3, vi] <;> rw [e1, e2, e3, e4] <;> clear e1 e2 e3 e4 <;> omega

/-- The row-major position of (B, n, c) in [2048, 64, 256], split as (B, n, head, lane). -/
theorem cidx (B : Fin 2048) (n : Fin 64) (c : Fin 256) :
    idx_main_v105 (idx_main_v106 (ix3 B n c)) = ix4 B (hd c) n (ln c) := by
  have hB := B.isLt; have hn := n.isLt; have hc := c.isLt
  refine idx4_ext _ _ _ _ _ ?_ ?_ ?_ ?_ <;>
    dsimp only [idx_main_v105, idx_main_v106, ix4, ix3, hd, ln] <;> omega

/-- The row-major position of (B, n, c) in [2048, 64, 256], split as (B, pixel row, pixel column, c) and transposed to
    channel-major. -/
theorem pidx (B : Fin 2048) (n : Fin 64) (c : Fin 256) :
    idx_main_v0 (idx_main_v1 (ix3 B n c)) = ix4 B c (prow n) (pcol n) := by
  have hB := B.isLt; have hn := n.isLt; have hc := c.isLt
  refine idx4_ext _ _ _ _ _ ?_ ?_ ?_ ?_ <;>
    dsimp only [idx_main_v0, idx_main_v1, ix4, ix3, prow, pcol] <;> omega

/-- The row-major position of (B, c, r, s) in [2048, 256, 8, 8], read as (B, c, token) and transposed to token-major. -/
theorem oidx (B : Fin 2048) (c : Fin 256) (r s : Fin 8) :
    idx_main_v124 (idx_main_v125 (ix4 B c r s)) = ix3 B (tokOf r s) c := by
  have hB := B.isLt; have hc := c.isLt; have hr := r.isLt; have hs := s.isLt
  refine Cert.Lib.idx3_ext _ _ _ _ ?_ ?_ ?_ <;>
    dsimp only [idx_main_v124, idx_main_v125, ix4, ix3, tokOf] <;> omega

section

variable (x0 x1 x2 : (⟨S2048x256x8x8, .f32⟩ : BufTy).Contents (Elt Ideal)) (x3 x4 : (⟨S1x64x256, .f32⟩ : BufTy).Contents (Elt Ideal)) (x5 x6 x7 x8 : (⟨S256, .f32⟩ : BufTy).Contents (Elt Ideal))
    (x9 x10 : (⟨S768x256, .f32⟩ : BufTy).Contents (Elt Ideal)) (x11 : (⟨S3, .f32⟩ : BufTy).Contents (Elt Ideal))

/-- The origin branch's projection of batch row `B`, by token and column. -/
abbrev yo (B : Fin 2048) : Fin 64 → Fin 768 → EReal := fun n p => val_main_v58 (F := Ideal) x0 x3 x5 x6 x9 (ix3 B n p)
/-- The second branch's projection of batch row `B`, by token and column. -/
abbrev yd (B : Fin 2048) : Fin 64 → Fin 768 → EReal := fun n p => val_main_v67 (F := Ideal) x1 x4 x7 x8 x10 (ix3 B n p)

/-! ### Queries, keys and values of the two branches, read at (B, head, token, lane) -/

/-- Origin branch: queries, keys, values are columns `qi`, `ki`, `vi` of its projection. -/
theorem q1_ref (B : Fin 2048) (h : Fin 8) (n : Fin 64) (d : Fin 32) :
    val_main_v62 (F := Ideal) x0 x3 x5 x6 x9 (ix4 B h n d) = val_main_v58 (F := Ideal) x0 x3 x5 x6 x9 (ix3 B n (qi h d)) := by
  rw [val_main_v62_apply, val_main_v61_apply, val_main_v60_apply, val_main_v59_apply, qidx]

theorem k2_ref (B : Fin 2048) (h : Fin 8) (n : Fin 64) (d : Fin 32) :
    val_main_v64 (F := Ideal) x0 x3 x5 x6 x9 (ix4 B h n d) = val_main_v58 (F := Ideal) x0 x3 x5 x6 x9 (ix3 B n (ki h d)) := by
  rw [val_main_v64_apply, val_main_v63_apply, val_main_v60_apply, val_main_v59_apply, kidx]

theorem v2_ref (B : Fin 2048) (h : Fin 8) (n : Fin 64) (d : Fin 32) :
    val_main_v66 (F := Ideal) x0 x3 x5 x6 x9 (ix4 B h n d) = val_main_v58 (F := Ideal) x0 x3 x5 x6 x9 (ix3 B n (vi h d)) := by
  rw [val_main_v66_apply, val_main_v65_apply, val_main_v60_apply, val_main_v59_apply, vidx]

/-- Second branch: the same three readings of its projection. -/
theorem q2_ref (B : Fin 2048) (h : Fin 8) (n : Fin 64) (d : Fin 32) :
    val_main_v71 (F := Ideal) x1 x4 x7 x8 x10 (ix4 B h n d) = val_main_v67 (F := Ideal) x1 x4 x7 x8 x10 (ix3 B n (qi h d)) := by
  rw [val_main_v71_apply, val_main_v70_apply, val_main_v69_apply, val_main_v68_apply]
  exact congrArg _ (qidx B h n d)

theorem k1_ref (B : Fin 2048) (h : Fin 8) (n : Fin 64) (d : Fin 32) :
    val_main_v73 (F := Ideal) x1 x4 x7 x8 x10 (ix4 B h n d) = val_main_v67 (F := Ideal) x1 x4 x7 x8 x10 (ix3 B n (ki h d)) := by
  rw [val_main_v73_apply, val_main_v72_apply, val_main_v69_apply, val_main_v68_apply]
  exact congrArg _ (kidx B h n d)

theorem v1_ref (B : Fin 2048) (h : Fin 8) (n : Fin 64) (d : Fin 32) :
    val_main_v75 (F := Ideal) x1 x4 x7 x8 x10 (ix4 B h n d) = val_main_v67 (F := Ideal) x1 x4 x7 x8 x10 (ix3 B n (vi h d)) := by
  rw [val_main_v75_apply, val_main_v74_apply, val_main_v69_apply, val_main_v68_apply]
  exact congrArg _ (vidx B h n d)

/-! ### The attention of queries from `yo` against keys and values from `yd` -/

/-- The score at (B, h, n, m): the sum over the 32 lanes of query times key, times the scale word. -/
theorem score1_ref (B : Fin 2048) (h : Fin 8) (n m : Fin 64) :
    val_main_v78 (F := Ideal) x0 x1 x3 x4 x5 x6 x7 x8 x9 x10 (ix4 B h n m) = score (yo x0 x3 x5 x6 x9 B) (yd x1 x4 x7 x8 x10 B) h n m := by
  rw [val_main_v78_apply, val_main_v77_apply, val_main_cst_9_apply, val_main_v76_apply]
  have el : ∀ k : Fin 32, lidx_main_v76 (ix4 B h n m) k = ix4 B h n k := fun k => idx4_ext _ _ _ _ _ rfl rfl rfl rfl
  have er : ∀ k : Fin 32, ridx_main_v76 (ix4 B h n m) k = ix4 B h m k := fun k => idx4_ext _ _ _ _ _ rfl rfl rfl rfl
  simp only [el, er, q1_ref, k1_ref]
  rfl

/-- The row maximum at (B, h, n): the fold of `max` from the word of -∞ over the 64 scores of the row; the further `max`
    with that word is absorbed. -/
theorem rowmax1_ref (B : Fin 2048) (h : Fin 8) (n : Fin 64) :
    val_main_v81 (F := Ideal) x0 x1 x3 x4 x5 x6 x7 x8 x9 x10 (ix3 B h n)
      = rowmax (fun m => val_main_v78 (F := Ideal) x0 x1 x3 x4 x5 x6 x7 x8 x9 x10 (ix4 B h n m)) := by
  rw [val_main_v81_apply, val_main_v80_apply, val_main_cst_11_apply]
  unfold val_main_v79
  rw [hostMax_row, val_main_cst_10_apply]
  exact max_fold_max_self _ _ _

/-- The exponential of a score minus its row's maximum. -/
theorem exp1_ref (B : Fin 2048) (h : Fin 8) (n m : Fin 64) :
    val_main_v85 (F := Ideal) x0 x1 x3 x4 x5 x6 x7 x8 x9 x10 (ix4 B h n m)
      = Ideal.exp (val_main_v78 (F := Ideal) x0 x1 x3 x4 x5 x6 x7 x8 x9 x10 (ix4 B h n m)
          - rowmax (fun m' => val_main_v78 (F := Ideal) x0 x1 x3 x4 x5 x6 x7 x8 x9 x10 (ix4 B h n m'))) := by
  rw [val_main_v85_apply, val_main_v84_apply, val_main_v83_apply, val_main_v82_apply,
    show idx_main_v82 (idx_main_v83 (ix4 B h n m)) = ix3 B h n from Cert.Lib.idx3_ext _ _ _ _ rfl rfl rfl,
    rowmax1_ref]
  rfl

/-- The softmax at (B, h, n, m): that exponential over the row's sum of them (the sum starts from the zero word). -/
theorem smax1_ref (B : Fin 2048) (h : Fin 8) (n m : Fin 64) :
    val_main_v89 (F := Ideal) x0 x1 x3 x4 x5 x6 x7 x8 x9 x10 (ix4 B h n m)
      = smax (fun m' => val_main_v78 (F := Ideal) x0 x1 x3 x4 x5 x6 x7 x8 x9 x10 (ix4 B h n m')) m := by
  rw [val_main_v89_apply, val_main_v88_apply, val_main_v87_apply,
    show idx_main_v87 (idx_main_v88 (ix4 B h n m)) = ix3 B h n from Cert.Lib.idx3_ext _ _ _ _ rfl rfl rfl,
    val_main_v86_apply, val_main_cst_12_apply]
  have e : ∀ k : Fin 64, idx_main_v86 (ix3 B h n) k = ix4 B h n k := fun k => idx4_ext _ _ _ _ _ rfl rfl rfl rfl
  simp only [e, exp1_ref, Ideal.ofBits_def, Ideal.ofBits_zero_f32, zero_add]
  rfl

/-- The context per head at (B, h, n, d): the softmax row against the values' lane `d`. -/
theorem ctxh1_ref (B : Fin 2048) (h : Fin 8) (n : Fin 64) (d : Fin 32) :
    val_main_v104 (F := Ideal) x0 x1 x3 x4 x5 x6 x7 x8 x9 x10 (ix4 B h n d)
      = ∑ m : Fin 64, smax (score (yo x0 x3 x5 x6 x9 B) (yd x1 x4 x7 x8 x10 B) h n) m * yd x1 x4 x7 x8 x10 B m (vi h d) := by
  rw [val_main_v104_apply]
  have el : ∀ k : Fin 64, lidx_main_v104 (ix4 B h n d) k = ix4 B h n k := fun k => idx4_ext _ _ _ _ _ rfl rfl rfl rfl
  have er : ∀ k : Fin 64, ridx_main_v104 (ix4 B h n d) k = ix4 B h k d := fun k => idx4_ext _ _ _ _ _ rfl rfl rfl rfl
  simp only [el, er, smax1_ref, v1_ref, score1_ref]

/-- The heads side by side: channel `c` of token `n` is lane `c % 32` of head `c / 32`. -/
theorem ctx1_ref (B : Fin 2048) (n : Fin 64) (c : Fin 256) :
    val_main_v106 (F := Ideal) x0 x1 x3 x4 x5 x6 x7 x8 x9 x10 (ix3 B n c)
      = ctx (yo x0 x3 x5 x6 x9 B) (yd x1 x4 x7 x8 x10 B) (yd x1 x4 x7 x8 x10 B) n c := by
  rw [val_main_v106_apply, val_main_v105_apply]
  refine (congrArg _ (cidx B n c)).trans ?_
  rw [ctxh1_ref]
  rfl

/-! ### The attention of queries from `yd` against keys and values from `yo` -/

/-- The score at (B, h, n, m): the sum over the 32 lanes of query times key, times the scale word. -/
theorem score2_ref (B : Fin 2048) (h : Fin 8) (n m : Fin 64) :
    val_main_v92 (F := Ideal) x0 x1 x3 x4 x5 x6 x7 x8 x9 x10 (ix4 B h n m) = score (yd x1 x4 x7 x8 x10 B) (yo x0 x3 x5 x6 x9 B) h n m := by
  rw [val_main_v92_apply, val_main_v91_apply, val_main_cst_13_apply, val_main_v90_apply]
  have el : ∀ k : Fin 32, lidx_main_v90 (ix4 B h n m) k = ix4 B h n k := fun k => idx4_ext _ _ _ _ _ rfl rfl rfl rfl
  have er : ∀ k : Fin 32, ridx_main_v90 (ix4 B h n m) k = ix4 B h m k := fun k => idx4_ext _ _ _ _ _ rfl rfl rfl rfl
  simp only [el, er, q2_ref, k2_ref]
  rfl

/-- The row maximum at (B, h, n): the fold of `max` from the word of -∞ over the 64 scores of the row; the further `max`
    with that word is absorbed. -/
theorem rowmax2_ref (B : Fin 2048) (h : Fin 8) (n : Fin 64) :
    val_main_v95 (F := Ideal) x0 x1 x3 x4 x5 x6 x7 x8 x9 x10 (ix3 B h n)
      = rowmax (fun m => val_main_v92 (F := Ideal) x0 x1 x3 x4 x5 x6 x7 x8 x9 x10 (ix4 B h n m)) := by
  rw [val_main_v95_apply, val_main_v94_apply, val_main_cst_15_apply]
  unfold val_main_v93
  rw [hostMax_row, val_main_cst_14_apply]
  exact max_fold_max_self _ _ _

/-- The exponential of a score minus its row's maximum. -/
theorem exp2_ref (B : Fin 2048) (h : Fin 8) (n m : Fin 64) :
    val_main_v99 (F := Ideal) x0 x1 x3 x4 x5 x6 x7 x8 x9 x10 (ix4 B h n m)
      = Ideal.exp (val_main_v92 (F := Ideal) x0 x1 x3 x4 x5 x6 x7 x8 x9 x10 (ix4 B h n m)
          - rowmax (fun m' => val_main_v92 (F := Ideal) x0 x1 x3 x4 x5 x6 x7 x8 x9 x10 (ix4 B h n m'))) := by
  rw [val_main_v99_apply, val_main_v98_apply, val_main_v97_apply, val_main_v96_apply,
    show idx_main_v96 (idx_main_v97 (ix4 B h n m)) = ix3 B h n from Cert.Lib.idx3_ext _ _ _ _ rfl rfl rfl,
    rowmax2_ref]
  rfl

/-- The softmax at (B, h, n, m): that exponential over the row's sum of them (the sum starts from the zero word). -/
theorem smax2_ref (B : Fin 2048) (h : Fin 8) (n m : Fin 64) :
    val_main_v103 (F := Ideal) x0 x1 x3 x4 x5 x6 x7 x8 x9 x10 (ix4 B h n m)
      = smax (fun m' => val_main_v92 (F := Ideal) x0 x1 x3 x4 x5 x6 x7 x8 x9 x10 (ix4 B h n m')) m := by
  rw [val_main_v103_apply, val_main_v102_apply, val_main_v101_apply,
    show idx_main_v101 (idx_main_v102 (ix4 B h n m)) = ix3 B h n from Cert.Lib.idx3_ext _ _ _ _ rfl rfl rfl,
    val_main_v100_apply, val_main_cst_16_apply]
  have e : ∀ k : Fin 64, idx_main_v100 (ix3 B h n) k = ix4 B h n k := fun k => idx4_ext _ _ _ _ _ rfl rfl rfl rfl
  simp only [e, exp2_ref, Ideal.ofBits_def, Ideal.ofBits_zero_f32, zero_add]
  rfl

/-- The context per head at (B, h, n, d): the softmax row against the values' lane `d`. -/
theorem ctxh2_ref (B : Fin 2048) (h : Fin 8) (n : Fin 64) (d : Fin 32) :
    val_main_v107 (F := Ideal) x0 x1 x3 x4 x5 x6 x7 x8 x9 x10 (ix4 B h n d)
      = ∑ m : Fin 64, smax (score (yd x1 x4 x7 x8 x10 B) (yo x0 x3 x5 x6 x9 B) h n) m * yo x0 x3 x5 x6 x9 B m (vi h d) := by
  rw [val_main_v107_apply]
  have el : ∀ k : Fin 64, lidx_main_v107 (ix4 B h n d) k = ix4 B h n k := fun k => idx4_ext _ _ _ _ _ rfl rfl rfl rfl
  have er : ∀ k : Fin 64, ridx_main_v107 (ix4 B h n d) k = ix4 B h k d := fun k => idx4_ext _ _ _ _ _ rfl rfl rfl rfl
  simp only [el, er, smax2_ref, v2_ref, score2_ref]

/-- The heads side by side: channel `c` of token `n` is lane `c % 32` of head `c / 32`. -/
theorem ctx2_ref (B : Fin 2048) (n : Fin 64) (c : Fin 256) :
    val_main_v109 (F := Ideal) x0 x1 x3 x4 x5 x6 x7 x8 x9 x10 (ix3 B n c)
      = ctx (yd x1 x4 x7 x8 x10 B) (yo x0 x3 x5 x6 x9 B) (yo x0 x3 x5 x6 x9 B) n c := by
  rw [val_main_v109_apply, val_main_v108_apply]
  refine (congrArg _ (cidx B n c)).trans ?_
  rw [ctxh2_ref]
  rfl

/-! ### The mixing weights, the prototypes as tokens, and the mix -/

/-- The first mixing weight, sliced out of the 3-vector, reshaped to a scalar and broadcast, is entry 0 everywhere. -/
theorem w0_ref (i : S2048x64x256.Idx) : val_main_v112 (F := Ideal) x11 i = x11 (ix1 (0 : Fin 3)) := by
  rw [val_main_v112_apply]
  unfold val_main_v111
  rw [scalar_of_one, val_main_v110_apply]
  exact congrArg x11 (Cert.Lib.idx1_ext _ _ rfl)

/-- The second is entry 1. -/
theorem w1_ref (i : S2048x64x256.Idx) : val_main_v116 (F := Ideal) x11 i = x11 (ix1 (1 : Fin 3)) := by
  rw [val_main_v116_apply]
  unfold val_main_v115
  rw [scalar_of_one, val_main_v114_apply]
  exact congrArg x11 (Cert.Lib.idx1_ext _ _ rfl)

/-- The third is entry 2. -/
theorem w2_ref (i : S2048x64x256.Idx) : val_main_v121 (F := Ideal) x11 i = x11 (ix1 (2 : Fin 3)) := by
  rw [val_main_v121_apply]
  unfold val_main_v120
  rw [scalar_of_one, val_main_v119_apply]
  exact congrArg x11 (Cert.Lib.idx1_ext _ _ rfl)

/-- The prototypes as tokens: token `n`, channel `c` is the channel-major map at pixel (n / 8, n % 8). -/
theorem proto_ref (B : Fin 2048) (n : Fin 64) (c : Fin 256) :
    val_main_v1 (F := Ideal) x2 (ix3 B n c) = x2 (ix4 B c (prow n) (pcol n)) := by
  rw [val_main_v1_apply, val_main_v0_apply, pidx]

/-- The three-way mix at (B, n, c). -/
theorem mix_ref (B : Fin 2048) (n : Fin 64) (c : Fin 256) :
    val_main_v123 (F := Ideal) x0 x1 x2 x3 x4 x5 x6 x7 x8 x9 x10 x11 (ix3 B n c)
      = mix (fun k => x11 (ix1 k)) (yo x0 x3 x5 x6 x9 B) (yd x1 x4 x7 x8 x10 B) (fun c n => x2 (ix4 B c (prow n) (pcol n))) c n := by
  rw [val_main_v123_apply, val_main_v118_apply, val_main_v113_apply, val_main_v117_apply, val_main_v122_apply,
    w0_ref, w1_ref, w2_ref, ctx2_ref, ctx1_ref, proto_ref]
  rfl

end

/-- The result at (B, c, r, s): the mix at channel `c`, token 8r + s, the projections being the reference's stages
    `val_main_v58` (origin branch) and `val_main_v67` (second branch) of batch row `B`. -/
theorem core_ref (x0 x1 x2 : (⟨S2048x256x8x8, .f32⟩ : BufTy).Contents (Elt Ideal)) (x3 x4 : (⟨S1x64x256, .f32⟩ : BufTy).Contents (Elt Ideal)) (x5 x6 x7 x8 : (⟨S256, .f32⟩ : BufTy).Contents (Elt Ideal))
    (x9 x10 : (⟨S768x256, .f32⟩ : BufTy).Contents (Elt Ideal)) (x11 : (⟨S3, .f32⟩ : BufTy).Contents (Elt Ideal)) (B : Fin 2048) (c : Fin 256) (r s : Fin 8) :
    val_main_v125 (F := Ideal) x0 x1 x2 x3 x4 x5 x6 x7 x8 x9 x10 x11 (ix4 B c r s)
      = mix (fun k => x11 (ix1 k)) (fun n p => val_main_v58 (F := Ideal) x0 x3 x5 x6 x9 (ix3 B n p))
          (fun n p => val_main_v67 (F := Ideal) x1 x4 x7 x8 x10 (ix3 B n p))
          (fun c n => x2 (ix4 B c (prow n) (pcol n))) c (tokOf r s) := by
  rw [val_main_v125_apply, val_main_v124_apply, oidx]
  exact mix_ref x0 x1 x2 x3 x4 x5 x6 x7 x8 x9 x10 x11 B (tokOf r s) c

end Cert.CrossAttn.RefCore

end
-- ==== Proof.RefValue.lean ====
/-
  The reference's result as one function of the twelve argument arrays: the attention core read in terms of the two
  projections, and each projection read in terms of the normed tokens (the reference's form of the norm).
-/
import proofs.«156077_j26328149525078_2_alg».proof.Proof.RefNormProj
import proofs.«156077_j26328149525078_2_alg».proof.Proof.RefCore
import proofs.«156077_j26328149525078_2_alg».proof.Proof.Final

noncomputable section

namespace Cert.CrossAttn.RefValue

open Idealize.ShloMosaic Idealize.ShloMosaic.ValueIdx Cert.ReferenceIdeal Cert.ReferenceIdeal.Read Cert.CrossAttn

/-- The reference's last stage is the result array in the reference's form. -/
theorem ref_eq (x0 x1 x2 : (⟨S2048x256x8x8, .f32⟩ : BufTy).Contents (Elt Ideal)) (x3 x4 : (⟨S1x64x256, .f32⟩ : BufTy).Contents (Elt Ideal)) (x5 x6 x7 x8 : (⟨S256, .f32⟩ : BufTy).Contents (Elt Ideal))
    (x9 x10 : (⟨S768x256, .f32⟩ : BufTy).Contents (Elt Ideal)) (x11 : (⟨S3, .f32⟩ : BufTy).Contents (Elt Ideal)) :
    val_main_v125 (F := Ideal) x0 x1 x2 x3 x4 x5 x6 x7 x8 x9 x10 x11 = Cert.CrossAttn.Final.Gr x0 x1 x2 x3 x4 x5 x6 x7 x8 x9 x10 x11 := by
  funext i
  obtain ⟨B, ch, r, s, rfl⟩ : ∃ (B : Fin 2048) (ch : Fin 256) (r s : Fin 8), i = ix4 B ch r s := ⟨i 0, i 1, i 2, i 3, eq_ix4 i⟩
  rw [Cert.CrossAttn.RefCore.core_ref]
  unfold Cert.CrossAttn.Final.Gr outR
  simp only [Cert.CrossAttn.RefNormProj.yo_ref, Cert.CrossAttn.RefNormProj.yd_ref]
  rfl

end Cert.CrossAttn.RefValue

end
-- ==== Proof.Finite.lean ====
/-
  From the precondition to real entries: the precondition is the conjunction, input by input, of "every entry's
  absolute value is below +∞"; an extended real whose absolute value is below +∞ is a real. Only the four inputs the
  norm reads are needed: the two maps and the two positional tables.
-/
import proofs.«156077_j26328149525078_2_alg».proof.Pre_finite_inputs
import Idealize.ShloMosaic.Lib.ReduceAll
import Idealize.ShloMosaic.Lib.ValueIdx
import Idealize.ShloMosaic.PureOps.Ideal.Laws

noncomputable section

namespace Cert.CrossAttn.Finite

open Idealize.ShloMosaic Idealize.ShloMosaic.ValueIdx Cert.Pre_finite_inputs

/-- The scalar shape has one index. -/
instance : Subsingleton S_.Idx := ⟨fun a b => funext fun d => d.elim0⟩

/-- The word `0x7F800000` denotes +∞. -/
theorem inf_word : Ideal.ofBits .f32 0x7F800000#32 = (⊤ : EReal) := by simp [Ideal.ofBits, Ideal.ieee]

/-- An extended real whose absolute value `max x (-x)` is strictly below +∞ is a real: at `⊥` and at `⊤` the absolute
    value is `⊤`, which is not below itself. -/
theorem real_of_abs_lt (x : Ideal .f32)
    (h : FloatOps.cmpf .olt (FloatOps.hostAbsf x) (Ideal.ofBits .f32 0x7F800000#32) = 1#1) : ∃ r : ℝ, x = (r : EReal) := by
  rw [inf_word] at h
  change Ideal.cmp .olt (max (x : EReal) (-(x : EReal))) ⊤ = 1#1 at h
  induction x using EReal.rec with
  | bot => simp [Ideal.cmp] at h
  | top => simp [Ideal.cmp] at h
  | coe r => exact ⟨r, rfl⟩

/-- One input's bit: if the conjunction over all entries of "`|x| < +∞`" is 1, every entry of `x` is a real. Generic in
    the shape and in the reduced axes. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) :=
  real_of_abs_lt (x i) (Host.reduce_andi_all _ _ hr hu ix0 e i)

/-- The conjunction of two scalar bits is 1 exactly when both are. -/
theorem andi_ix0 (p q : IVec S_ 1) : andi p q ix0 = 1#1 ↔ p ix0 = 1#1 ∧ q ix0 = 1#1 := IntOp.andi_eq_one

/-- Under the precondition every entry of the two maps and of the two positional tables is a real. -/
theorem real_of_pre [Cert.Pre_finite_inputs.Facts] (a0 a1 a2 : FVec Ideal S2048x256x8x8 .f32) (a3 a4 : FVec Ideal S1x64x256 .f32)
    (a5 a6 a7 a8 : FVec Ideal S256 .f32) (a9 a10 : FVec Ideal S768x256 .f32) (a11 : FVec Ideal S3 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal))
      ∧ (∀ i, ∃ r : ℝ, a3 i = (r : EReal)) ∧ (∀ i, ∃ r : ℝ, a4 i = (r : EReal)) := by
  -- the precondition's one bit, with the printed function unfolded: a left-nested conjunction of twelve bits, one per input
  have h0 := congrFun h ValueIdx.ix0
  dsimp only [fn, fn_part1, fn_part2, fn_part3] at h0
  -- peel the conjunction from the outside: inputs 11, 10, …, 5 go, then 4, 3, (2 goes), then 0 and 1 remain
  obtain ⟨h0, -⟩ := (andi_ix0 _ _).1 h0
  obtain ⟨h0, -⟩ := (andi_ix0 _ _).1 h0
  obtain ⟨h0, -⟩ := (andi_ix0 _ _).1 h0
  obtain ⟨h0, -⟩ := (andi_ix0 _ _).1 h0
  obtain ⟨h0, -⟩ := (andi_ix0 _ _).1 h0
  obtain ⟨h0, -⟩ := (andi_ix0 _ _).1 h0
  obtain ⟨h0, -⟩ := (andi_ix0 _ _).1 h0
  obtain ⟨h0, e4⟩ := (andi_ix0 _ _).1 h0
  obtain ⟨h0, e3⟩ := (andi_ix0 _ _).1 h0
  obtain ⟨h0, -⟩ := (andi_ix0 _ _).1 h0
  obtain ⟨e0, e1⟩ := (andi_ix0 _ _).1 h0
  exact ⟨real_of_all a0 _ _ _ e0, real_of_all a1 _ _ _ e1, real_of_all a3 _ _ _ e3, real_of_all a4 _ _ _ e4⟩

end Cert.CrossAttn.Finite

end
-- ==== Proof.lean ====
/-
  The proof of `Cert.Claim`: the cross-attention kernel against its reference.

  Both programs compute, for each of the 2048 batch rows independently, the same function of the row's three 256 × 64
  maps and of the shared tables: tokens (the map transposed plus the positional table), a row norm over the 256
  channels, a 768-column projection split into queries, keys and values of 8 heads of 32 lanes, scaled scores, a
  softmax over the 64 keys, the context, and a three-way mix with the prototypes, laid back channel-major as an 8 × 8
  map. The kernel does this on blocks of 16 batch rows with the heads stacked along the batch axis and bf16 narrowing
  before each product; the reference does it on the whole batch with a five-axis reshape and transposes. At the ideal
  instance narrowing is the identity, a matrix product into a zero accumulator is the plain sum of products, and a lane
  reduction is the plain sum or maximum, so the two sides differ only in the norm: the kernel multiplies the deviation
  by the reciprocal square root of variance plus ε, the reference divides it by the square root. Under the
  precondition the maps and the positional tables hold reals, so variance plus ε is a positive real and the two agree.

  * `frame` of the two kernel programs: the generated frame certificates; of the reference: its generated run.
  * `preserves`: the ideal pass rewrote nothing.
  * `algebraic`: the kernel's run read to the function `Final.Gk` of the arguments (blocks to array, the host
    reshapes and transposes read at an index), the reference's generated run read to `Final.Gr` (its stages read at an
    index), and `Gk = Gr` on real maps and tables.
-/
import proofs.«156077_j26328149525078_2_alg».proof.Defs
import proofs.«156077_j26328149525078_2_alg».proof.Proof.Gen.Kernel
import proofs.«156077_j26328149525078_2_alg».proof.Proof.Gen.Kernel.Skeleton
import proofs.«156077_j26328149525078_2_alg».proof.Proof.Gen.Kernel.Launch
import proofs.«156077_j26328149525078_2_alg».proof.Proof.Gen.Kernel.Points
import proofs.«156077_j26328149525078_2_alg».proof.Proof.Gen.Kernel.Frame
import proofs.«156077_j26328149525078_2_alg».proof.Proof.Gen.KernelIdeal
import proofs.«156077_j26328149525078_2_alg».proof.Proof.Gen.KernelIdeal.Skeleton
import proofs.«156077_j26328149525078_2_alg».proof.Proof.Gen.KernelIdeal.Launch
import proofs.«156077_j26328149525078_2_alg».proof.Proof.Gen.KernelIdeal.Points
import proofs.«156077_j26328149525078_2_alg».proof.Proof.Gen.KernelIdeal.Frame
import proofs.«156077_j26328149525078_2_alg».proof.Proof.Gen.ReferenceIdeal
import proofs.«156077_j26328149525078_2_alg».proof.Proof.Gen.Pre_finite_inputs
import proofs.«156077_j26328149525078_2_alg».proof.Proof.Gen.ReferenceIdeal.Run
import proofs.«156077_j26328149525078_2_alg».proof.Proof.Gen.ReferenceIdeal.Read
import proofs.«156077_j26328149525078_2_alg».proof.Proof.KernelRun
import proofs.«156077_j26328149525078_2_alg».proof.Proof.RefValue
import proofs.«156077_j26328149525078_2_alg».proof.Proof.Finite
import proofs.«156077_j26328149525078_2_alg».proof.Proof.Final
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- The idealized kernel program runs and keeps its arguments: the generated frame certificate. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the kernel's is the
    function of the arguments with the norm in the kernel's form, the reference's the same function with the norm in
    the reference's form, and under the precondition the maps and positional tables are real, where the forms agree. -/
theorem algebraic : Cert.algebraic_KernelIdeal_ReferenceIdeal := by
  intro m ρ m' ρ' hpre hagree
  refine ⟨fun c => Cert.CrossAttn.Final.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Hand.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v125_eq, Cert.CrossAttn.RefValue.ref_eq]
  obtain ⟨a0, a1, a2, a3, a4, a5, a6, a7, a8, a9, a10, a11⟩ := hagree c
  rw [a0, a1, a2, a3, a4, a5, a6, a7, a8, a9, a10, a11]
  obtain ⟨h0, h1, h3, h4⟩ := Cert.CrossAttn.Finite.real_of_pre _ _ _ _ _ _ _ _ _ _ _ _ (hpre c)
  exact (Cert.CrossAttn.Final.Gk_eq_Gr _ _ _ _ _ _ _ _ _ _ _ _ h0 h1 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
